-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : FVec F S400000x128 .f32) (main_arg2 : FVec F S128x128 .f32) (main_arg3 : FVec F S128x128 .f32) (main_arg4 : FVec F S128x128 .f32) (main_arg5 : FVec F S128x128 .f32) (main_arg6 : IVec S400000 32) (main_arg7 : IVec S400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S_ : Shape := ⟨0, ![]⟩
abbrev S400000x1 : Shape := ⟨2, ![400000, 1]⟩
abbrev S400000x8 : Shape := ⟨2, ![400000, 8]⟩
abbrev S8000x128 : Shape := ⟨2, ![8000, 128]⟩
abbrev S8000x8 : Shape := ⟨2, ![8000, 8]⟩
abbrev S50000x8 : Shape := ⟨2, ![50000, 8]⟩
abbrev S50000x8x16 : Shape := ⟨3, ![50000, 8, 16]⟩
abbrev S50000x8x1 : Shape := ⟨3, ![50000, 8, 1]⟩
abbrev S400000x8x16 : Shape := ⟨3, ![400000, 8, 16]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S400000, .i32⟩
  | .hbm, ⟨7, _⟩ => ⟨S400000, .i32⟩
  | .hbm, ⟨8, _⟩ => ⟨S128x8, .f32⟩
  | .hbm, ⟨9, _⟩ => ⟨S8x128, .f32⟩
  | .hbm, ⟨10, _⟩ => ⟨S128x384, .f32⟩
  | .hbm, ⟨11, _⟩ => ⟨S50000x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x8, .f32⟩
  | .hbm, ⟨45, _⟩ => ⟨S_, .f32⟩
  | .hbm, ⟨46, _⟩ => ⟨S50000x128, .f32⟩
  | .hbm, ⟨47, _⟩ => ⟨S400000x1, .i32⟩
  | .hbm, ⟨48, _⟩ => ⟨S50000x128, .f32⟩
  | .hbm, ⟨49, _⟩ => ⟨S_, .f32⟩
  | .hbm, ⟨50, _⟩ => ⟨S50000x8, .f32⟩
  | .hbm, ⟨51, _⟩ => ⟨S400000x1, .i32⟩
  | .hbm, ⟨52, _⟩ => ⟨S50000x8, .f32⟩
  | .hbm, ⟨53, _⟩ => ⟨S50000x8x16, .f32⟩
  | .hbm, ⟨54, _⟩ => ⟨S50000x8x1, .f32⟩
  | .hbm, ⟨55, _⟩ => ⟨S_, .f32⟩
  | .hbm, ⟨56, _⟩ => ⟨S50000x8x1, .f32⟩
  | .hbm, ⟨57, _⟩ => ⟨S50000x8x1, .f32⟩
  | .hbm, ⟨58, _⟩ => ⟨S50000x8x16, .f32⟩
  | .hbm, ⟨59, _⟩ => ⟨S50000x8x16, .f32⟩
  | .hbm, ⟨60, _⟩ => ⟨S400000x8x16, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S128x128, .f32⟩
  | .local _ .vmem, ⟨14, _⟩ => ⟨S128x8, .f32⟩
  | .local _ .vmem, ⟨15, _⟩ => ⟨S8x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x8, .f32⟩
  | .local _ .vmem, ⟨21, _⟩ => ⟨S8000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8000x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S400000 : S_.BroadcastsInDim S400000 (![] : Fin 0 → Fin S400000.rank)
  bcast_S400000_S400000x1_0 : S400000.BroadcastsInDim S400000x1 (![0] : Fin 1 → Fin S400000x1.rank)
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S8000x128_S8000x128 : S8000x128.ShapeCasts S8000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S8000x8_S8000x8_0_0 : ∀ a, (![0, 0] : Fin 2 → Nat) a + S8000x8.size a ≤ S8000x8.size a
  h_S8000x8 : 0 < S8000x8.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S400000x128_S400000x8x16 : S400000x128.ShapeCasts S400000x8x16
  dot_S5000x128_S128x384_S5000x384_1_0_0_1_n_n_wf : DotDims.WF S5000x128 S128x384 S5000x384 [1] [0] [0] [1] [] []
  gather_S50000x128_S400000x1_S400000x128_1_0_n_n_0_1_1128_wf : GatherDims.WF S50000x128 S400000x1 S400000x128 [1] [0] [] [0] [] 1 ![1, 128]
  dot_S8000x128_S128x128_S8000x128_1_0_0_1_n_n_wf : DotDims.WF S8000x128 S128x128 S8000x128 [1] [0] [0] [1] [] []
  dot_S8000x128_S128x8_S8000x8_1_0_0_1_n_n_wf : DotDims.WF S8000x128 S128x8 S8000x8 [1] [0] [0] [1] [] []
  dot_S8000x8_S8x128_S8000x128_1_0_0_1_n_n_wf : DotDims.WF S8000x8 S8x128 S8000x128 [1] [0] [0] [1] [] []
  scatter_S50000x128_S400000x1_S400000x128_1_0_0_1_wf : ScatterDims.WF S50000x128 S400000x1 S400000x128 [1] [0] [0] 1
  scatter_S50000x8_S400000x1_S400000x8_1_0_0_1_wf : ScatterDims.WF S50000x8 S400000x1 S400000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S400000x128.size a
  hwx1_0 : ∀ i : grid1.Coords, EltTy.bits .f32 = 32 ∨ (Rect.block (s := S400000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S400000x128.size a
  hwx1_1 : ∀ i : grid1.Coords, EltTy.bits .f32 = 32 ∨ (Rect.block (s := S400000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S400000x128.size a
  hwx1_2 : ∀ i : grid1.Coords, EltTy.bits .f32 = 32 ∨ (Rect.block (s := S400000x128) S8000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S400000x128.size a
  hwx1_3 : ∀ i : grid1.Coords, EltTy.bits .f32 = 32 ∨ (Rect.block (s := S400000x128) S8000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x8.size a ≤ S128x8.size a
  hwx1_5 : ∀ i : grid1.Coords, EltTy.bits .f32 = 32 ∨ (Rect.block (s := S128x8) S128x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x128.size a ≤ S400000x128.size a
  hwx1_7 : ∀ i : grid1.Coords, EltTy.bits .f32 = 32 ∨ (Rect.block (s := S400000x128) S8000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x128.size a ≤ S400000x128.size a
  hwx1_8 : ∀ i : grid1.Coords, EltTy.bits .f32 = 32 ∨ (Rect.block (s := S400000x128) S8000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x8.size a ≤ S400000x8.size a
  hwx1_9 : ∀ i : grid1.Coords, EltTy.bits .f32 = 32 ∨ (Rect.block (s := S400000x8) S8000x8.size (cc1_transform_9 i) (hinb1_9 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x8_S400000x1_S400000x8_1_0_0_1 : ScatterDims S50000x8 S400000x1 S400000x8 where
  updateWindowDims := [1]
  insertedWindowDims := [0]
  scatterDimsToOperandDims := [0]
  indexVectorDim := 1
  wf := scatter_S50000x8_S400000x1_S400000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S8000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_cst_0) S8x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26_0) S8000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_1) S8000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v26_2) S8000x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S128x128 : Shape := ⟨2, ![128, 128]⟩
abbrev S400000 : Shape := ⟨1, ![400000]⟩
abbrev S50000x8x16 : Shape := ⟨3, ![50000, 8, 16]⟩
abbrev S400000x8x16 : Shape := ⟨3, ![400000, 8, 16]⟩
abbrev S_ : Shape := ⟨0, ![]⟩
abbrev S400000x1 : Shape := ⟨2, ![400000, 1]⟩
abbrev S400000x8 : Shape := ⟨2, ![400000, 8]⟩
abbrev S400000x8x1 : Shape := ⟨3, ![400000, 8, 1]⟩
abbrev S50000x8x1 : Shape := ⟨3, ![50000, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S400000, .i32⟩
  | .hbm, ⟨7, _⟩ => ⟨S400000, .i32⟩
  | .hbm, ⟨8, _⟩ => ⟨S50000x128, .f32⟩
  | .hbm, ⟨9, _⟩ => ⟨S50000x8x16, .f32⟩
  | .hbm, ⟨10, _⟩ => ⟨S50000x128, .f32⟩
  | .hbm, ⟨11, _⟩ => ⟨S50000x8x16, .f32⟩
  | .hbm, ⟨12, _⟩ => ⟨S50000x128, .f32⟩
  | .hbm, ⟨13, _⟩ => ⟨S50000x8x16, .f32⟩
  | .hbm, ⟨14, _⟩ => ⟨S400000x128, .f32⟩
  | .hbm, ⟨15, _⟩ => ⟨S400000x8x16, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x8x16, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x8x16, .f32⟩
  | .hbm, ⟨34, _⟩ => ⟨S400000x8x16, .f32⟩
  | .hbm, ⟨35, _⟩ => ⟨S_, .f32⟩
  | .hbm, ⟨36, _⟩ => ⟨S_, .f32⟩
  | .hbm, ⟨37, _⟩ => ⟨S400000x8x16, .f32⟩
  | .hbm, ⟨38, _⟩ => ⟨S400000x8x16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S400000x8x16, .f32⟩
  | .hbm, ⟨43, _⟩ => ⟨S400000x8x16, .f32⟩
  | .hbm, ⟨44, _⟩ => ⟨S_, .f32⟩
  | .hbm, ⟨45, _⟩ => ⟨S400000x8x16, .f32⟩
  | .hbm, ⟨46, _⟩ => ⟨S400000x8x16, .f32⟩
  | .hbm, ⟨47, _⟩ => ⟨S400000x8x16, .f32⟩
  | .hbm, ⟨48, _⟩ => ⟨S_, .f32⟩
  | .hbm, ⟨49, _⟩ => ⟨S400000x8, .f32⟩
  | .hbm, ⟨50, _⟩ => ⟨S400000x8x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S400000x8x1, .f32⟩
  | .hbm, ⟨55, _⟩ => ⟨S400000x8x1, .f32⟩
  | .hbm, ⟨56, _⟩ => ⟨S_, .f32⟩
  | .hbm, ⟨57, _⟩ => ⟨S400000x8x1, .f32⟩
  | .hbm, ⟨58, _⟩ => ⟨S400000x8x1, .f32⟩
  | .hbm, ⟨59, _⟩ => ⟨S400000x8x1, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x8x16, .f32⟩
  | .hbm, ⟨69, _⟩ => ⟨S400000x8x16, .f32⟩
  | .hbm, ⟨70, _⟩ => ⟨S400000x8x16, .f32⟩
  | .hbm, ⟨71, _⟩ => ⟨S_, .f32⟩
  | .hbm, ⟨72, _⟩ => ⟨S50000x8x16, .f32⟩
  | .hbm, ⟨73, _⟩ => ⟨S400000x1, .i32⟩
  | .hbm, ⟨74, _⟩ => ⟨S50000x8x16, .f32⟩
  | .hbm, ⟨75, _⟩ => ⟨S_, .f32⟩
  | .hbm, ⟨76, _⟩ => ⟨S50000x8x1, .f32⟩
  | .hbm, ⟨77, _⟩ => ⟨S400000x1, .i32⟩
  | .hbm, ⟨78, _⟩ => ⟨S50000x8x1, .f32⟩
  | .hbm, ⟨79, _⟩ => ⟨S_, .f32⟩
  | .hbm, ⟨80, _⟩ => ⟨S50000x8x1, .f32⟩
  | .hbm, ⟨81, _⟩ => ⟨S50000x8x1, .f32⟩
  | .hbm, ⟨82, _⟩ => ⟨S50000x8x16, .f32⟩
  | .hbm, ⟨83, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_cst_7 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S400000x128_S400000x8x16 : S400000x128.ShapeCasts S400000x8x16
  bcast_S_S400000 : S_.BroadcastsInDim S400000 (![] : Fin 0 → Fin S400000.rank)
  bcast_S400000_S400000x1_0 : S400000.BroadcastsInDim S400000x1 (![0] : Fin 1 → Fin S400000x1.rank)
  bcast_S_S400000x8x16 : S_.BroadcastsInDim S400000x8x16 (![] : Fin 0 → Fin S400000x8x16.rank)
  reducesTo_S400000x8x16_S400000x8_d2 : S400000x8x16.ReducesTo [2] S400000x8
  h_S_ : 0 < S_.numel
  bcast_S400000x8_S400000x8x1_0_1 : S400000x8.BroadcastsInDim S400000x8x1 (![0, 1] : Fin 2 → Fin S400000x8x1.rank)
  bcast_S_S400000x8x1 : S_.BroadcastsInDim S400000x8x1 (![] : Fin 0 → Fin S400000x8x1.rank)
  bcast_S400000x8x1_S400000x8x16_0_1_2 : S400000x8x1.BroadcastsInDim S400000x8x16 (![0, 1, 2] : Fin 3 → Fin S400000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S400000x128_S128x128_S400000x128_1_0_0_1_n_n_wf : DotDims.WF S400000x128 S128x128 S400000x128 [1] [0] [0] [1] [] []
  gather_S50000x8x16_S400000x1_S400000x8x16_12_0_n_n_0_1_1816_wf : GatherDims.WF S50000x8x16 S400000x1 S400000x8x16 [1, 2] [0] [] [0] [] 1 ![1, 8, 16]
  scatter_S50000x8x16_S400000x1_S400000x8x16_12_0_0_1_wf : ScatterDims.WF S50000x8x16 S400000x1 S400000x8x16 [1, 2] [0] [0] 1
  scatter_S50000x8x1_S400000x1_S400000x8x1_12_0_0_1_wf : ScatterDims.WF S50000x8x1 S400000x1 S400000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x8x16_S400000x1_S400000x8x16_12_0_n_n_0_1_1816 : GatherDims S50000x8x16 S400000x1 S400000x8x16 where
  offsetDims := [1, 2]
  collapsedSliceDims := [0]
  operandBatchingDims := []
  startIndicesBatchingDims := []
  startIndexMap := [0]
  indexVectorDim := 1
  sliceSizes := ![1, 8, 16]
  wf := gather_S50000x8x16_S400000x1_S400000x8x16_12_0_n_n_0_1_1816_wf
def scatter_S50000x8x16_S400000x1_S400000x8x16_12_0_0_1 : ScatterDims S50000x8x16 S400000x1 S400000x8x16 where
  updateWindowDims := [1, 2]
  insertedWindowDims := [0]
  scatterDimsToOperandDims := [0]
  indexVectorDim := 1
  wf := scatter_S50000x8x16_S400000x1_S400000x8x16_12_0_0_1_wf
def scatter_S50000x8x1_S400000x1_S400000x8x1_12_0_0_1 : ScatterDims S50000x8x1 S400000x1 S400000x8x1 where
  updateWindowDims := [1, 2]
  insertedWindowDims := [0]
  scatterDimsToOperandDims := [0]
  indexVectorDim := 1
  wf := scatter_S50000x8x1_S400000x1_S400000x8x1_12_0_0_1_wf

class Facts : Prop extends Facts₀ where

variable [Facts]
-- ==== Proof.WordBlocks.lean ====
/-
  The two launches of the program, seen from the buffers they find.

  The first launch multiplies the node features, 5000 rows at a time over 10 grid points, by the three projection
  matrices laid side by side (a 128 x 384 matrix): each point loads its row block and the whole matrix and stores the
  product block. The second launch walks the 400000 edges 8000 at a time over 50 grid points: each point loads the
  gathered key, query and value rows of its edges, the edge features, the edge projection and the two head-indicator
  matrices, and stores three blocks: the gated scores, the weighted values and the per-head weights.

  Here: the block of each window at a grid point as a function of the array contents the launch is entered with, what
  each output's staging buffer holds after the body as a function of the input blocks (one store, covering the whole
  buffer, of the body's arithmetic), and the per-launch bookkeeping record that says so for every point.
-/
import proofs.«172924_j14508399526689_2_alg».proof.Proof.Gen.Kernel.Launch
import proofs.«172924_j14508399526689_2_alg».proof.Proof.Gen.Kernel.Skeleton
import proofs.«172924_j14508399526689_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents a launch is entered with, per core
variable (V : (c : Dev nD) → (b : Ref sig .tc) → Buf (Elt F) ((c : Thread nD τ).loc b))

/-! ## The node projection launch -/

/-- Window `w`'s block at grid point `t` of the projection launch: the rows `5000 t … 5000 t + 4999` of the node
    features or of the product, or the whole stacked weight matrix. -/
def blockP (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev rectX : Rect S5000x128 := Rect.unit (s := S5000x128) ![0, 0] S5000x128.size inb_S5000x128_S5000x128_0_0
abbrev rectW : Rect S128x384 := Rect.unit (s := S128x384) ![0, 0] S128x384.size inb_S128x384_S128x384_0_0
abbrev rectQKV : Rect S5000x384 := Rect.unit (s := S5000x384) ![0, 0] S5000x384.size inb_S5000x384_S5000x384_0_0

/-- The product block the body stores, from the row block `x` and the stacked weights `w`. -/
def outP (x : Vec F S5000x128 .f32) (w : Vec F S128x384 .f32) : Vec F S5000x384 .f32 :=
  View.canon [⟨rectQKV, k0_pay1 (View.ld x rectX) (View.ld w rectW)⟩]

/-- The one store covers the product's staging buffer. -/
theorem coverP (p : Vec F S5000x384 .f32) (y : S5000x384.Idx) :
    ∃ pc ∈ ([⟨rectQKV, p⟩] : List (View.Piece (Elt F) S5000x384 .f32)), y ∈ pc.1.set :=
  View.cover_of_tiled [⟨rectQKV, p⟩] S5000x384.size (by rfl) y

/-- The projection launch's record on core `c`: the arrays as found; after the body at point `t` each input's buffer
    still at its block and the output's at the product of the two input blocks; nothing owed, full shares. -/
def datP (c : Dev nD) : Dat τ (Elt F) Unit ℕ (UR sig nD τ) ℕ cfg0 c where
  A w := V c (Pipeline.arrRef spec0 w)
  after w t := match w with
    | ⟨0, _⟩ => blockP V c 0 t
    | ⟨1, _⟩ => blockP V c 1 t
    | ⟨2, _⟩ => outP (blockP V c 0 t) (blockP V c 1 t)
  Φ _ := Pipeline.ΦA spec0 c
  q _ := fullShare
  owed _ := 0

theorem datP_A (c : Dev nD) (w : Fin cfg0.W) : (datP V c).A w = V c (Pipeline.arrRef spec0 w) := by
  dsimp only [datP]
theorem afterP_0 (c : Dev nD) (t : Fin cfg0.N) : (datP V c).after 0 t = blockP V c 0 t := by dsimp only [datP]
theorem afterP_1 (c : Dev nD) (t : Fin cfg0.N) : (datP V c).after 1 t = blockP V c 1 t := by dsimp only [datP]
theorem afterP_2 (c : Dev nD) (t : Fin cfg0.N) :
    (datP V c).after 2 t = outP (blockP V c 0 t) (blockP V c 1 t) := by dsimp only [datP]

/-! ## The edge launch -/

/-- Window `w`'s block at grid point `t` of the edge launch: the rows `8000 t … 8000 t + 7999` of an edge array, or
    the whole of the edge projection or of a head-indicator matrix. -/
def blockE (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rectE : Rect S8000x128 := Rect.unit (s := S8000x128) ![0, 0] S8000x128.size inb_S8000x128_S8000x128_0_0
abbrev rectWe : Rect S128x128 := Rect.unit (s := S128x128) ![0, 0] S128x128.size inb_S128x128_S128x128_0_0
abbrev rectM : Rect S128x8 := Rect.unit (s := S128x8) ![0, 0] S128x8.size inb_S128x8_S128x8_0_0
abbrev rectMt : Rect S8x128 := Rect.unit (s := S8x128) ![0, 0] S8x128.size inb_S8x128_S8x128_0_0
abbrev rectH : Rect S8000x8 := Rect.unit (s := S8000x8) ![0, 0] S8000x8.size inb_S8000x8_S8000x8_0_0

/-- The gated scores the body stores, from the key, query and edge-feature blocks and the edge projection. -/
def outScore (k q ef : Vec F S8000x128 .f32) (we : Vec F S128x128 .f32) : Vec F S8000x128 .f32 :=
  View.canon [⟨rectE, k1_pay1 (View.ld ef rectE) (View.ld we rectWe) (View.ld k rectE) (View.ld q rectE)⟩]

/-- The per-head weights the body stores. -/
def outHead (k q ef : Vec F S8000x128 .f32) (we : Vec F S128x128 .f32) (mh : Vec F S128x8 .f32) : Vec F S8000x8 .f32 :=
  View.canon [⟨rectH, k1_pay2 (View.ld ef rectE) (View.ld we rectWe) (View.ld k rectE) (View.ld q rectE) (View.ld mh rectM)⟩]

/-- The weighted values the body stores. -/
def outContrib (k q v ef : Vec F S8000x128 .f32) (we : Vec F S128x128 .f32) (mh : Vec F S128x8 .f32)
    (mt : Vec F S8x128 .f32) : Vec F S8000x128 .f32 :=
  View.canon [⟨rectE, k1_pay3 (View.ld ef rectE) (View.ld we rectWe) (View.ld k rectE) (View.ld q rectE) (View.ld v rectE)
    (View.ld mh rectM) (View.ld mt rectMt)⟩]

theorem coverE (p : Vec F S8000x128 .f32) (y : S8000x128.Idx) :
    ∃ pc ∈ ([⟨rectE, p⟩] : List (View.Piece (Elt F) S8000x128 .f32)), y ∈ pc.1.set :=
  View.cover_of_tiled [⟨rectE, p⟩] S8000x128.size (by rfl) y
theorem coverH (p : Vec F S8000x8 .f32) (y : S8000x8.Idx) :
    ∃ pc ∈ ([⟨rectH, p⟩] : List (View.Piece (Elt F) S8000x8 .f32)), y ∈ pc.1.set :=
  View.cover_of_tiled [⟨rectH, p⟩] S8000x8.size (by rfl) y

/-- The edge launch's record on core `c`: each input's buffer stays at its block, the three outputs' end at the
    body's three stores over the input blocks. -/
def datE (c : Dev nD) : Dat τ (Elt F) Unit ℕ (UR sig nD τ) ℕ cfg1 c where
  A w := V c (Pipeline.arrRef spec1 w)
  after w t := match w with
    | ⟨0, _⟩ => blockE V c 0 t
    | ⟨1, _⟩ => blockE V c 1 t
    | ⟨2, _⟩ => blockE V c 2 t
    | ⟨3, _⟩ => blockE V c 3 t
    | ⟨4, _⟩ => blockE V c 4 t
    | ⟨5, _⟩ => blockE V c 5 t
    | ⟨6, _⟩ => blockE V c 6 t
    | ⟨7, _⟩ => outScore (blockE V c 0 t) (blockE V c 1 t) (blockE V c 3 t) (blockE V c 4 t)
    | ⟨8, _⟩ => outContrib (blockE V c 0 t) (blockE V c 1 t) (blockE V c 2 t) (blockE V c 3 t) (blockE V c 4 t)
        (blockE V c 5 t) (blockE V c 6 t)
    | ⟨9, _⟩ => outHead (blockE V c 0 t) (blockE V c 1 t) (blockE V c 3 t) (blockE V c 4 t) (blockE V c 5 t)
  Φ _ := Pipeline.ΦA spec1 c
  q _ := fullShare
  owed _ := 0

theorem datE_A (c : Dev nD) (w : Fin cfg1.W) : (datE V c).A w = V c (Pipeline.arrRef spec1 w) := by
  dsimp only [datE]
theorem afterE_0 (c : Dev nD) (t : Fin cfg1.N) : (datE V c).after 0 t = blockE V c 0 t := by dsimp only [datE]
theorem afterE_1 (c : Dev nD) (t : Fin cfg1.N) : (datE V c).after 1 t = blockE V c 1 t := by dsimp only [datE]
theorem afterE_2 (c : Dev nD) (t : Fin cfg1.N) : (datE V c).after 2 t = blockE V c 2 t := by dsimp only [datE]
theorem afterE_3 (c : Dev nD) (t : Fin cfg1.N) : (datE V c).after 3 t = blockE V c 3 t := by dsimp only [datE]
theorem afterE_4 (c : Dev nD) (t : Fin cfg1.N) : (datE V c).after 4 t = blockE V c 4 t := by dsimp only [datE]
theorem afterE_5 (c : Dev nD) (t : Fin cfg1.N) : (datE V c).after 5 t = blockE V c 5 t := by dsimp only [datE]
theorem afterE_6 (c : Dev nD) (t : Fin cfg1.N) : (datE V c).after 6 t = blockE V c 6 t := by dsimp only [datE]
theorem afterE_7 (c : Dev nD) (t : Fin cfg1.N) : (datE V c).after 7 t =
    outScore (blockE V c 0 t) (blockE V c 1 t) (blockE V c 3 t) (blockE V c 4 t) := by dsimp only [datE]
theorem afterE_8 (c : Dev nD) (t : Fin cfg1.N) : (datE V c).after 8 t =
    outContrib (blockE V c 0 t) (blockE V c 1 t) (blockE V c 2 t) (blockE V c 3 t) (blockE V c 4 t)
      (blockE V c 5 t) (blockE V c 6 t) := by dsimp only [datE]
theorem afterE_9 (c : Dev nD) (t : Fin cfg1.N) : (datE V c).after 9 t =
    outHead (blockE V c 0 t) (blockE V c 1 t) (blockE V c 3 t) (blockE V c 4 t) (blockE V c 5 t) := by dsimp only [datE]

end Cert.Kernel.Hand

end
-- ==== Proof.WordFold.lean ====
/-
  The contents of every buffer between the five stretches of the program: the host lines that stack the three
  projection matrices, the projection launch, the host lines that slice the product into queries, keys and values and
  gather their rows along the edges, the edge launch, and the host lines that sum the edge results into their
  destination nodes and divide. A host stretch changes the buffers its lines write; a launch changes only its output
  windows' arrays, each to what the write-backs of all its grid points leave.
-/
import proofs.«172924_j14508399526689_2_alg».proof.Proof.WordBlocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The buffers of core `c` when the program is started. -/
abbrev W0 : Dev nD → Valuation τ sig (Elt F) := fun c b => (s₀ m ρ).mem ((c : Dev nD), b)
/-- After the stacking of the projection matrices. -/
abbrev W1 : Dev nD → Valuation τ sig (Elt F) := fun c => StableHlo.after hostOps0 (W0 m ρ c)
/-- The same, read at the references of the core's thread: what the projection launch finds. -/
abbrev V1 : (c : Dev nD) → (b : Ref sig .tc) → Buf (Elt F) ((c : Thread nD τ).loc b) := fun c b => W1 m ρ c b
/-- After the projection launch: its windows' arrays at what its write-backs leave, every other buffer as found. -/
def W2 (c : Dev nD) : Valuation τ sig (Elt F) :=
  Pipeline.withArrays spec0 c (W1 m ρ c) fun w => (datP (V1 m ρ) c).arrAt w cfg0.N
theorem W2_arr (c : Dev nD) (w : Fin cfg0.W) :
    W2 m ρ c (Proc.devRef .tc (Pipeline.arrRef spec0 w)) = (datP (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the slicing and the three gathers. -/
abbrev W3 : Dev nD → Valuation τ sig (Elt F) := fun c => StableHlo.after hostOps1 (W2 m ρ c)
/-- What the edge launch finds. -/
abbrev V3 : (c : Dev nD) → (b : Ref sig .tc) → Buf (Elt F) ((c : Thread nD τ).loc b) := fun c b => W3 m ρ c b
/-- After the edge launch. -/
def W4 (c : Dev nD) : Valuation τ sig (Elt F) :=
  Pipeline.withArrays spec1 c (W3 m ρ c) fun w => (datE (V3 m ρ) c).arrAt w cfg1.N
theorem W4_arr (c : Dev nD) (w : Fin cfg1.W) :
    W4 m ρ c (Proc.devRef .tc (Pipeline.arrRef spec1 w)) = (datE (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- After the two segment sums and the division: the contents the program ends with. -/
abbrev W5 : Dev nD → Valuation τ sig (Elt F) := fun c => StableHlo.after hostOps2 (W4 m ρ c)

end Cert.Kernel.Hand

end
-- ==== Proof.WordBodyP.lean ====
/-
  The projection launch, one grid point at a time.

  At every grid point each input window's staging buffer holds that window's block of the array the launch was entered
  with: the row block of the node features is brought in afresh at each point, and the stacked weight matrix, brought in
  once at the first point, has the same block index at every later point, so its buffer still holds it. The body reads
  the two input buffers whole, reads the product's buffer (whatever it holds), and overwrites that buffer whole with the
  product of the two blocks it read; it touches nothing else. Hence the body's contract at a generic point, which is
  what the launch's bookkeeping record asks of it.
-/
import proofs.«172924_j14508399526689_2_alg».proof.Proof.WordBlocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the launch is entered with, per core
variable (V : (c : Dev nD) → (b : Ref sig .tc) → Buf (Elt F) ((c : Thread nD τ).loc b))

/-! ## The input buffers hold their blocks -/

/-- The node features' staging buffer holds the point's row block, for any record over the entry contents whose body
    leaves that block in place: the window is an input, never idle, and uncut. -/
theorem stagedP_0_of {c : Dev nD} (dat : Dat τ (Elt F) Unit ℕ (UR sig nD τ) ℕ cfg0 c)
    (hA : dat.A 0 = V c (Pipeline.arrRef spec0 0)) (hafter : ∀ t, dat.after 0 t = blockP V c 0 t)
    (t : Fin cfg0.N) (d) : dat.before 0 t d = blockP V c 0 t :=
  (dat.before_in_eq_fetched 0 rfl (fun _ => rfl) (fun _ _ _ => rfl)
      (fun t => by rw [hafter]; unfold Dat.blockOf blockP; rw [hA]; try rfl) t d).trans
    (by unfold Dat.fetched Dat.blockOf blockP; rw [hA]; try rfl)

/-- The stacked weights' staging buffer holds the whole matrix at every point, though it is brought in only at the
    first: its block index never moves. -/
theorem stagedP_1_of {c : Dev nD} (dat : Dat τ (Elt F) Unit ℕ (UR sig nD τ) ℕ cfg0 c)
    (hA : dat.A 1 = V c (Pipeline.arrRef spec0 1)) (hafter : ∀ t, dat.after 1 t = blockP V c 1 t)
    (t : Fin cfg0.N) (d) : dat.before 1 t d = blockP V c 1 t :=
  (dat.before_in_eq_fetched 1 rfl (fun _ => rfl) (fun _ _ _ => rfl)
      (fun t => by rw [hafter]; unfold Dat.blockOf blockP; rw [hA]; try rfl) t d).trans
    (by unfold Dat.fetched Dat.blockOf blockP; rw [hA]; try rfl)

theorem stagedP_0 (c : Dev nD) (t : Fin cfg0.N) (d) : (datP V c).before 0 t d = blockP V c 0 t :=
  stagedP_0_of V (datP V c) (datP_A V c 0) (afterP_0 V c) t d
theorem stagedP_1 (c : Dev nD) (t : Fin cfg0.N) (d) : (datP V c).before 1 t d = blockP V c 1 t :=
  stagedP_1_of V (datP V c) (datP_A V c 1) (afterP_1 V c) t d

/-! ## The body on whole buffers -/

set_option maxHeartbeats 1000000 in
/-- The body, given the two input buffers at contents `x` and `w` and the product's buffer at anything, ends with the
    inputs as they were and the product's buffer at `outP x w`: two whole reads, a read of the old product, one store
    that covers the buffer. -/
theorem kernelP (c : Dev nD) (E : Set ℕ) (i : grid0.Coords)
    (a1 : Memref sig .tc .vmem S5000x128 .f32) (h1 : a1.IsWhole)
    (a2 : Memref sig .tc .vmem S128x384 .f32) (h2 : a2.IsWhole)
    (a3 : Memref sig .tc .vmem S5000x384 .f32) (h3 : a3.IsWhole)
    (x : Vec F S5000x128 .f32) (w : Vec F S128x384 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (outP x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverP _)

/-! ## The body at a grid point -/

/-- What the body is entered with at point `t`: the launch invariant, the core's debts, and the three current staging
    buffers, -/
def prePointP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d)))

/-- and what it leaves. -/
def postPointP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t))

/-- The body at any point: its input buffers hold the point's blocks, so `kernelP` applies at those blocks; the
    invariant and the debts are not touched. -/
theorem pointP (c : Dev nD) (t : Fin cfg0.N) :
    prePointP V c t ⊢ wp frame (wpE (defs₀ (F := F)) Variants.none c none) Set.univ (bodyAt0 t)
      (fun _ => postPointP V c t) := by
  unfold prePointP postPointP bodyAt0
  simp only [stagedP_0, stagedP_1]
  rw [show (datP V c).Φ t.succ = (datP V c).Φ t.castSucc from rfl,
    show (datP V c).owesAt () t.succ = (datP V c).owesAt () t.castSucc from rfl,
    afterP_0, afterP_1, afterP_2]
  iintro ⟨HΦ, Ho, ⟨%d0, H0⟩, ⟨%d1, H1⟩, ⟨%d2, H2⟩⟩
  iapply (kernelP c Set.univ _ _ _ _ _ _ _ (blockP V c 0 t) (blockP V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's contract as the launch's record asks it, at every point. -/
theorem body_obligationP (c : Dev nD) :
    BodyObligation (datP (F := F) V c) (defs₀ (F := F)) Variants.none () Set.univ := fun t => by
  rw [bigSep_W0, bigSep_W0]
  exact pointP V c t

end Cert.Kernel.Hand

end
-- ==== Proof.WordBodyE.lean ====
/-
  The edge launch, one grid point at a time.

  At every grid point each of the seven input windows' staging buffers holds that window's block of the array the launch
  was entered with: the four edge arrays (gathered keys, queries and values, and the edge features) are brought in afresh
  at each point, 8000 edges at a time; the edge projection and the two head-indicator matrices are brought in once at the
  first point and, their block index never moving, are still there at every later one. The body reads the seven input
  buffers whole; it stores the gated scores over the whole of the first output buffer, the per-head weights over the whole
  of the third, and the weighted values over the whole of the second, reading each output buffer's old contents before
  its store and touching nothing else. Hence the body's contract at a generic point, which is what the launch's
  bookkeeping record asks of it.
-/
import proofs.«172924_j14508399526689_2_alg».proof.Proof.WordBlocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents the launch is entered with, per core
variable (V : (c : Dev nD) → (b : Ref sig .tc) → Buf (Elt F) ((c : Thread nD τ).loc b))

/-! ## The input buffers hold their blocks -/

/-- The gathered key rows' staging buffer holds the point's block of 8000 edges, for any record over the entry contents whose body leaves that block in place: the window is an
    input, never idle, and uncut. -/
theorem stagedE_0_of {c : Dev nD} (dat : Dat τ (Elt F) Unit ℕ (UR sig nD τ) ℕ cfg1 c)
    (hA : dat.A 0 = V c (Pipeline.arrRef spec1 0)) (hafter : ∀ t, dat.after 0 t = blockE V c 0 t)
    (t : Fin cfg1.N) (d) : dat.before 0 t d = blockE V c 0 t :=
  (dat.before_in_eq_fetched 0 rfl (fun _ => rfl) (fun _ _ _ => rfl)
      (fun t => by rw [hafter]; unfold Dat.blockOf blockE; rw [hA]; try rfl) t d).trans
    (by unfold Dat.fetched Dat.blockOf blockE; rw [hA]; try rfl)

/-- The gathered query rows' staging buffer holds the point's block, for any record over the entry contents whose body leaves that block in place: the window is an
    input, never idle, and uncut. -/
theorem stagedE_1_of {c : Dev nD} (dat : Dat τ (Elt F) Unit ℕ (UR sig nD τ) ℕ cfg1 c)
    (hA : dat.A 1 = V c (Pipeline.arrRef spec1 1)) (hafter : ∀ t, dat.after 1 t = blockE V c 1 t)
    (t : Fin cfg1.N) (d) : dat.before 1 t d = blockE V c 1 t :=
  (dat.before_in_eq_fetched 1 rfl (fun _ => rfl) (fun _ _ _ => rfl)
      (fun t => by rw [hafter]; unfold Dat.blockOf blockE; rw [hA]; try rfl) t d).trans
    (by unfold Dat.fetched Dat.blockOf blockE; rw [hA]; try rfl)

/-- The gathered value rows' staging buffer holds the point's block, for any record over the entry contents whose body leaves that block in place: the window is an
    input, never idle, and uncut. -/
theorem stagedE_2_of {c : Dev nD} (dat : Dat τ (Elt F) Unit ℕ (UR sig nD τ) ℕ cfg1 c)
    (hA : dat.A 2 = V c (Pipeline.arrRef spec1 2)) (hafter : ∀ t, dat.after 2 t = blockE V c 2 t)
    (t : Fin cfg1.N) (d) : dat.before 2 t d = blockE V c 2 t :=
  (dat.before_in_eq_fetched 2 rfl (fun _ => rfl) (fun _ _ _ => rfl)
      (fun t => by rw [hafter]; unfold Dat.blockOf blockE; rw [hA]; try rfl) t d).trans
    (by unfold Dat.fetched Dat.blockOf blockE; rw [hA]; try rfl)

/-- The edge features' staging buffer holds the point's block, for any record over the entry contents whose body leaves that block in place: the window is an
    input, never idle, and uncut. -/
theorem stagedE_3_of {c : Dev nD} (dat : Dat τ (Elt F) Unit ℕ (UR sig nD τ) ℕ cfg1 c)
    (hA : dat.A 3 = V c (Pipeline.arrRef spec1 3)) (hafter : ∀ t, dat.after 3 t = blockE V c 3 t)
    (t : Fin cfg1.N) (d) : dat.before 3 t d = blockE V c 3 t :=
  (dat.before_in_eq_fetched 3 rfl (fun _ => rfl) (fun _ _ _ => rfl)
      (fun t => by rw [hafter]; unfold Dat.blockOf blockE; rw [hA]; try rfl) t d).trans
    (by unfold Dat.fetched Dat.blockOf blockE; rw [hA]; try rfl)

/-- The edge projection's staging buffer holds the whole matrix at every point, though it is brought in only at the first: its block index never moves, for any record over the entry contents whose body leaves that block in place: the window is an
    input, never idle, and uncut. -/
theorem stagedE_4_of {c : Dev nD} (dat : Dat τ (Elt F) Unit ℕ (UR sig nD τ) ℕ cfg1 c)
    (hA : dat.A 4 = V c (Pipeline.arrRef spec1 4)) (hafter : ∀ t, dat.after 4 t = blockE V c 4 t)
    (t : Fin cfg1.N) (d) : dat.before 4 t d = blockE V c 4 t :=
  (dat.before_in_eq_fetched 4 rfl (fun _ => rfl) (fun _ _ _ => rfl)
      (fun t => by rw [hafter]; unfold Dat.blockOf blockE; rw [hA]; try rfl) t d).trans
    (by unfold Dat.fetched Dat.blockOf blockE; rw [hA]; try rfl)

/-- The head-indicator matrix's staging buffer holds the whole matrix at every point (brought in once, its block index never moves), for any record over the entry contents whose body leaves that block in place: the window is an
    input, never idle, and uncut. -/
theorem stagedE_5_of {c : Dev nD} (dat : Dat τ (Elt F) Unit ℕ (UR sig nD τ) ℕ cfg1 c)
    (hA : dat.A 5 = V c (Pipeline.arrRef spec1 5)) (hafter : ∀ t, dat.after 5 t = blockE V c 5 t)
    (t : Fin cfg1.N) (d) : dat.before 5 t d = blockE V c 5 t :=
  (dat.before_in_eq_fetched 5 rfl (fun _ => rfl) (fun _ _ _ => rfl)
      (fun t => by rw [hafter]; unfold Dat.blockOf blockE; rw [hA]; try rfl) t d).trans
    (by unfold Dat.fetched Dat.blockOf blockE; rw [hA]; try rfl)

/-- The transposed head-indicator matrix's staging buffer holds the whole matrix at every point (brought in once, its block index never moves), for any record over the entry contents whose body leaves that block in place: the window is an
    input, never idle, and uncut. -/
theorem stagedE_6_of {c : Dev nD} (dat : Dat τ (Elt F) Unit ℕ (UR sig nD τ) ℕ cfg1 c)
    (hA : dat.A 6 = V c (Pipeline.arrRef spec1 6)) (hafter : ∀ t, dat.after 6 t = blockE V c 6 t)
    (t : Fin cfg1.N) (d) : dat.before 6 t d = blockE V c 6 t :=
  (dat.before_in_eq_fetched 6 rfl (fun _ => rfl) (fun _ _ _ => rfl)
      (fun t => by rw [hafter]; unfold Dat.blockOf blockE; rw [hA]; try rfl) t d).trans
    (by unfold Dat.fetched Dat.blockOf blockE; rw [hA]; try rfl)

theorem stagedE_0 (c : Dev nD) (t : Fin cfg1.N) (d) : (datE V c).before 0 t d = blockE V c 0 t :=
  stagedE_0_of V (datE V c) (datE_A V c 0) (afterE_0 V c) t d
theorem stagedE_1 (c : Dev nD) (t : Fin cfg1.N) (d) : (datE V c).before 1 t d = blockE V c 1 t :=
  stagedE_1_of V (datE V c) (datE_A V c 1) (afterE_1 V c) t d
theorem stagedE_2 (c : Dev nD) (t : Fin cfg1.N) (d) : (datE V c).before 2 t d = blockE V c 2 t :=
  stagedE_2_of V (datE V c) (datE_A V c 2) (afterE_2 V c) t d
theorem stagedE_3 (c : Dev nD) (t : Fin cfg1.N) (d) : (datE V c).before 3 t d = blockE V c 3 t :=
  stagedE_3_of V (datE V c) (datE_A V c 3) (afterE_3 V c) t d
theorem stagedE_4 (c : Dev nD) (t : Fin cfg1.N) (d) : (datE V c).before 4 t d = blockE V c 4 t :=
  stagedE_4_of V (datE V c) (datE_A V c 4) (afterE_4 V c) t d
theorem stagedE_5 (c : Dev nD) (t : Fin cfg1.N) (d) : (datE V c).before 5 t d = blockE V c 5 t :=
  stagedE_5_of V (datE V c) (datE_A V c 5) (afterE_5 V c) t d
theorem stagedE_6 (c : Dev nD) (t : Fin cfg1.N) (d) : (datE V c).before 6 t d = blockE V c 6 t :=
  stagedE_6_of V (datE V c) (datE_A V c 6) (afterE_6 V c) t d

/-! ## The body on whole buffers -/

set_option maxHeartbeats 4000000 in
/-- The body, given the seven input buffers at contents `k q v ef we mh mt` and the three output buffers at anything,
    ends with the inputs as they were, the score buffer at `outScore`, the weighted-value buffer at `outContrib` and the
    per-head weight buffer at `outHead` of the inputs: whole reads of the inputs, a read of each output's old contents
    before its store, and one store per output that covers its buffer. -/
theorem kernelE (c : Dev nD) (E : Set ℕ) (i : grid1.Coords)
    (a1 : Memref sig .tc .vmem S8000x128 .f32) (h1 : a1.IsWhole)
    (a2 : Memref sig .tc .vmem S8000x128 .f32) (h2 : a2.IsWhole)
    (a3 : Memref sig .tc .vmem S8000x128 .f32) (h3 : a3.IsWhole)
    (a4 : Memref sig .tc .vmem S8000x128 .f32) (h4 : a4.IsWhole)
    (a5 : Memref sig .tc .vmem S128x128 .f32) (h5 : a5.IsWhole)
    (a6 : Memref sig .tc .vmem S128x8 .f32) (h6 : a6.IsWhole)
    (a7 : Memref sig .tc .vmem S8x128 .f32) (h7 : a7.IsWhole)
    (a8 : Memref sig .tc .vmem S8000x128 .f32) (h8 : a8.IsWhole)
    (a9 : Memref sig .tc .vmem S8000x128 .f32) (h9 : a9.IsWhole)
    (a10 : Memref sig .tc .vmem S8000x8 .f32) (h10 : a10.IsWhole)
    (k q v ef : Vec F S8000x128 .f32) (we : Vec F S128x128 .f32) (mh : Vec F S128x8 .f32) (mt : Vec F S8x128 .f32)
    (K : PUnit → sProp 𝕄) :
    iprop(owns (c : Thread nD τ) a1 fullShare k ∗ owns (c : Thread nD τ) a2 fullShare q ∗ owns (c : Thread nD τ) a3 fullShare v ∗ owns (c : Thread nD τ) a4 fullShare ef
        ∗ owns (c : Thread nD τ) a5 fullShare we ∗ owns (c : Thread nD τ) a6 fullShare mh ∗ owns (c : Thread nD τ) a7 fullShare mt
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare k ∗ owns (c : Thread nD τ) a2 fullShare q ∗ owns (c : Thread nD τ) a3 fullShare v ∗ owns (c : Thread nD τ) a4 fullShare ef
            ∗ owns (c : Thread nD τ) a5 fullShare we ∗ owns (c : Thread nD τ) a6 fullShare mh ∗ owns (c : Thread nD τ) a7 fullShare mt
            ∗ owns (c : Thread nD τ) a8 fullShare (outScore k q ef we)
            ∗ owns (c : Thread nD τ) a9 fullShare (outContrib k q v ef we mh mt)
            ∗ owns (c : Thread nD τ) a10 fullShare (outHead k q ef we mh)) -∗ K ⟨⟩))
      ⊢ wp frame (wpE (defs₀ (F := F)) Variants.none c none) E
          (cc1__edge_kernel i a1 h1 a2 h2 a3 h3 a4 h4 a5 h5 a6 h6 a7 h7 a8 h8 a9 h9 a10 h10) K := by
  simp only [cc1__edge_kernel_eq_skeleton]; unfold cc1__edge_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, ⟨%d9, %f9, -, H9⟩, ⟨%d10, %f10, -, H10⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverE _)
  isplitl [H9]
  · iexists _; isplitr
    swap; · iexact H9
    ipureintro
    exact View.read_writes_eq_canon _ _ _ (coverE _)
  iexists _; isplitr
  swap; · iexact H10
  ipureintro
  exact View.read_writes_eq_canon _ _ _ (coverH _)

/-! ## The body at a grid point -/

/-- What the body is entered with at point `t`: the launch invariant, the core's debts, and the ten current staging
    buffers, -/
def prePointE (c : Dev nD) (t : Fin cfg1.N) : sProp 𝕄 :=
  iprop((datE V c).Φ t.castSucc ∗ (datE V c).owesAt () t.castSucc
    ∗ (∃ d, owns (c : Thread nD τ) (st1_0 t) fullShare ((datE V c).before 0 t d))
    ∗ (∃ d, owns (c : Thread nD τ) (st1_1 t) fullShare ((datE V c).before 1 t d))
    ∗ (∃ d, owns (c : Thread nD τ) (st1_2 t) fullShare ((datE V c).before 2 t d))
    ∗ (∃ d, owns (c : Thread nD τ) (st1_3 t) fullShare ((datE V c).before 3 t d))
    ∗ (∃ d, owns (c : Thread nD τ) (st1_4 t) fullShare ((datE V c).before 4 t d))
    ∗ (∃ d, owns (c : Thread nD τ) (st1_5 t) fullShare ((datE V c).before 5 t d))
    ∗ (∃ d, owns (c : Thread nD τ) (st1_6 t) fullShare ((datE V c).before 6 t d))
    ∗ (∃ d, owns (c : Thread nD τ) (st1_7 t) fullShare ((datE V c).before 7 t d))
    ∗ (∃ d, owns (c : Thread nD τ) (st1_8 t) fullShare ((datE V c).before 8 t d))
    ∗ (∃ d, owns (c : Thread nD τ) (st1_9 t) fullShare ((datE V c).before 9 t d)))

/-- and what it leaves. -/
def postPointE (c : Dev nD) (t : Fin cfg1.N) : sProp 𝕄 :=
  iprop((datE V c).Φ t.succ ∗ (datE V c).owesAt () t.succ
    ∗ owns (c : Thread nD τ) (st1_0 t) fullShare ((datE V c).after 0 t)
    ∗ owns (c : Thread nD τ) (st1_1 t) fullShare ((datE V c).after 1 t)
    ∗ owns (c : Thread nD τ) (st1_2 t) fullShare ((datE V c).after 2 t)
    ∗ owns (c : Thread nD τ) (st1_3 t) fullShare ((datE V c).after 3 t)
    ∗ owns (c : Thread nD τ) (st1_4 t) fullShare ((datE V c).after 4 t)
    ∗ owns (c : Thread nD τ) (st1_5 t) fullShare ((datE V c).after 5 t)
    ∗ owns (c : Thread nD τ) (st1_6 t) fullShare ((datE V c).after 6 t)
    ∗ owns (c : Thread nD τ) (st1_7 t) fullShare ((datE V c).after 7 t)
    ∗ owns (c : Thread nD τ) (st1_8 t) fullShare ((datE V c).after 8 t)
    ∗ owns (c : Thread nD τ) (st1_9 t) fullShare ((datE V c).after 9 t))

/-- The body at any point: its input buffers hold the point's blocks, so `kernelE` applies at those blocks; the
    invariant and the debts are not touched. -/
theorem pointE (c : Dev nD) (t : Fin cfg1.N) :
    prePointE V c t ⊢ wp frame (wpE (defs₀ (F := F)) Variants.none c none) Set.univ (bodyAt1 t)
      (fun _ => postPointE V c t) := by
  unfold prePointE postPointE bodyAt1
  simp only [stagedE_0, stagedE_1, stagedE_2, stagedE_3, stagedE_4, stagedE_5, stagedE_6]
  rw [show (datE V c).Φ t.succ = (datE V c).Φ t.castSucc from rfl,
    show (datE V c).owesAt () t.succ = (datE V c).owesAt () t.castSucc from rfl,
    afterE_0, afterE_1, afterE_2, afterE_3, afterE_4, afterE_5, afterE_6, afterE_7, afterE_8, afterE_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩⟩
  iapply (kernelE c Set.univ _ _ _ _ _ _ _ _ _ _ _ _ _ _ _ _ _ _ _ _ _ (blockE V c 0 t) (blockE V c 1 t) (blockE V c 2 t)
    (blockE V c 3 t) (blockE V c 4 t) (blockE V c 5 t) (blockE V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's contract as the launch's record asks it, at every point. -/
theorem body_obligationE (c : Dev nD) :
    BodyObligation (datE (F := F) V c) (defs₀ (F := F)) Variants.none () Set.univ := fun t => by
  rw [bigSep_W1, bigSep_W1]
  exact pointE V c t

end Cert.Kernel.Hand

end
-- ==== Proof.WordRun.lean ====
/-
  The whole program as five stretches run one after another on every core, and what every buffer holds at the end.

  The program is: host lines, the projection launch, host lines, the edge launch, host lines. Each stretch is entered
  with every unscoped buffer of the core at the contents the stretch before it left (the fold `W0 … W5`), beside the
  core's generator register at some state and its debts to other cores, which are none. A host stretch rewrites the
  buffers its lines write; a launch takes its windows' arrays out of the buffers, runs its grid, and puts them back at
  what its write-backs leave, every other buffer untouched. Composing the five: every execution from a memory with all
  counters at zero terminates, and at the end every unscoped buffer of every core holds `W5`. The program's eight
  arguments are written by no host line and by no launch, so `W5` at an argument is the memory it was started with.
-/
import proofs.«172924_j14508399526689_2_alg».proof.Proof.WordFold
import proofs.«172924_j14508399526689_2_alg».proof.Proof.WordBodyP
import proofs.«172924_j14508399526689_2_alg».proof.Proof.WordBodyE
import proofs.«172924_j14508399526689_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a launch leaves: its windows' arrays at their write-backs, the rest as found -/

theorem left_arr0 (c : Dev nD) (w : Fin cfg0.W) :
    (datP (V1 m ρ) c).arrAt w cfg0.N = V2 m ρ c (Pipeline.arrRef spec0 w) := (W2_arr m ρ c w).symm
theorem left_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem left_arr1 (c : Dev nD) (w : Fin cfg1.W) :
    (datE (V3 m ρ) c).arrAt w cfg1.N = V4 m ρ c (Pipeline.arrRef spec1 w) := (W4_arr m ρ c w).symm
theorem left_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as started -/

/-- Argument 0 ends as it was started: no host line writes it and the projection launch only reads it (its first window). -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((datP (V1 m ρ) c).arrAt_in 0 rfl _).trans (datP_A (V1 m ρ) c 0))
    _ = W0 m ρ c (Proc.devRef .tc main_arg0) := StableHlo.after_of_writes_sub hostOps0 _ hostOps0_writes (by decide)
    _ = m ((c : Thread nD τ).loc main_arg0) := rfl

/-- Argument 1 ends as it was started: no host line writes it and the edge launch only reads it (its fourth window). -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 3).trans (((datE (V3 m ρ) c).arrAt_in 3 rfl _).trans (datE_A (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as it was started: no host line writes it and no launch has it for a window. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as it was started: no host line writes it and no launch has it for a window. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as it was started: no host line writes it and no launch has it for a window. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 ends as it was started: no host line writes it and the edge launch only reads it (its fifth window). -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := (W4_arr m ρ c 4).trans (((datE (V3 m ρ) c).arrAt_in 4 rfl _).trans (datE_A (V3 m ρ) c 4))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- Argument 6 ends as it was started: no host line writes it and no launch has it for a window. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 ends as it was started: no host line writes it and no launch has it for a window. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The launches' records, and what rides beside the buffers -/

/-- Each launch's bookkeeping record at the contents it is entered with: the projection launch after the first host
    stretch, the edge launch after the second. -/
def pdats : (p : Fin 2) → (c : Dev nD) →
    Dat τ (Elt F) Unit ℕ (UR sig nD τ) ℕ (Pipeline.pin (pcfgs (F := F)) adm p) c
  | ⟨0, _⟩ => fun c => datP (V1 m ρ) c
  | ⟨1, _⟩ => fun c => datE (V3 m ρ) c
abbrev 𝒱₀ : Variants := Variants.none
/-- No core ever owes another anything: no pair of cores is assigned a level. -/
abbrev L : GSem nD τ sig → Finset Unit := fun _ => ∅
abbrev lv : GSem nD τ sig → Unit → ℕ := fun _ _ => 0
/-- Beside the buffers, through every stretch: the core's generator register at some state, and its debts, none. -/
abbrev Side (c : Dev nD) : sProp 𝕄 :=
  iprop((∃ r, prngReg c r) ∗ ∃ W, owes (c : Thread nD τ) (0 : CellTallies nD τ sig Unit) W)
/-- A stretch of host lines as a segment: from every unscoped buffer at `W` to the same buffers after the lines. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side
/-- The state the program ends in, without the debts: every unscoped buffer at `W5`, the register at some state. -/
abbrev Last (c : Dev nD) : sProp 𝕄 :=
  iprop(StableHlo.held (c : Thread nD τ) (Pipeline.ucRefs τ sig) (W5 m ρ c) ∗ ∃ r, prngReg c r)

/-! ## The two launches as segments -/

set_option backward.isDefEq.respectTransparency.types false in
/-- The projection launch: entered with every unscoped buffer at `W1`, left with them at `W2`. Its three arrays are taken
    out of the buffers and put back at what the write-backs leave; the register goes into the launch invariant and comes
    back; nothing is owed; the kernel has no semaphore of its own. -/
def regionP : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationP (V1 m ρ) c).loose
  hwaits := Pipeline.hwaits_of_owed_zero _ _ _ _ L lv 0 fun _ _ => rfl
  pre c := iprop(StableHlo.held (c : Thread nD τ) (Pipeline.ucRefs τ sig) (W1 m ρ c) ∗ Side c)
  post c := iprop(StableHlo.held (c : Thread nD τ) (Pipeline.ucRefs τ sig) (W2 m ρ c) ∗ Side c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win
      launch0.arr_whole c ((pdats m ρ 0 c).share_full fun _ => rfl) (V1 m ρ c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ)
      (U := UR sig nD τ) (Lvl := ℕ) launch0.win launch0.arr_whole c (pdats m ρ)
      ((pdats m ρ 0 c).share_full fun _ => rfl) (V1 m ρ c) (V2 m ρ c) ((pdats m ρ 0 c).arrAt · cfg0.N)
      (left_arr0 m ρ c) (left_rest0 m ρ c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- The edge launch: entered with every unscoped buffer at `W3`, left with them at `W4`, in the same way over its ten
    arrays. -/
def regionE : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationE (V3 m ρ) c).loose
  hwaits := Pipeline.hwaits_of_owed_zero _ _ _ _ L lv 1 fun _ _ => rfl
  pre c := iprop(StableHlo.held (c : Thread nD τ) (Pipeline.ucRefs τ sig) (W3 m ρ c) ∗ Side c)
  post c := iprop(StableHlo.held (c : Thread nD τ) (Pipeline.ucRefs τ sig) (W4 m ρ c) ∗ Side c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win
      launch1.arr_whole c ((pdats m ρ 1 c).share_full fun _ => rfl) (V3 m ρ c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ)
      (U := UR sig nD τ) (Lvl := ℕ) launch1.win launch1.arr_whole c (pdats m ρ)
      ((pdats m ρ 1 c).share_full fun _ => rfl) (V3 m ρ c) (V4 m ρ c) ((pdats m ρ 1 c).arrAt · cfg1.N)
      (left_arr1 m ρ c) (left_rest1 m ρ c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The program as its five stretches -/

/-- The last host stretch ends at `Last` beside no debts: the same three resources, bracketed the other way. -/
theorem last_side (c : Dev nD) :
    iprop(StableHlo.held (c : Thread nD τ) (Pipeline.ucRefs τ sig) (W5 m ρ c) ∗ Side c)
      ⊢ iprop(Last m ρ c ∗ ∃ W, owes (c : Thread nD τ) (0 : CellTallies nD τ sig Unit) W) := by
  iintro ⟨Hbufs, Hreg, Hdebt⟩
  isplitl [Hbufs Hreg]
  · isplitl [Hbufs]; · iexact Hbufs
    iexact Hreg
  iexact Hdebt

abbrev stretches : List (Pipeline.Seg (pcfgs (F := F)) adm (pdats m ρ) () defs₀ 𝒱₀ L lv) :=
  [ .host (hostStretch hostOps0 hostOps0_sub hostOps0_fresh (W0 m ρ)),
    .region (regionP m ρ),
    .host (hostStretch hostOps1 hostOps1_sub hostOps1_fresh (W2 m ρ)),
    .region (regionE m ρ),
    .host (hostStretch hostOps2 hostOps2_sub hostOps2_fresh (W4 m ρ)) ]

/-- The printed program is the five stretches in order. -/
theorem main_run (c : Dev nD) : main (F := F) c = Pipeline.Seg.run (stretches m ρ) :=
  (main_chain c).trans (by chain_rfl)

set_option backward.isDefEq.respectTransparency.types false in
/-- From any memory with every counter at zero, every weakly fair execution of the program terminates, and in every
    final state each unscoped buffer of each core holds `W5`: the five stretches chain (each is entered with what the
    one before left; the last one's end is `Last` beside no debts, by re-association), the first state is what a start
    deals out, and the last is read off the final memory buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (stretches m ρ)
    (fun c Q => by rw [main_run m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ Side c))
    (Tₙ := Last m ρ)
    (hch := ⟨fun _ => .rfl, fun _ => .rfl, fun _ => .rfl, fun _ => .rfl, fun _ => .rfl, fun c => last_side m ρ c⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h => h)

end Cert.Kernel.Hand

end
-- ==== Proof.IdealBlocks.lean ====
/-
  The two launches of the program, seen from the buffers they find.

  The first launch multiplies the node features, 5000 rows at a time over 10 grid points, by the three projection
  matrices laid side by side (a 128 x 384 matrix): each point loads its row block and the whole matrix and stores the
  product block. The second launch walks the 400000 edges 8000 at a time over 50 grid points: each point loads the
  gathered key, query and value rows of its edges, the edge features, the edge projection and the two head-indicator
  matrices, and stores three blocks: the gated scores, the weighted values and the per-head weights.

  Here: the block of each window at a grid point as a function of the array contents the launch is entered with, what
  each output's staging buffer holds after the body as a function of the input blocks (one store, covering the whole
  buffer, of the body's arithmetic), and the per-launch bookkeeping record that says so for every point.
-/
import proofs.«172924_j14508399526689_2_alg».proof.Proof.Gen.KernelIdeal.Launch
import proofs.«172924_j14508399526689_2_alg».proof.Proof.Gen.KernelIdeal.Skeleton
import proofs.«172924_j14508399526689_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents a launch is entered with, per core
variable (V : (c : Dev nD) → (b : Ref sig .tc) → Buf (Elt F) ((c : Thread nD τ).loc b))

/-! ## The node projection launch -/

/-- Window `w`'s block at grid point `t` of the projection launch: the rows `5000 t … 5000 t + 4999` of the node
    features or of the product, or the whole stacked weight matrix. -/
def blockP (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev rectX : Rect S5000x128 := Rect.unit (s := S5000x128) ![0, 0] S5000x128.size inb_S5000x128_S5000x128_0_0
abbrev rectW : Rect S128x384 := Rect.unit (s := S128x384) ![0, 0] S128x384.size inb_S128x384_S128x384_0_0
abbrev rectQKV : Rect S5000x384 := Rect.unit (s := S5000x384) ![0, 0] S5000x384.size inb_S5000x384_S5000x384_0_0

/-- The product block the body stores, from the row block `x` and the stacked weights `w`. -/
def outP (x : Vec F S5000x128 .f32) (w : Vec F S128x384 .f32) : Vec F S5000x384 .f32 :=
  View.canon [⟨rectQKV, k0_pay1 (View.ld x rectX) (View.ld w rectW)⟩]

/-- The one store covers the product's staging buffer. -/
theorem coverP (p : Vec F S5000x384 .f32) (y : S5000x384.Idx) :
    ∃ pc ∈ ([⟨rectQKV, p⟩] : List (View.Piece (Elt F) S5000x384 .f32)), y ∈ pc.1.set :=
  View.cover_of_tiled [⟨rectQKV, p⟩] S5000x384.size (by rfl) y

/-- The projection launch's record on core `c`: the arrays as found; after the body at point `t` each input's buffer
    still at its block and the output's at the product of the two input blocks; nothing owed, full shares. -/
def datP (c : Dev nD) : Dat τ (Elt F) Unit ℕ (UR sig nD τ) ℕ cfg0 c where
  A w := V c (Pipeline.arrRef spec0 w)
  after w t := match w with
    | ⟨0, _⟩ => blockP V c 0 t
    | ⟨1, _⟩ => blockP V c 1 t
    | ⟨2, _⟩ => outP (blockP V c 0 t) (blockP V c 1 t)
  Φ _ := Pipeline.ΦA spec0 c
  q _ := fullShare
  owed _ := 0

theorem datP_A (c : Dev nD) (w : Fin cfg0.W) : (datP V c).A w = V c (Pipeline.arrRef spec0 w) := by
  dsimp only [datP]
theorem afterP_0 (c : Dev nD) (t : Fin cfg0.N) : (datP V c).after 0 t = blockP V c 0 t := by dsimp only [datP]
theorem afterP_1 (c : Dev nD) (t : Fin cfg0.N) : (datP V c).after 1 t = blockP V c 1 t := by dsimp only [datP]
theorem afterP_2 (c : Dev nD) (t : Fin cfg0.N) :
    (datP V c).after 2 t = outP (blockP V c 0 t) (blockP V c 1 t) := by dsimp only [datP]

/-! ## The edge launch -/

/-- Window `w`'s block at grid point `t` of the edge launch: the rows `8000 t … 8000 t + 7999` of an edge array, or
    the whole of the edge projection or of a head-indicator matrix. -/
def blockE (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rectE : Rect S8000x128 := Rect.unit (s := S8000x128) ![0, 0] S8000x128.size inb_S8000x128_S8000x128_0_0
abbrev rectWe : Rect S128x128 := Rect.unit (s := S128x128) ![0, 0] S128x128.size inb_S128x128_S128x128_0_0
abbrev rectM : Rect S128x8 := Rect.unit (s := S128x8) ![0, 0] S128x8.size inb_S128x8_S128x8_0_0
abbrev rectMt : Rect S8x128 := Rect.unit (s := S8x128) ![0, 0] S8x128.size inb_S8x128_S8x128_0_0
abbrev rectH : Rect S8000x8 := Rect.unit (s := S8000x8) ![0, 0] S8000x8.size inb_S8000x8_S8000x8_0_0

/-- The gated scores the body stores, from the key, query and edge-feature blocks and the edge projection. -/
def outScore (k q ef : Vec F S8000x128 .f32) (we : Vec F S128x128 .f32) : Vec F S8000x128 .f32 :=
  View.canon [⟨rectE, k1_pay1 (View.ld ef rectE) (View.ld we rectWe) (View.ld k rectE) (View.ld q rectE)⟩]

/-- The per-head weights the body stores. -/
def outHead (k q ef : Vec F S8000x128 .f32) (we : Vec F S128x128 .f32) (mh : Vec F S128x8 .f32) : Vec F S8000x8 .f32 :=
  View.canon [⟨rectH, k1_pay2 (View.ld ef rectE) (View.ld we rectWe) (View.ld k rectE) (View.ld q rectE) (View.ld mh rectM)⟩]

/-- The weighted values the body stores. -/
def outContrib (k q v ef : Vec F S8000x128 .f32) (we : Vec F S128x128 .f32) (mh : Vec F S128x8 .f32)
    (mt : Vec F S8x128 .f32) : Vec F S8000x128 .f32 :=
  View.canon [⟨rectE, k1_pay3 (View.ld ef rectE) (View.ld we rectWe) (View.ld k rectE) (View.ld q rectE) (View.ld v rectE)
    (View.ld mh rectM) (View.ld mt rectMt)⟩]

theorem coverE (p : Vec F S8000x128 .f32) (y : S8000x128.Idx) :
    ∃ pc ∈ ([⟨rectE, p⟩] : List (View.Piece (Elt F) S8000x128 .f32)), y ∈ pc.1.set :=
  View.cover_of_tiled [⟨rectE, p⟩] S8000x128.size (by rfl) y
theorem coverH (p : Vec F S8000x8 .f32) (y : S8000x8.Idx) :
    ∃ pc ∈ ([⟨rectH, p⟩] : List (View.Piece (Elt F) S8000x8 .f32)), y ∈ pc.1.set :=
  View.cover_of_tiled [⟨rectH, p⟩] S8000x8.size (by rfl) y

/-- The edge launch's record on core `c`: each input's buffer stays at its block, the three outputs' end at the
    body's three stores over the input blocks. -/
def datE (c : Dev nD) : Dat τ (Elt F) Unit ℕ (UR sig nD τ) ℕ cfg1 c where
  A w := V c (Pipeline.arrRef spec1 w)
  after w t := match w with
    | ⟨0, _⟩ => blockE V c 0 t
    | ⟨1, _⟩ => blockE V c 1 t
    | ⟨2, _⟩ => blockE V c 2 t
    | ⟨3, _⟩ => blockE V c 3 t
    | ⟨4, _⟩ => blockE V c 4 t
    | ⟨5, _⟩ => blockE V c 5 t
    | ⟨6, _⟩ => blockE V c 6 t
    | ⟨7, _⟩ => outScore (blockE V c 0 t) (blockE V c 1 t) (blockE V c 3 t) (blockE V c 4 t)
    | ⟨8, _⟩ => outContrib (blockE V c 0 t) (blockE V c 1 t) (blockE V c 2 t) (blockE V c 3 t) (blockE V c 4 t)
        (blockE V c 5 t) (blockE V c 6 t)
    | ⟨9, _⟩ => outHead (blockE V c 0 t) (blockE V c 1 t) (blockE V c 3 t) (blockE V c 4 t) (blockE V c 5 t)
  Φ _ := Pipeline.ΦA spec1 c
  q _ := fullShare
  owed _ := 0

theorem datE_A (c : Dev nD) (w : Fin cfg1.W) : (datE V c).A w = V c (Pipeline.arrRef spec1 w) := by
  dsimp only [datE]
theorem afterE_0 (c : Dev nD) (t : Fin cfg1.N) : (datE V c).after 0 t = blockE V c 0 t := by dsimp only [datE]
theorem afterE_1 (c : Dev nD) (t : Fin cfg1.N) : (datE V c).after 1 t = blockE V c 1 t := by dsimp only [datE]
theorem afterE_2 (c : Dev nD) (t : Fin cfg1.N) : (datE V c).after 2 t = blockE V c 2 t := by dsimp only [datE]
theorem afterE_3 (c : Dev nD) (t : Fin cfg1.N) : (datE V c).after 3 t = blockE V c 3 t := by dsimp only [datE]
theorem afterE_4 (c : Dev nD) (t : Fin cfg1.N) : (datE V c).after 4 t = blockE V c 4 t := by dsimp only [datE]
theorem afterE_5 (c : Dev nD) (t : Fin cfg1.N) : (datE V c).after 5 t = blockE V c 5 t := by dsimp only [datE]
theorem afterE_6 (c : Dev nD) (t : Fin cfg1.N) : (datE V c).after 6 t = blockE V c 6 t := by dsimp only [datE]
theorem afterE_7 (c : Dev nD) (t : Fin cfg1.N) : (datE V c).after 7 t =
    outScore (blockE V c 0 t) (blockE V c 1 t) (blockE V c 3 t) (blockE V c 4 t) := by dsimp only [datE]
theorem afterE_8 (c : Dev nD) (t : Fin cfg1.N) : (datE V c).after 8 t =
    outContrib (blockE V c 0 t) (blockE V c 1 t) (blockE V c 2 t) (blockE V c 3 t) (blockE V c 4 t)
      (blockE V c 5 t) (blockE V c 6 t) := by dsimp only [datE]
theorem afterE_9 (c : Dev nD) (t : Fin cfg1.N) : (datE V c).after 9 t =
    outHead (blockE V c 0 t) (blockE V c 1 t) (blockE V c 3 t) (blockE V c 4 t) (blockE V c 5 t) := by dsimp only [datE]

end Cert.KernelIdeal.Hand

end
-- ==== Proof.IdealFold.lean ====
/-
  The contents of every buffer between the five stretches of the program: the host lines that stack the three
  projection matrices, the projection launch, the host lines that slice the product into queries, keys and values and
  gather their rows along the edges, the edge launch, and the host lines that sum the edge results into their
  destination nodes and divide. A host stretch changes the buffers its lines write; a launch changes only its output
  windows' arrays, each to what the write-backs of all its grid points leave.
-/
import proofs.«172924_j14508399526689_2_alg».proof.Proof.IdealBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The buffers of core `c` when the program is started. -/
abbrev W0 : Dev nD → Valuation τ sig (Elt F) := fun c b => (s₀ m ρ).mem ((c : Dev nD), b)
/-- After the stacking of the projection matrices. -/
abbrev W1 : Dev nD → Valuation τ sig (Elt F) := fun c => StableHlo.after hostOps0 (W0 m ρ c)
/-- The same, read at the references of the core's thread: what the projection launch finds. -/
abbrev V1 : (c : Dev nD) → (b : Ref sig .tc) → Buf (Elt F) ((c : Thread nD τ).loc b) := fun c b => W1 m ρ c b
/-- After the projection launch: its windows' arrays at what its write-backs leave, every other buffer as found. -/
def W2 (c : Dev nD) : Valuation τ sig (Elt F) :=
  Pipeline.withArrays spec0 c (W1 m ρ c) fun w => (datP (V1 m ρ) c).arrAt w cfg0.N
theorem W2_arr (c : Dev nD) (w : Fin cfg0.W) :
    W2 m ρ c (Proc.devRef .tc (Pipeline.arrRef spec0 w)) = (datP (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- After the slicing and the three gathers. -/
abbrev W3 : Dev nD → Valuation τ sig (Elt F) := fun c => StableHlo.after hostOps1 (W2 m ρ c)
/-- What the edge launch finds. -/
abbrev V3 : (c : Dev nD) → (b : Ref sig .tc) → Buf (Elt F) ((c : Thread nD τ).loc b) := fun c b => W3 m ρ c b
/-- After the edge launch. -/
def W4 (c : Dev nD) : Valuation τ sig (Elt F) :=
  Pipeline.withArrays spec1 c (W3 m ρ c) fun w => (datE (V3 m ρ) c).arrAt w cfg1.N
theorem W4_arr (c : Dev nD) (w : Fin cfg1.W) :
    W4 m ρ c (Proc.devRef .tc (Pipeline.arrRef spec1 w)) = (datE (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- After the two segment sums and the division: the contents the program ends with. -/
abbrev W5 : Dev nD → Valuation τ sig (Elt F) := fun c => StableHlo.after hostOps2 (W4 m ρ c)

end Cert.KernelIdeal.Hand

end
-- ==== Proof.IdealBodyP.lean ====
/-
  The projection launch, one grid point at a time.

  At every grid point each input window's staging buffer holds that window's block of the array the launch was entered
  with: the row block of the node features is brought in afresh at each point, and the stacked weight matrix, brought in
  once at the first point, has the same block index at every later point, so its buffer still holds it. The body reads
  the two input buffers whole, reads the product's buffer (whatever it holds), and overwrites that buffer whole with the
  product of the two blocks it read; it touches nothing else. Hence the body's contract at a generic point, which is
  what the launch's bookkeeping record asks of it.
-/
import proofs.«172924_j14508399526689_2_alg».proof.Proof.IdealBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the launch is entered with, per core
variable (V : (c : Dev nD) → (b : Ref sig .tc) → Buf (Elt F) ((c : Thread nD τ).loc b))

/-! ## The input buffers hold their blocks -/

/-- The node features' staging buffer holds the point's row block, for any record over the entry contents whose body
    leaves that block in place: the window is an input, never idle, and uncut. -/
theorem stagedP_0_of {c : Dev nD} (dat : Dat τ (Elt F) Unit ℕ (UR sig nD τ) ℕ cfg0 c)
    (hA : dat.A 0 = V c (Pipeline.arrRef spec0 0)) (hafter : ∀ t, dat.after 0 t = blockP V c 0 t)
    (t : Fin cfg0.N) (d) : dat.before 0 t d = blockP V c 0 t :=
  (dat.before_in_eq_fetched 0 rfl (fun _ => rfl) (fun _ _ _ => rfl)
      (fun t => by rw [hafter]; unfold Dat.blockOf blockP; rw [hA]; try rfl) t d).trans
    (by unfold Dat.fetched Dat.blockOf blockP; rw [hA]; try rfl)

/-- The stacked weights' staging buffer holds the whole matrix at every point, though it is brought in only at the
    first: its block index never moves. -/
theorem stagedP_1_of {c : Dev nD} (dat : Dat τ (Elt F) Unit ℕ (UR sig nD τ) ℕ cfg0 c)
    (hA : dat.A 1 = V c (Pipeline.arrRef spec0 1)) (hafter : ∀ t, dat.after 1 t = blockP V c 1 t)
    (t : Fin cfg0.N) (d) : dat.before 1 t d = blockP V c 1 t :=
  (dat.before_in_eq_fetched 1 rfl (fun _ => rfl) (fun _ _ _ => rfl)
      (fun t => by rw [hafter]; unfold Dat.blockOf blockP; rw [hA]; try rfl) t d).trans
    (by unfold Dat.fetched Dat.blockOf blockP; rw [hA]; try rfl)

theorem stagedP_0 (c : Dev nD) (t : Fin cfg0.N) (d) : (datP V c).before 0 t d = blockP V c 0 t :=
  stagedP_0_of V (datP V c) (datP_A V c 0) (afterP_0 V c) t d
theorem stagedP_1 (c : Dev nD) (t : Fin cfg0.N) (d) : (datP V c).before 1 t d = blockP V c 1 t :=
  stagedP_1_of V (datP V c) (datP_A V c 1) (afterP_1 V c) t d

/-! ## The body on whole buffers -/

set_option maxHeartbeats 1000000 in
/-- The body, given the two input buffers at contents `x` and `w` and the product's buffer at anything, ends with the
    inputs as they were and the product's buffer at `outP x w`: two whole reads, a read of the old product, one store
    that covers the buffer. -/
theorem kernelP (c : Dev nD) (E : Set ℕ) (i : grid0.Coords)
    (a1 : Memref sig .tc .vmem S5000x128 .f32) (h1 : a1.IsWhole)
    (a2 : Memref sig .tc .vmem S128x384 .f32) (h2 : a2.IsWhole)
    (a3 : Memref sig .tc .vmem S5000x384 .f32) (h3 : a3.IsWhole)
    (x : Vec F S5000x128 .f32) (w : Vec F S128x384 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (outP x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverP _)

/-! ## The body at a grid point -/

/-- What the body is entered with at point `t`: the launch invariant, the core's debts, and the three current staging
    buffers, -/
def prePointP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d)))

/-- and what it leaves. -/
def postPointP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t))

/-- The body at any point: its input buffers hold the point's blocks, so `kernelP` applies at those blocks; the
    invariant and the debts are not touched. -/
theorem pointP (c : Dev nD) (t : Fin cfg0.N) :
    prePointP V c t ⊢ wp frame (wpE (defs₀ (F := F)) Variants.none c none) Set.univ (bodyAt0 t)
      (fun _ => postPointP V c t) := by
  unfold prePointP postPointP bodyAt0
  simp only [stagedP_0, stagedP_1]
  rw [show (datP V c).Φ t.succ = (datP V c).Φ t.castSucc from rfl,
    show (datP V c).owesAt () t.succ = (datP V c).owesAt () t.castSucc from rfl,
    afterP_0, afterP_1, afterP_2]
  iintro ⟨HΦ, Ho, ⟨%d0, H0⟩, ⟨%d1, H1⟩, ⟨%d2, H2⟩⟩
  iapply (kernelP c Set.univ _ _ _ _ _ _ _ (blockP V c 0 t) (blockP V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's contract as the launch's record asks it, at every point. -/
theorem body_obligationP (c : Dev nD) :
    BodyObligation (datP (F := F) V c) (defs₀ (F := F)) Variants.none () Set.univ := fun t => by
  rw [bigSep_W0, bigSep_W0]
  exact pointP V c t

end Cert.KernelIdeal.Hand

end
-- ==== Proof.IdealBodyE.lean ====
/-
  The edge launch, one grid point at a time.

  At every grid point each of the seven input windows' staging buffers holds that window's block of the array the launch
  was entered with: the four edge arrays (gathered keys, queries and values, and the edge features) are brought in afresh
  at each point, 8000 edges at a time; the edge projection and the two head-indicator matrices are brought in once at the
  first point and, their block index never moving, are still there at every later one. The body reads the seven input
  buffers whole; it stores the gated scores over the whole of the first output buffer, the per-head weights over the whole
  of the third, and the weighted values over the whole of the second, reading each output buffer's old contents before
  its store and touching nothing else. Hence the body's contract at a generic point, which is what the launch's
  bookkeeping record asks of it.
-/
import proofs.«172924_j14508399526689_2_alg».proof.Proof.IdealBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents the launch is entered with, per core
variable (V : (c : Dev nD) → (b : Ref sig .tc) → Buf (Elt F) ((c : Thread nD τ).loc b))

/-! ## The input buffers hold their blocks -/

/-- The gathered key rows' staging buffer holds the point's block of 8000 edges, for any record over the entry contents whose body leaves that block in place: the window is an
    input, never idle, and uncut. -/
theorem stagedE_0_of {c : Dev nD} (dat : Dat τ (Elt F) Unit ℕ (UR sig nD τ) ℕ cfg1 c)
    (hA : dat.A 0 = V c (Pipeline.arrRef spec1 0)) (hafter : ∀ t, dat.after 0 t = blockE V c 0 t)
    (t : Fin cfg1.N) (d) : dat.before 0 t d = blockE V c 0 t :=
  (dat.before_in_eq_fetched 0 rfl (fun _ => rfl) (fun _ _ _ => rfl)
      (fun t => by rw [hafter]; unfold Dat.blockOf blockE; rw [hA]; try rfl) t d).trans
    (by unfold Dat.fetched Dat.blockOf blockE; rw [hA]; try rfl)

/-- The gathered query rows' staging buffer holds the point's block, for any record over the entry contents whose body leaves that block in place: the window is an
    input, never idle, and uncut. -/
theorem stagedE_1_of {c : Dev nD} (dat : Dat τ (Elt F) Unit ℕ (UR sig nD τ) ℕ cfg1 c)
    (hA : dat.A 1 = V c (Pipeline.arrRef spec1 1)) (hafter : ∀ t, dat.after 1 t = blockE V c 1 t)
    (t : Fin cfg1.N) (d) : dat.before 1 t d = blockE V c 1 t :=
  (dat.before_in_eq_fetched 1 rfl (fun _ => rfl) (fun _ _ _ => rfl)
      (fun t => by rw [hafter]; unfold Dat.blockOf blockE; rw [hA]; try rfl) t d).trans
    (by unfold Dat.fetched Dat.blockOf blockE; rw [hA]; try rfl)

/-- The gathered value rows' staging buffer holds the point's block, for any record over the entry contents whose body leaves that block in place: the window is an
    input, never idle, and uncut. -/
theorem stagedE_2_of {c : Dev nD} (dat : Dat τ (Elt F) Unit ℕ (UR sig nD τ) ℕ cfg1 c)
    (hA : dat.A 2 = V c (Pipeline.arrRef spec1 2)) (hafter : ∀ t, dat.after 2 t = blockE V c 2 t)
    (t : Fin cfg1.N) (d) : dat.before 2 t d = blockE V c 2 t :=
  (dat.before_in_eq_fetched 2 rfl (fun _ => rfl) (fun _ _ _ => rfl)
      (fun t => by rw [hafter]; unfold Dat.blockOf blockE; rw [hA]; try rfl) t d).trans
    (by unfold Dat.fetched Dat.blockOf blockE; rw [hA]; try rfl)

/-- The edge features' staging buffer holds the point's block, for any record over the entry contents whose body leaves that block in place: the window is an
    input, never idle, and uncut. -/
theorem stagedE_3_of {c : Dev nD} (dat : Dat τ (Elt F) Unit ℕ (UR sig nD τ) ℕ cfg1 c)
    (hA : dat.A 3 = V c (Pipeline.arrRef spec1 3)) (hafter : ∀ t, dat.after 3 t = blockE V c 3 t)
    (t : Fin cfg1.N) (d) : dat.before 3 t d = blockE V c 3 t :=
  (dat.before_in_eq_fetched 3 rfl (fun _ => rfl) (fun _ _ _ => rfl)
      (fun t => by rw [hafter]; unfold Dat.blockOf blockE; rw [hA]; try rfl) t d).trans
    (by unfold Dat.fetched Dat.blockOf blockE; rw [hA]; try rfl)

/-- The edge projection's staging buffer holds the whole matrix at every point, though it is brought in only at the first: its block index never moves, for any record over the entry contents whose body leaves that block in place: the window is an
    input, never idle, and uncut. -/
theorem stagedE_4_of {c : Dev nD} (dat : Dat τ (Elt F) Unit ℕ (UR sig nD τ) ℕ cfg1 c)
    (hA : dat.A 4 = V c (Pipeline.arrRef spec1 4)) (hafter : ∀ t, dat.after 4 t = blockE V c 4 t)
    (t : Fin cfg1.N) (d) : dat.before 4 t d = blockE V c 4 t :=
  (dat.before_in_eq_fetched 4 rfl (fun _ => rfl) (fun _ _ _ => rfl)
      (fun t => by rw [hafter]; unfold Dat.blockOf blockE; rw [hA]; try rfl) t d).trans
    (by unfold Dat.fetched Dat.blockOf blockE; rw [hA]; try rfl)

/-- The head-indicator matrix's staging buffer holds the whole matrix at every point (brought in once, its block index never moves), for any record over the entry contents whose body leaves that block in place: the window is an
    input, never idle, and uncut. -/
theorem stagedE_5_of {c : Dev nD} (dat : Dat τ (Elt F) Unit ℕ (UR sig nD τ) ℕ cfg1 c)
    (hA : dat.A 5 = V c (Pipeline.arrRef spec1 5)) (hafter : ∀ t, dat.after 5 t = blockE V c 5 t)
    (t : Fin cfg1.N) (d) : dat.before 5 t d = blockE V c 5 t :=
  (dat.before_in_eq_fetched 5 rfl (fun _ => rfl) (fun _ _ _ => rfl)
      (fun t => by rw [hafter]; unfold Dat.blockOf blockE; rw [hA]; try rfl) t d).trans
    (by unfold Dat.fetched Dat.blockOf blockE; rw [hA]; try rfl)

/-- The transposed head-indicator matrix's staging buffer holds the whole matrix at every point (brought in once, its block index never moves), for any record over the entry contents whose body leaves that block in place: the window is an
    input, never idle, and uncut. -/
theorem stagedE_6_of {c : Dev nD} (dat : Dat τ (Elt F) Unit ℕ (UR sig nD τ) ℕ cfg1 c)
    (hA : dat.A 6 = V c (Pipeline.arrRef spec1 6)) (hafter : ∀ t, dat.after 6 t = blockE V c 6 t)
    (t : Fin cfg1.N) (d) : dat.before 6 t d = blockE V c 6 t :=
  (dat.before_in_eq_fetched 6 rfl (fun _ => rfl) (fun _ _ _ => rfl)
      (fun t => by rw [hafter]; unfold Dat.blockOf blockE; rw [hA]; try rfl) t d).trans
    (by unfold Dat.fetched Dat.blockOf blockE; rw [hA]; try rfl)

theorem stagedE_0 (c : Dev nD) (t : Fin cfg1.N) (d) : (datE V c).before 0 t d = blockE V c 0 t :=
  stagedE_0_of V (datE V c) (datE_A V c 0) (afterE_0 V c) t d
theorem stagedE_1 (c : Dev nD) (t : Fin cfg1.N) (d) : (datE V c).before 1 t d = blockE V c 1 t :=
  stagedE_1_of V (datE V c) (datE_A V c 1) (afterE_1 V c) t d
theorem stagedE_2 (c : Dev nD) (t : Fin cfg1.N) (d) : (datE V c).before 2 t d = blockE V c 2 t :=
  stagedE_2_of V (datE V c) (datE_A V c 2) (afterE_2 V c) t d
theorem stagedE_3 (c : Dev nD) (t : Fin cfg1.N) (d) : (datE V c).before 3 t d = blockE V c 3 t :=
  stagedE_3_of V (datE V c) (datE_A V c 3) (afterE_3 V c) t d
theorem stagedE_4 (c : Dev nD) (t : Fin cfg1.N) (d) : (datE V c).before 4 t d = blockE V c 4 t :=
  stagedE_4_of V (datE V c) (datE_A V c 4) (afterE_4 V c) t d
theorem stagedE_5 (c : Dev nD) (t : Fin cfg1.N) (d) : (datE V c).before 5 t d = blockE V c 5 t :=
  stagedE_5_of V (datE V c) (datE_A V c 5) (afterE_5 V c) t d
theorem stagedE_6 (c : Dev nD) (t : Fin cfg1.N) (d) : (datE V c).before 6 t d = blockE V c 6 t :=
  stagedE_6_of V (datE V c) (datE_A V c 6) (afterE_6 V c) t d

/-! ## The body on whole buffers -/

set_option maxHeartbeats 4000000 in
/-- The body, given the seven input buffers at contents `k q v ef we mh mt` and the three output buffers at anything,
    ends with the inputs as they were, the score buffer at `outScore`, the weighted-value buffer at `outContrib` and the
    per-head weight buffer at `outHead` of the inputs: whole reads of the inputs, a read of each output's old contents
    before its store, and one store per output that covers its buffer. -/
theorem kernelE (c : Dev nD) (E : Set ℕ) (i : grid1.Coords)
    (a1 : Memref sig .tc .vmem S8000x128 .f32) (h1 : a1.IsWhole)
    (a2 : Memref sig .tc .vmem S8000x128 .f32) (h2 : a2.IsWhole)
    (a3 : Memref sig .tc .vmem S8000x128 .f32) (h3 : a3.IsWhole)
    (a4 : Memref sig .tc .vmem S8000x128 .f32) (h4 : a4.IsWhole)
    (a5 : Memref sig .tc .vmem S128x128 .f32) (h5 : a5.IsWhole)
    (a6 : Memref sig .tc .vmem S128x8 .f32) (h6 : a6.IsWhole)
    (a7 : Memref sig .tc .vmem S8x128 .f32) (h7 : a7.IsWhole)
    (a8 : Memref sig .tc .vmem S8000x128 .f32) (h8 : a8.IsWhole)
    (a9 : Memref sig .tc .vmem S8000x128 .f32) (h9 : a9.IsWhole)
    (a10 : Memref sig .tc .vmem S8000x8 .f32) (h10 : a10.IsWhole)
    (k q v ef : Vec F S8000x128 .f32) (we : Vec F S128x128 .f32) (mh : Vec F S128x8 .f32) (mt : Vec F S8x128 .f32)
    (K : PUnit → sProp 𝕄) :
    iprop(owns (c : Thread nD τ) a1 fullShare k ∗ owns (c : Thread nD τ) a2 fullShare q ∗ owns (c : Thread nD τ) a3 fullShare v ∗ owns (c : Thread nD τ) a4 fullShare ef
        ∗ owns (c : Thread nD τ) a5 fullShare we ∗ owns (c : Thread nD τ) a6 fullShare mh ∗ owns (c : Thread nD τ) a7 fullShare mt
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare k ∗ owns (c : Thread nD τ) a2 fullShare q ∗ owns (c : Thread nD τ) a3 fullShare v ∗ owns (c : Thread nD τ) a4 fullShare ef
            ∗ owns (c : Thread nD τ) a5 fullShare we ∗ owns (c : Thread nD τ) a6 fullShare mh ∗ owns (c : Thread nD τ) a7 fullShare mt
            ∗ owns (c : Thread nD τ) a8 fullShare (outScore k q ef we)
            ∗ owns (c : Thread nD τ) a9 fullShare (outContrib k q v ef we mh mt)
            ∗ owns (c : Thread nD τ) a10 fullShare (outHead k q ef we mh)) -∗ K ⟨⟩))
      ⊢ wp frame (wpE (defs₀ (F := F)) Variants.none c none) E
          (cc1__edge_kernel i a1 h1 a2 h2 a3 h3 a4 h4 a5 h5 a6 h6 a7 h7 a8 h8 a9 h9 a10 h10) K := by
  simp only [cc1__edge_kernel_eq_skeleton]; unfold cc1__edge_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, ⟨%d9, %f9, -, H9⟩, ⟨%d10, %f10, -, H10⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverE _)
  isplitl [H9]
  · iexists _; isplitr
    swap; · iexact H9
    ipureintro
    exact View.read_writes_eq_canon _ _ _ (coverE _)
  iexists _; isplitr
  swap; · iexact H10
  ipureintro
  exact View.read_writes_eq_canon _ _ _ (coverH _)

/-! ## The body at a grid point -/

/-- What the body is entered with at point `t`: the launch invariant, the core's debts, and the ten current staging
    buffers, -/
def prePointE (c : Dev nD) (t : Fin cfg1.N) : sProp 𝕄 :=
  iprop((datE V c).Φ t.castSucc ∗ (datE V c).owesAt () t.castSucc
    ∗ (∃ d, owns (c : Thread nD τ) (st1_0 t) fullShare ((datE V c).before 0 t d))
    ∗ (∃ d, owns (c : Thread nD τ) (st1_1 t) fullShare ((datE V c).before 1 t d))
    ∗ (∃ d, owns (c : Thread nD τ) (st1_2 t) fullShare ((datE V c).before 2 t d))
    ∗ (∃ d, owns (c : Thread nD τ) (st1_3 t) fullShare ((datE V c).before 3 t d))
    ∗ (∃ d, owns (c : Thread nD τ) (st1_4 t) fullShare ((datE V c).before 4 t d))
    ∗ (∃ d, owns (c : Thread nD τ) (st1_5 t) fullShare ((datE V c).before 5 t d))
    ∗ (∃ d, owns (c : Thread nD τ) (st1_6 t) fullShare ((datE V c).before 6 t d))
    ∗ (∃ d, owns (c : Thread nD τ) (st1_7 t) fullShare ((datE V c).before 7 t d))
    ∗ (∃ d, owns (c : Thread nD τ) (st1_8 t) fullShare ((datE V c).before 8 t d))
    ∗ (∃ d, owns (c : Thread nD τ) (st1_9 t) fullShare ((datE V c).before 9 t d)))

/-- and what it leaves. -/
def postPointE (c : Dev nD) (t : Fin cfg1.N) : sProp 𝕄 :=
  iprop((datE V c).Φ t.succ ∗ (datE V c).owesAt () t.succ
    ∗ owns (c : Thread nD τ) (st1_0 t) fullShare ((datE V c).after 0 t)
    ∗ owns (c : Thread nD τ) (st1_1 t) fullShare ((datE V c).after 1 t)
    ∗ owns (c : Thread nD τ) (st1_2 t) fullShare ((datE V c).after 2 t)
    ∗ owns (c : Thread nD τ) (st1_3 t) fullShare ((datE V c).after 3 t)
    ∗ owns (c : Thread nD τ) (st1_4 t) fullShare ((datE V c).after 4 t)
    ∗ owns (c : Thread nD τ) (st1_5 t) fullShare ((datE V c).after 5 t)
    ∗ owns (c : Thread nD τ) (st1_6 t) fullShare ((datE V c).after 6 t)
    ∗ owns (c : Thread nD τ) (st1_7 t) fullShare ((datE V c).after 7 t)
    ∗ owns (c : Thread nD τ) (st1_8 t) fullShare ((datE V c).after 8 t)
    ∗ owns (c : Thread nD τ) (st1_9 t) fullShare ((datE V c).after 9 t))

/-- The body at any point: its input buffers hold the point's blocks, so `kernelE` applies at those blocks; the
    invariant and the debts are not touched. -/
theorem pointE (c : Dev nD) (t : Fin cfg1.N) :
    prePointE V c t ⊢ wp frame (wpE (defs₀ (F := F)) Variants.none c none) Set.univ (bodyAt1 t)
      (fun _ => postPointE V c t) := by
  unfold prePointE postPointE bodyAt1
  simp only [stagedE_0, stagedE_1, stagedE_2, stagedE_3, stagedE_4, stagedE_5, stagedE_6]
  rw [show (datE V c).Φ t.succ = (datE V c).Φ t.castSucc from rfl,
    show (datE V c).owesAt () t.succ = (datE V c).owesAt () t.castSucc from rfl,
    afterE_0, afterE_1, afterE_2, afterE_3, afterE_4, afterE_5, afterE_6, afterE_7, afterE_8, afterE_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩⟩
  iapply (kernelE c Set.univ _ _ _ _ _ _ _ _ _ _ _ _ _ _ _ _ _ _ _ _ _ (blockE V c 0 t) (blockE V c 1 t) (blockE V c 2 t)
    (blockE V c 3 t) (blockE V c 4 t) (blockE V c 5 t) (blockE V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's contract as the launch's record asks it, at every point. -/
theorem body_obligationE (c : Dev nD) :
    BodyObligation (datE (F := F) V c) (defs₀ (F := F)) Variants.none () Set.univ := fun t => by
  rw [bigSep_W1, bigSep_W1]
  exact pointE V c t

end Cert.KernelIdeal.Hand

end
-- ==== Proof.IdealRun.lean ====
/-
  The whole program as five stretches run one after another on every core, and what every buffer holds at the end.

  The program is: host lines, the projection launch, host lines, the edge launch, host lines. Each stretch is entered
  with every unscoped buffer of the core at the contents the stretch before it left (the fold `W0 … W5`), beside the
  core's generator register at some state and its debts to other cores, which are none. A host stretch rewrites the
  buffers its lines write; a launch takes its windows' arrays out of the buffers, runs its grid, and puts them back at
  what its write-backs leave, every other buffer untouched. Composing the five: every execution from a memory with all
  counters at zero terminates, and at the end every unscoped buffer of every core holds `W5`. The program's eight
  arguments are written by no host line and by no launch, so `W5` at an argument is the memory it was started with.
-/
import proofs.«172924_j14508399526689_2_alg».proof.Proof.IdealFold
import proofs.«172924_j14508399526689_2_alg».proof.Proof.IdealBodyP
import proofs.«172924_j14508399526689_2_alg».proof.Proof.IdealBodyE
import proofs.«172924_j14508399526689_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a launch leaves: its windows' arrays at their write-backs, the rest as found -/

theorem left_arr0 (c : Dev nD) (w : Fin cfg0.W) :
    (datP (V1 m ρ) c).arrAt w cfg0.N = V2 m ρ c (Pipeline.arrRef spec0 w) := (W2_arr m ρ c w).symm
theorem left_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem left_arr1 (c : Dev nD) (w : Fin cfg1.W) :
    (datE (V3 m ρ) c).arrAt w cfg1.N = V4 m ρ c (Pipeline.arrRef spec1 w) := (W4_arr m ρ c w).symm
theorem left_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as started -/

/-- Argument 0 ends as it was started: no host line writes it and the projection launch only reads it (its first window). -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((datP (V1 m ρ) c).arrAt_in 0 rfl _).trans (datP_A (V1 m ρ) c 0))
    _ = W0 m ρ c (Proc.devRef .tc main_arg0) := StableHlo.after_of_writes_sub hostOps0 _ hostOps0_writes (by decide)
    _ = m ((c : Thread nD τ).loc main_arg0) := rfl

/-- Argument 1 ends as it was started: no host line writes it and the edge launch only reads it (its fourth window). -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 3).trans (((datE (V3 m ρ) c).arrAt_in 3 rfl _).trans (datE_A (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as it was started: no host line writes it and no launch has it for a window. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as it was started: no host line writes it and no launch has it for a window. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- Argument 4 ends as it was started: no host line writes it and no launch has it for a window. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Argument 5 ends as it was started: no host line writes it and the edge launch only reads it (its fifth window). -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := (W4_arr m ρ c 4).trans (((datE (V3 m ρ) c).arrAt_in 4 rfl _).trans (datE_A (V3 m ρ) c 4))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- Argument 6 ends as it was started: no host line writes it and no launch has it for a window. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- Argument 7 ends as it was started: no host line writes it and no launch has it for a window. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The launches' records, and what rides beside the buffers -/

/-- Each launch's bookkeeping record at the contents it is entered with: the projection launch after the first host
    stretch, the edge launch after the second. -/
def pdats : (p : Fin 2) → (c : Dev nD) →
    Dat τ (Elt F) Unit ℕ (UR sig nD τ) ℕ (Pipeline.pin (pcfgs (F := F)) adm p) c
  | ⟨0, _⟩ => fun c => datP (V1 m ρ) c
  | ⟨1, _⟩ => fun c => datE (V3 m ρ) c
abbrev 𝒱₀ : Variants := Variants.none
/-- No core ever owes another anything: no pair of cores is assigned a level. -/
abbrev L : GSem nD τ sig → Finset Unit := fun _ => ∅
abbrev lv : GSem nD τ sig → Unit → ℕ := fun _ _ => 0
/-- Beside the buffers, through every stretch: the core's generator register at some state, and its debts, none. -/
abbrev Side (c : Dev nD) : sProp 𝕄 :=
  iprop((∃ r, prngReg c r) ∗ ∃ W, owes (c : Thread nD τ) (0 : CellTallies nD τ sig Unit) W)
/-- A stretch of host lines as a segment: from every unscoped buffer at `W` to the same buffers after the lines. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side
/-- The state the program ends in, without the debts: every unscoped buffer at `W5`, the register at some state. -/
abbrev Last (c : Dev nD) : sProp 𝕄 :=
  iprop(StableHlo.held (c : Thread nD τ) (Pipeline.ucRefs τ sig) (W5 m ρ c) ∗ ∃ r, prngReg c r)

/-! ## The two launches as segments -/

set_option backward.isDefEq.respectTransparency.types false in
/-- The projection launch: entered with every unscoped buffer at `W1`, left with them at `W2`. Its three arrays are taken
    out of the buffers and put back at what the write-backs leave; the register goes into the launch invariant and comes
    back; nothing is owed; the kernel has no semaphore of its own. -/
def regionP : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationP (V1 m ρ) c).loose
  hwaits := Pipeline.hwaits_of_owed_zero _ _ _ _ L lv 0 fun _ _ => rfl
  pre c := iprop(StableHlo.held (c : Thread nD τ) (Pipeline.ucRefs τ sig) (W1 m ρ c) ∗ Side c)
  post c := iprop(StableHlo.held (c : Thread nD τ) (Pipeline.ucRefs τ sig) (W2 m ρ c) ∗ Side c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win
      launch0.arr_whole c ((pdats m ρ 0 c).share_full fun _ => rfl) (V1 m ρ c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ)
      (U := UR sig nD τ) (Lvl := ℕ) launch0.win launch0.arr_whole c (pdats m ρ)
      ((pdats m ρ 0 c).share_full fun _ => rfl) (V1 m ρ c) (V2 m ρ c) ((pdats m ρ 0 c).arrAt · cfg0.N)
      (left_arr0 m ρ c) (left_rest0 m ρ c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- The edge launch: entered with every unscoped buffer at `W3`, left with them at `W4`, in the same way over its ten
    arrays. -/
def regionE : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationE (V3 m ρ) c).loose
  hwaits := Pipeline.hwaits_of_owed_zero _ _ _ _ L lv 1 fun _ _ => rfl
  pre c := iprop(StableHlo.held (c : Thread nD τ) (Pipeline.ucRefs τ sig) (W3 m ρ c) ∗ Side c)
  post c := iprop(StableHlo.held (c : Thread nD τ) (Pipeline.ucRefs τ sig) (W4 m ρ c) ∗ Side c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win
      launch1.arr_whole c ((pdats m ρ 1 c).share_full fun _ => rfl) (V3 m ρ c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ)
      (U := UR sig nD τ) (Lvl := ℕ) launch1.win launch1.arr_whole c (pdats m ρ)
      ((pdats m ρ 1 c).share_full fun _ => rfl) (V3 m ρ c) (V4 m ρ c) ((pdats m ρ 1 c).arrAt · cfg1.N)
      (left_arr1 m ρ c) (left_rest1 m ρ c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The program as its five stretches -/

/-- The last host stretch ends at `Last` beside no debts: the same three resources, bracketed the other way. -/
theorem last_side (c : Dev nD) :
    iprop(StableHlo.held (c : Thread nD τ) (Pipeline.ucRefs τ sig) (W5 m ρ c) ∗ Side c)
      ⊢ iprop(Last m ρ c ∗ ∃ W, owes (c : Thread nD τ) (0 : CellTallies nD τ sig Unit) W) := by
  iintro ⟨Hbufs, Hreg, Hdebt⟩
  isplitl [Hbufs Hreg]
  · isplitl [Hbufs]; · iexact Hbufs
    iexact Hreg
  iexact Hdebt

abbrev stretches : List (Pipeline.Seg (pcfgs (F := F)) adm (pdats m ρ) () defs₀ 𝒱₀ L lv) :=
  [ .host (hostStretch hostOps0 hostOps0_sub hostOps0_fresh (W0 m ρ)),
    .region (regionP m ρ),
    .host (hostStretch hostOps1 hostOps1_sub hostOps1_fresh (W2 m ρ)),
    .region (regionE m ρ),
    .host (hostStretch hostOps2 hostOps2_sub hostOps2_fresh (W4 m ρ)) ]

/-- The printed program is the five stretches in order. -/
theorem main_run (c : Dev nD) : main (F := F) c = Pipeline.Seg.run (stretches m ρ) :=
  (main_chain c).trans (by chain_rfl)

set_option backward.isDefEq.respectTransparency.types false in
/-- From any memory with every counter at zero, every weakly fair execution of the program terminates, and in every
    final state each unscoped buffer of each core holds `W5`: the five stretches chain (each is entered with what the
    one before left; the last one's end is `Last` beside no debts, by re-association), the first state is what a start
    deals out, and the last is read off the final memory buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (stretches m ρ)
    (fun c Q => by rw [main_run m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ Side c))
    (Tₙ := Last m ρ)
    (hch := ⟨fun _ => .rfl, fun _ => .rfl, fun _ => .rfl, fun _ => .rfl, fun _ => .rfl, fun c => last_side m ρ c⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h => h)

end Cert.KernelIdeal.Hand

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.IdealValueP.lean ====
/-
  What the projection launch leaves in the product array: at row `n` and column `j` the sum over `k` of the node
  feature `(n, k)` times the stacked weight `(k, j)`. Each grid point writes the 5000 rows of its block, computed from
  the same rows of the features and the whole weight matrix, and the ten blocks tile the 50000 rows.
-/
import proofs.«172924_j14508399526689_2_alg».proof.Proof.IdealFold
import proofs.«172924_j14508399526689_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

theorem zero2 : (![0, 0] : Fin 2 → Nat) = fun _ => 0 := funext fun a => by fin_cases a <;> rfl

/-- The matrix product of an `M × K` by a `K × N` array of extended reals, index by index. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The body's arithmetic at row `r`, column `q` of the block: the product of the row block by the weights. -/
theorem payP_apply (x : Vec Ideal S5000x128 .f32) (w : Vec Ideal S128x384 .f32) (r : Fin 5000) (q : Fin 384) :
    k0_pay1 x w (ix2 r q) = ∑ k : Fin 128, x (ix2 r k) * w (ix2 k q) := by
  unfold k0_pay1
  rw [shapeCast_self]
  exact PlainDot.matmul_zero_apply dot_S5000x128_S128x384_S5000x384_1_0_0_1_n_n_wf (some .fp32) x w r q

/-- The body's arithmetic at an index `j` of the block is the product at an index `i` of the arrays, once the block's
    row of features and the weights' column are the arrays' row and column at `i`. -/
theorem payP_at (x : Vec Ideal S5000x128 .f32) (w : Vec Ideal S128x384 .f32)
    (X : (⟨2, ![50000, 128]⟩ : Shape).Idx → EReal) (Wst : (⟨2, ![128, 384]⟩ : Shape).Idx → EReal)
    (i : (⟨2, ![50000, 384]⟩ : Shape).Idx) (j : S5000x384.Idx)
    (hx : ∀ k : Fin 128, x (ix2 (j 0) k) = X (ix2 (i 0) k))
    (hw : ∀ k : Fin 128, w (ix2 k (j 1)) = Wst (ix2 k (i 1))) :
    k0_pay1 x w j = matProd X Wst i := by
  obtain ⟨p, q, rfl⟩ : ∃ (p : Fin 5000) (q : Fin 384), j = ix2 p q := ⟨j 0, j 1, eq_ix2 j⟩
  have hx' : ∀ k : Fin 128, x (ix2 p k) = X (ix2 (i 0) k) := hx
  have hw' : ∀ k : Fin 128, w (ix2 k q) = Wst (ix2 k (i 1)) := hw
  rw [payP_apply]
  unfold matProd
  exact Finset.sum_congr rfl fun k _ => by rw [hx' k, hw' k]

/-- The printed index maps of the projection launch over its grid: the feature and product windows move one row block
    per grid point, the weights stay put. -/
theorem indexP : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

variable (V : (c : Dev nD) → (b : Ref sig .tc) → Buf (Elt Ideal) ((c : Thread nD τ).loc b))

/-- Grid point `t` writes back rows `5000 t …` of the product of the arrays the launch finds. -/
theorem flushedP_eq (c : Dev nD) (t : Fin cfg0.N) :
    (datP V c).flushed 2 t = ((cfg0.win 2).blk t).view.read (Elt Ideal)
      (matProd (M := 50000) (K := 128) (N := 384) (V c main_arg0) (V c main_v0)) := by
  show (cfg0.win 2).cut (grid0.coords t) ((datP V c).after 2 t) = _
  rw [afterP_2]
  unfold outP
  rw [View.canon_unit_zero zero2]
  simp only [View.ld_unit_zero (S := S5000x128) zero2, View.ld_unit_zero (S := S128x384) zero2]
  funext j
  obtain ⟨e0, e1, e2, e3, e4, e5⟩ := indexP t
  show k0_pay1 (blockP V c 0 t) (blockP V c 1 t) j
    = matProd (M := 50000) (K := 128) (N := 384) (V c main_arg0) (V c main_v0) (((cfg0.win 2).blk t).view.emb j)
  refine payP_at _ _ _ _ _ j (fun k => ?_) (fun k => ?_)
  · show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_v0 (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 384 + 1 * (j 1).val = win0_2.index t (1 : Fin 2) * 384 + 1 * (j 1).val; omega

/-- An index of the product array lies in grid point `t`'s block when each coordinate lies in the block's range. -/
theorem mem_blockP (t : Fin cfg0.N) (i : S50000x384.Idx) :
    i ∈ ((cfg0.win 2).blk t).view.set ↔ ∀ a : Fin 2, win0_2.index t a * S5000x384.size a ≤ (i a).val
      ∧ (i a).val < win0_2.index t a * S5000x384.size a + S5000x384.size a := by
  show i ∈ ((View.whole main_v1).slice (win0_2.rect t)).set ↔ _
  rw [View.set_slice_whole, Rect.mem_set_unit]
  exact Iff.rfl

/-- Row `n` of the product is written by grid point `n / 5000`. -/
theorem coverProd (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : (i 0).val / 5000 < cfg0.N := by rw [show cfg0.N = 10 from N_0]; omega
  obtain ⟨e0, e1, e2, e3, e4, e5⟩ := indexP ⟨(i 0).val / 5000, hN⟩
  refine ⟨⟨(i 0).val / 5000, hN⟩, flush0_2 _, ?_⟩
  rw [mem_blockP]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, hN⟩ (1 : Fin 2) * 384 ≤ (i 1).val
      ∧ (i 1).val < win0_2.index ⟨(i 0).val / 5000, hN⟩ (1 : Fin 2) * 384 + 384
    rw [e4]; omega

/-- After its ten grid points the projection launch leaves the whole product in its output array. -/
theorem finalP (c : Dev nD) :
    (datP V c).arrAt 2 cfg0.N = matProd (M := 50000) (K := 128) (N := 384) (V c main_arg0) (V c main_v0) :=
  (datP V c).arrAt_eq_of_cover 2 _ (fun t _ => flushedP_eq V c t) coverProd

end Cert.KernelIdeal.HandValue

end
-- ==== Proof.IdealHost.lean ====
/-
  The host lines of the program read at their results: what the stacking, the slicing and gathering, and the segment
  sums and the division leave, as terms of the buffers before them; and the buffers no line and no launch writes.
-/
import proofs.«172924_j14508399526689_2_alg».proof.Proof.IdealFold
import proofs.«172924_j14508399526689_2_alg».proof.Proof.IdealValueP
import proofs.«172924_j14508399526689_2_alg».proof.Proof.Gen.KernelIdeal.Regions
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- An index vector made ready for a gather: a negative index counts from the end, then the vector becomes a column. -/
def readyIdx (x : IVec S400000 32) : IVec S400000x1 32 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 50000#32))) x)

/-- An index vector as the column a segment sum takes. -/
def colIdx (x : IVec S400000 32) : IVec S400000x1 32 :=
  broadcastInDim S400000x1 ![0] bcast_S400000_S400000x1_0 x

/-! ## Before the projection launch -/

theorem W1_stack (c : Dev nD) : W1 m ρ c (Proc.devRef .tc main_v0)
    = concatenate S128x384 1 [⟨S128x128, m ((c : Thread nD τ).loc main_arg2)⟩, ⟨S128x128, m ((c : Thread nD τ).loc main_arg3)⟩,
        ⟨S128x128, m ((c : Thread nD τ).loc main_arg4)⟩] concatenates_S128x128_S128x128_S128x128_S128x384_d1 := by
  show StableHlo.after hostOps0 (W0 m ρ c) (Proc.devRef .tc main_v0) = _
  after_results
  rfl

theorem W1_markerH (c : Dev nD) : W1 m ρ c (Proc.devRef .tc main_cst)
    = (fun i => FloatOps.ofBits (F := Ideal) .f32 (lit0 (S128x8.rowMajor i)) : S128x8.Idx → EReal) := by
  show StableHlo.after hostOps0 (W0 m ρ c) (Proc.devRef .tc main_cst) = _
  after_results
  rfl

theorem W1_markerT (c : Dev nD) : W1 m ρ c (Proc.devRef .tc main_cst_0)
    = (fun i => FloatOps.ofBits (F := Ideal) .f32 (lit1 (S8x128.rowMajor i)) : S8x128.Idx → EReal) := by
  show StableHlo.after hostOps0 (W0 m ρ c) (Proc.devRef .tc main_cst_0) = _
  after_results
  rfl

theorem W1_kept (c : Dev nD) (r : Ref sig .tc) (h : r ∉ hostOps0_W) :
    W1 m ρ c (Proc.devRef .tc r) = m ((c : Thread nD τ).loc r) :=
  StableHlo.after_of_writes_sub hostOps0 _ hostOps0_writes h

/-! ## Between the launches -/

theorem W3_kept (c : Dev nD) (r : Ref sig .tc) (h : r ∉ hostOps1_W) :
    W3 m ρ c (Proc.devRef .tc r) = W2 m ρ c (Proc.devRef .tc r) :=
  StableHlo.after_of_writes_sub hostOps1 _ hostOps1_writes h

/-- The gathered keys: the rows of the product's middle third named by the sources. -/
theorem W3_keys (c : Dev nD) : W3 m ρ c (Proc.devRef .tc main_v11)
    = Host.gather gather_S50000x128_S400000x1_S400000x128_1_0_n_n_0_1_1128
        (extractStridedSlice S50000x128 ![0, 128] (W2 m ρ c (Proc.devRef .tc main_v1) : S50000x384.Idx → EReal) slices_S50000x384_S50000x128_0_128)
        (readyIdx (W2 m ρ c (Proc.devRef .tc main_arg6) : IVec S400000 32)) := by
  show StableHlo.after hostOps1 (W2 m ρ c) (Proc.devRef .tc main_v11) = _
  after_results
  rfl

/-- The gathered queries: the rows of the product's first third named by the destinations. -/
theorem W3_queries (c : Dev nD) : W3 m ρ c (Proc.devRef .tc main_v18)
    = Host.gather gather_S50000x128_S400000x1_S400000x128_1_0_n_n_0_1_1128
        (extractStridedSlice S50000x128 ![0, 0] (W2 m ρ c (Proc.devRef .tc main_v1) : S50000x384.Idx → EReal) slices_S50000x384_S50000x128_0_0)
        (readyIdx (W2 m ρ c (Proc.devRef .tc main_arg7) : IVec S400000 32)) := by
  show StableHlo.after hostOps1 (W2 m ρ c) (Proc.devRef .tc main_v18) = _
  after_results_simp
  rfl

/-- The gathered values: the rows of the product's last third named by the sources. -/
theorem W3_values (c : Dev nD) : W3 m ρ c (Proc.devRef .tc main_v25)
    = Host.gather gather_S50000x128_S400000x1_S400000x128_1_0_n_n_0_1_1128
        (extractStridedSlice S50000x128 ![0, 256] (W2 m ρ c (Proc.devRef .tc main_v1) : S50000x384.Idx → EReal) slices_S50000x384_S50000x128_0_256)
        (readyIdx (W2 m ρ c (Proc.devRef .tc main_arg6) : IVec S400000 32)) := by
  show StableHlo.after hostOps1 (W2 m ρ c) (Proc.devRef .tc main_v25) = _
  after_results_simp
  rfl

/-! ## After the edge launch -/

theorem W5_kept (c : Dev nD) (r : Ref sig .tc) (h : r ∉ hostOps2_W) :
    W5 m ρ c (Proc.devRef .tc r) = W4 m ρ c (Proc.devRef .tc r) :=
  StableHlo.after_of_writes_sub hostOps2 _ hostOps2_writes h

/-- The scores, laid out by head and lane. -/
theorem W5_scores (c : Dev nD) : W5 m ρ c (Proc.devRef .tc main_v39)
    = shapeCast S400000x8x16 (W4 m ρ c (Proc.devRef .tc main_v26_0) : S400000x128.Idx → EReal) shapeCasts_S400000x128_S400000x8x16 := by
  show StableHlo.after hostOps2 (W4 m ρ c) (Proc.devRef .tc main_v39) = _
  after_results
  rfl

/-- The node outputs: the segment sum of the weighted values over the segment sum of the weights plus the small
    constant. -/
theorem W5_nodes (c : Dev nD) : W5 m ρ c (Proc.devRef .tc main_v38)
    = Host.divf
        (shapeCast S50000x8x16
          (Host.scatterAdd scatter_S50000x128_S400000x1_S400000x128_1_0_0_1
            (broadcastInDim S50000x128 ![] bcast_S_S50000x128 (constant (F := Ideal) S_ .f32 0x00000000#32))
            (colIdx (W4 m ρ c (Proc.devRef .tc main_arg7) : IVec S400000 32))
            (W4 m ρ c (Proc.devRef .tc main_v26_1) : S400000x128.Idx → EReal))
          shapeCasts_S50000x128_S50000x8x16)
        (broadcastInDim S50000x8x16 ![0, 1, 2] bcast_S50000x8x1_S50000x8x16_0_1_2
          (addf
            (shapeCast S50000x8x1
              (Host.scatterAdd scatter_S50000x8_S400000x1_S400000x8_1_0_0_1
                (broadcastInDim S50000x8 ![] bcast_S_S50000x8 (constant (F := Ideal) S_ .f32 0x00000000#32))
                (colIdx (W4 m ρ c (Proc.devRef .tc main_arg7) : IVec S400000 32))
                (W4 m ρ c (Proc.devRef .tc main_v26_2) : S400000x8.Idx → EReal))
              shapeCasts_S50000x8_S50000x8x1)
            (broadcastInDim S50000x8x1 ![] bcast_S_S50000x8x1 (constant (F := Ideal) S_ .f32 0x358637BD#32)))) := by
  show StableHlo.after hostOps2 (W4 m ρ c) (Proc.devRef .tc main_v38) = _
  after_results
  rfl

end Cert.KernelIdeal.HandValue

end
-- ==== Proof.EdgeLaws.lean ====
/-
  The edge-attention layer, stated once over the extended reals, and the three small laws that let two programs
  computing it differently agree.

  The layer. Nodes carry 128 features, seen as 8 heads of 16 lanes (feature `16 h + l` is lane `l` of head `h`). Queries,
  keys and values are the node features times three 128 x 128 matrices; every edge `e` has a source and a destination
  node and its own projected features. The SCORE of edge `e` at feature `j` is the product of the source's key and the
  destination's query, scaled by a quarter (one over the square root of the 16 lanes), clamped to [-5, 5], and gated by the
  edge's projected feature. The WEIGHT of edge `e` for head `h` is the exponential of the clamped sum of the head's 16
  scores. The node output at `(n, h, l)` is the sum over the edges arriving at `n` of weight times source value, divided by
  the sum of the weights plus a small constant.

  The laws. Dividing by the square root of 16 is multiplying by a quarter, on every extended real. Summing 128 terms
  against a 0/1 matrix that marks the lanes of head `h` is summing the head's 16 terms; summing 8 terms against the
  transposed marker is picking the head of the lane. No finiteness is needed: a product with zero is zero and a sum
  with zero is the other summand on all the extended reals.
-/
import Idealize.ShloMosaic.Lib.ValueIdx
import Idealize.ShloMosaic.PureOps.Ideal

noncomputable section

open scoped BigOperators

namespace Cert.EdgeAttn

open Idealize.ShloMosaic Idealize.ShloMosaic.ValueIdx

/-! ## Heads and lanes -/

/-- Feature `16 h + l`: lane `l` of head `h`. -/
def lane (h : Fin 8) (l : Fin 16) : Fin 128 := ⟨16 * h.val + l.val, by omega⟩
/-- The head a feature belongs to. -/
def headOf (j : Fin 128) : Fin 8 := ⟨j.val / 16, by omega⟩

theorem headOf_lane (h : Fin 8) (l : Fin 16) : headOf (lane h l) = h := by
  apply Fin.ext; show (16 * h.val + l.val) / 16 = h.val; omega

/-! ## The literal words -/

theorem word_zero : Ideal.ofBits .f32 0x00000000#32 = 0 := by
  simp [Ideal.ofBits, Ideal.ieee]
theorem word_one : Ideal.ofBits .f32 0x3F800000#32 = 1 := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_sixteen : Ideal.ofBits .f32 0x41800000#32 = ((16 : ℝ) : EReal) := by
  simp [Ideal.ofBits, Ideal.ieee, -EReal.coe_mul]; norm_num

/-! ## The three laws -/

/-- Dividing by the square root of sixteen is multiplying by a quarter. -/
theorem div_sqrt_sixteen (x : EReal) :
    Ideal.div x (Ideal.sqrt (Ideal.ofBits .f32 0x41800000#32)) = x * Ideal.ofBits .f32 0x3E800000#32 := by
  have h4 : Real.sqrt 16 = 4 := by
    rw [show (16 : ℝ) = 4 ^ 2 by norm_num]; exact Real.sqrt_sq (by norm_num)
  rw [word_sixteen, word_quarter, Ideal.sqrt_coe, if_neg (by norm_num), h4]
  exact Ideal.div_coe (by norm_num) x

/-- A sum of 128 terms against the marker of head `h`'s lanes is the sum of the head's 16 terms. -/
theorem sum_mul_marker (f : Fin 128 → EReal) (M : Fin 128 → EReal) (h : Fin 8)
    (hM : ∀ j : Fin 128, M j = if j.val / 16 = h.val then 1 else 0) :
    ∑ j : Fin 128, f j * M j = ∑ l : Fin 16, f (lane h l) := by
  have e1 : ∀ j : Fin 128, f j * M j = if j.val / 16 = h.val then f j else 0 := by
    intro j; rw [hM j]; split_ifs <;> simp
  rw [Finset.sum_congr rfl fun j _ => e1 j, ← Finset.sum_filter]
  refine Finset.sum_nbij' (fun j => (⟨j.val % 16, Nat.mod_lt _ (by norm_num)⟩ : Fin 16)) (fun l => lane h l) ?_ ?_ ?_ ?_ ?_
  · intro j _; exact Finset.mem_univ _
  · intro l _
    refine Finset.mem_filter.mpr ⟨Finset.mem_univ _, ?_⟩
    show (16 * h.val + l.val) / 16 = h.val; omega
  · intro j hj
    have hj' : j.val / 16 = h.val := (Finset.mem_filter.mp hj).2
    apply Fin.ext; show 16 * h.val + j.val % 16 = j.val; omega
  · intro l _
    apply Fin.ext; show (16 * h.val + l.val) % 16 = l.val; omega
  · intro j hj
    have hj' : j.val / 16 = h.val := (Finset.mem_filter.mp hj).2
    congr 1
    apply Fin.ext; show j.val = 16 * h.val + j.val % 16; omega

/-- A sum of 8 terms against the column of the transposed marker at feature `j` is the term of `j`'s head. -/
theorem sum_mul_marker_t (a : Fin 8 → EReal) (Mt : Fin 8 → EReal) (j : Fin 128)
    (hMt : ∀ h : Fin 8, Mt h = if j.val / 16 = h.val then 1 else 0) :
    ∑ h : Fin 8, a h * Mt h = a (headOf j) := by
  rw [Finset.sum_eq_single (headOf j)]
  · rw [hMt (headOf j), if_pos (show j.val / 16 = (headOf j).val from rfl), mul_one]
  · intro h _ hne
    rw [hMt h, if_neg (fun e => hne (Fin.ext e.symm)), mul_zero]
  · intro hn; exact absurd (Finset.mem_univ _) hn

/-! ## Rows named by an index vector -/

/-- The row a gather reads for edge `e`: the index read signed and clamped into the 50000 rows. -/
def rowOf (I : IVec ⟨2, ![400000, 1]⟩ 32) (e : Fin 400000) : Fin 50000 :=
  ⟨min (I (ix2 e 0)).toInt.toNat (50000 - 1), by omega⟩

/-- Edge `e` arrives at node `n` for a segment sum: its index, read signed and not clamped, is exactly `n`. -/
def arrivesAt (I : IVec ⟨2, ![400000, 1]⟩ 32) (e : Fin 400000) (n : Fin 50000) : Prop :=
  (I (ix2 e 0)).toInt = (n.val : Int)

instance (I : IVec ⟨2, ![400000, 1]⟩ 32) (e : Fin 400000) (n : Fin 50000) : Decidable (arrivesAt I e n) :=
  inferInstanceAs (Decidable ((I (ix2 e 0)).toInt = (n.val : Int)))

/-! ## The layer -/

section Layer

variable (X : (⟨2, ![50000, 128]⟩ : Shape).Idx → EReal) (Ef : (⟨2, ![400000, 128]⟩ : Shape).Idx → EReal)
  (Wq Wk Wv We : (⟨2, ![128, 128]⟩ : Shape).Idx → EReal)
  (src dst : Fin 400000 → Fin 50000) (arrives : Fin 400000 → Fin 50000 → Prop) [∀ e n, Decidable (arrives e n)]

/-- Node `n`'s projection by the matrix `W` at feature `j`. -/
def nodeProj (W : (⟨2, ![128, 128]⟩ : Shape).Idx → EReal) (n : Fin 50000) (j : Fin 128) : EReal :=
  ∑ k : Fin 128, X (ix2 n k) * W (ix2 k j)
/-- Edge `e`'s projected feature `j`. -/
def edgeProj (e : Fin 400000) (j : Fin 128) : EReal := ∑ k : Fin 128, Ef (ix2 e k) * We (ix2 k j)

/-- The clamp to [-5, 5], as both programs spell it: the larger of -5 and `x`, then the smaller of 5 and that. -/
def clamp5 (x : EReal) : EReal :=
  min (Ideal.ofBits .f32 0x40A00000#32) (max (Ideal.ofBits .f32 0xC0A00000#32) x)

/-- The gated, clamped, scaled score of edge `e` at feature `j`. -/
def score (e : Fin 400000) (j : Fin 128) : EReal :=
  clamp5 (nodeProj X Wk (src e) j * nodeProj X Wq (dst e) j * Ideal.ofBits .f32 0x3E800000#32) * edgeProj Ef We e j

/-- The weight of edge `e` for head `h`. -/
def weight (e : Fin 400000) (h : Fin 8) : EReal :=
  Ideal.exp (clamp5 (∑ l : Fin 16, score X Ef Wq Wk We src dst e (lane h l)))

/-- The node output at `(n, h, l)`. -/
def nodeOut (n : Fin 50000) (h : Fin 8) (l : Fin 16) : EReal :=
  Ideal.div
    (Ideal.ofBits .f32 0x00000000#32 + ∑ e ∈ Finset.univ.filter (fun e => arrives e n),
      nodeProj X Wv (src e) (lane h l) * weight X Ef Wq Wk We src dst e h)
    ((Ideal.ofBits .f32 0x00000000#32 + ∑ e ∈ Finset.univ.filter (fun e => arrives e n), weight X Ef Wq Wk We src dst e h)
      + Ideal.ofBits .f32 0x358637BD#32)

end Layer

/-! ## What one launch over the gathered rows computes -/

section Launch

variable (Ks Qd Vs Ef : (⟨2, ![400000, 128]⟩ : Shape).Idx → EReal) (We : (⟨2, ![128, 128]⟩ : Shape).Idx → EReal)
  (Mh : (⟨2, ![128, 8]⟩ : Shape).Idx → EReal) (Mt : (⟨2, ![8, 128]⟩ : Shape).Idx → EReal)

/-- The gated score from the gathered key and query rows `Ks`, `Qd`, the edge features and the edge projection. -/
def launchScore (i : (⟨2, ![400000, 128]⟩ : Shape).Idx) : EReal :=
  clamp5 (Ks i * Qd i * Ideal.ofBits .f32 0x3E800000#32) * ∑ k : Fin 128, Ef (ix2 (i 0) k) * We (ix2 k (i 1))

/-- The per-head weight: the scores summed against the head marker `Mh`, clamped, exponentiated. -/
def launchHead (i : (⟨2, ![400000, 8]⟩ : Shape).Idx) : EReal :=
  Ideal.exp (clamp5 (∑ j : Fin 128, launchScore Ks Qd Ef We (ix2 (i 0) j) * Mh (ix2 j (i 1))))

/-- The weighted value: the gathered value row times the weights spread back over the lanes by the transposed marker. -/
def launchContrib (i : (⟨2, ![400000, 128]⟩ : Shape).Idx) : EReal :=
  Vs i * ∑ h : Fin 8, launchHead Ks Qd Ef We Mh (ix2 (i 0) h) * Mt (ix2 h (i 1))

end Launch

end Cert.EdgeAttn

end
-- ==== Proof.LibRowGatherScatter.lean ====
/-
  Row gather and row scatter-add, read at an index.

  What \`x[idx]\` of a matrix \`x : [N, C]\` at an integer vector \`idx : [E]\` (carried as \`[E, 1]\`) lowers to is a
  \`stablehlo.gather\` of whole rows: result element \`(e, k)\` is \`x\` at row \`idx[e]\` (read signed, clamped into
  \`[0, N − 1]\`) and column \`k\`. What a segment sum of rows \`upd : [E, C]\` into \`[N, C]\` lowers to is a
  \`stablehlo.scatter\` with an \`add\` body: operand element \`(n, k)\` receives every \`upd (e, k)\` whose index \`idx[e]\`,
  read signed and not clamped, is exactly \`n\`.
-/
import Idealize.ShloMosaic.Lib.ValueIdx
import Idealize.ShloMosaic.PureOps.Ideal

noncomputable section

open scoped BigOperators

namespace Cert.RowOps

open Idealize.ShloMosaic Idealize.ShloMosaic.ValueIdx

/-! ## The row gather -/

/-- The dimension numbers of a row gather: operand \`[N, C]\`, start indices \`[E, 1]\`, result \`[E, C]\`; offset axis
    \`1\`, collapsed operand axis \`0\`, the start index naming operand axis \`0\`, slices of one whole row. Their
    conditions \`wf\` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for edge \`e\`: the start index read signed and clamped into \`[0, N − 1]\`. -/
def gatherRow {N E w : Nat} (hN : 0 < N) (idx : IVec ⟨2, ![E, 1]⟩ w) (e : Fin E) : Fin N :=
  ⟨min (idx (ix2 e 0)).toInt.toNat (N - 1), by omega⟩

/-- The row gather at \`(e, k)\` is the operand at row \`gatherRow e\` (the clamped start index) and column \`k\`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (gatherRow hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (fun h => absurd (List.mem_singleton.mp h) (show (1 : Fin 2) ≠ 0 by decide))]
    rw [hst]
    simp only [Nat.add_zero, Nat.zero_add]
    unfold GatherDims.offCoord
    rw [dif_pos ((GatherDims.mem_sKept _ _).mpr
      ⟨fun h => absurd (List.mem_singleton.mp h) (show (1 : Fin 2) ≠ 0 by decide), List.not_mem_nil⟩)]
    rfl

/-! ## The row scatter-add -/

/-- The dimension numbers of a row scatter: operand \`[N, C]\`, scatter indices \`[E, 1]\`, updates \`[E, C]\`; update
    window axis \`1\`, inserted operand axis \`0\`, the scatter index naming operand axis \`0\`. Their conditions \`wf\` are
    decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- The operand axes the update windows go to are the ones that are not inserted. -/
theorem rowScatter_mem_sKept (a : Fin 2) :
    a ∈ (rowScatterDims N E C wf).sKept ↔ a ∉ (rowScatterDims N E C wf).insertedWindowDims := by
  simp [ScatterDims.sKept, Shape.kept, List.mem_filter, List.mem_finRange]

/-- On the row axis the window of update \`(e, k)\` starts at the scatter index \`idx[e]\`, read signed. -/
theorem rowScatter_start0 (idx : IVec ⟨2, ![E, 1]⟩ w) (e : Fin E) (k : Fin C) :
    (rowScatterDims N E C wf).start (ix2 e k) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at \`0\`: the scatter index names the row axis only. -/
theorem rowScatter_start1 (idx : IVec ⟨2, ![E, 1]⟩ w) (e : Fin E) (k : Fin C) :
    (rowScatterDims N E C wf).start (ix2 e k) idx 1 = 0 := by
  unfold ScatterDims.start
  rw [dif_neg (fun h => absurd (List.mem_singleton.mp h) (show (1 : Fin 2) ≠ 0 by decide))]

/-- The row axis is an inserted one: the window coordinate there is \`0\`. -/
theorem rowScatter_window0 (e : Fin E) (k : Fin C) : (rowScatterDims N E C wf).window (ix2 e k) 0 = 0 := by
  unfold ScatterDims.window
  rw [dif_neg (fun h => ((rowScatter_mem_sKept wf 0).mp h) (List.mem_singleton.mpr rfl))]

/-- On the column axis the window coordinate of update \`(e, k)\` is \`k\`. -/
theorem rowScatter_window1 (e : Fin E) (k : Fin C) : (rowScatterDims N E C wf).window (ix2 e k) 1 = k.val := by
  unfold ScatterDims.window
  rw [dif_pos ((rowScatter_mem_sKept wf 1).mpr
    (fun h => absurd (List.mem_singleton.mp h) (show (1 : Fin 2) ≠ 0 by decide)))]
  rfl

end Scatter

/-- Update \`(e, k)\` lands on operand element \`(n, k')\` exactly when the columns agree and the scatter index \`idx[e]\`,
    read signed, is the row \`n\`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k')
      ↔ (k = k' ∧ (idx (ix2 e 0)).toInt = (n.val : Int)) := by
  have hk := k.isLt
  have hn := n.isLt
  unfold ScatterDims.resultIdx?
  constructor
  · intro h
    by_cases hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a
    · rw [dif_pos hall] at h
      have heq := Option.some.inj h
      have h0 : ((rowScatterDims N E C wf).start (ix2 e k) idx 0 + (rowScatterDims N E C wf).window (ix2 e k) 0).toNat
          = n.val := congrArg (fun f => (f 0).val) heq
      have h1 : ((rowScatterDims N E C wf).start (ix2 e k) idx 1 + (rowScatterDims N E C wf).window (ix2 e k) 1).toNat
          = k'.val := congrArg (fun f => (f 1).val) heq
      have b0 := (hall 0).1
      rw [rowScatter_start0, rowScatter_window0] at h0 b0
      rw [rowScatter_start1, rowScatter_window1] at h1
      refine ⟨Fin.ext ?_, ?_⟩
      · omega
      · omega
    · rw [dif_neg hall] at h
      exact absurd h (by simp)
  · rintro ⟨rfl, hi⟩
    have hall : ∀ a, 0 ≤ (rowScatterDims N E C wf).start (ix2 e k) idx a + (rowScatterDims N E C wf).window (ix2 e k) a
        ∧ (rowScatterDims N E C wf).start (ix2 e k) idx a + (rowScatterDims N E C wf).window (ix2 e k) a
          < (⟨2, ![N, C]⟩ : Shape).size a := by
      intro a
      match a with
      | ⟨0, _⟩ =>
        show 0 ≤ (rowScatterDims N E C wf).start (ix2 e k) idx 0 + (rowScatterDims N E C wf).window (ix2 e k) 0
          ∧ (rowScatterDims N E C wf).start (ix2 e k) idx 0 + (rowScatterDims N E C wf).window (ix2 e k) 0 < (N : Int)
        rw [rowScatter_start0, rowScatter_window0, hi]
        omega
      | ⟨1, _⟩ =>
        show 0 ≤ (rowScatterDims N E C wf).start (ix2 e k) idx 1 + (rowScatterDims N E C wf).window (ix2 e k) 1
          ∧ (rowScatterDims N E C wf).start (ix2 e k) idx 1 + (rowScatterDims N E C wf).window (ix2 e k) 1 < (C : Int)
        rw [rowScatter_start1, rowScatter_window1]
        omega
    rw [dif_pos hall]
    congr 1
    funext a
    refine Fin.ext ?_
    match a with
    | ⟨0, _⟩ =>
      show ((rowScatterDims N E C wf).start (ix2 e k) idx 0 + (rowScatterDims N E C wf).window (ix2 e k) 0).toNat = n.val
      rw [rowScatter_start0, rowScatter_window0, hi]
      omega
    | ⟨1, _⟩ =>
      show ((rowScatterDims N E C wf).start (ix2 e k) idx 1 + (rowScatterDims N E C wf).window (ix2 e k) 1).toNat = k.val
      rw [rowScatter_start1, rowScatter_window1]
      omega

/-- THE ROW SCATTER-ADD AT \`(n, k)\`: the operand element plus the sum of the update elements \`upd (e, k)\` over the
    edges \`e\` whose scatter index \`idx[e]\`, read signed and not clamped, is the row \`n\`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e 0)).toInt = (n.val : Int)), upd (ix2 e k) := by
  unfold Ideal.hostScatterAdd
  congr 1
  -- the update indices that land on \`(n, k)\` are the \`(e, k)\` with \`idx[e] = n\`: re-index by the edge coordinate
  refine Finset.sum_nbij' (fun j => (j 0 : Fin E)) (fun e => ix2 e k) ?_ ?_ ?_ ?_ ?_
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    exact Finset.mem_filter.mpr ⟨Finset.mem_univ _, h.2⟩
  · intro e he
    exact Finset.mem_filter.mpr ⟨Finset.mem_univ _,
      (rowScatter_resultIdx_iff wf idx e k n k).mpr ⟨rfl, (Finset.mem_filter.mp he).2⟩⟩
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show ix2 a k = ix2 a b
    rw [h.1]
  · intro e _
    rfl
  · intro j hj
    obtain ⟨a, b, rfl⟩ : ∃ (a : Fin E) (b : Fin C), j = ix2 a b := ⟨j 0, j 1, eq_ix2 j⟩
    have h := (rowScatter_resultIdx_iff wf idx a b n k).mp (Finset.mem_filter.mp hj).2
    show upd (ix2 a b) = upd (ix2 a k)
    rw [h.1]

end Cert.RowOps

end
-- ==== Proof.IdealPieces.lean ====
/-
  The buffers the edge launch finds, read index by index: the two marker matrices hold a one exactly where a feature
  belongs to a head, and the three weight matrices laid side by side are read column block by column block.
-/
import proofs.«172924_j14508399526689_2_alg».proof.Proof.IdealHost
import proofs.«172924_j14508399526689_2_alg».proof.Proof.EdgeLaws
import proofs.«172924_j14508399526689_2_alg».proof.Proof.LibRowGatherScatter
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand Cert.EdgeAttn
open scoped BigOperators

/-! ## The marker matrices -/

/-- The words of the 128 x 8 marker, row-major: a one at `(j, h)` when feature `j` is a lane of head `h`. -/
theorem markerH_word : ∀ i : Fin 1024, lit0 i = if (i.val / 8) / 16 = i.val % 8 then 0x3F800000#32 else 0x00000000#32 := by
  decide +kernel

/-- The words of the 8 x 128 marker, row-major: a one at `(h, j)` when feature `j` is a lane of head `h`. -/
theorem markerT_word : ∀ i : Fin 1024, lit1 i = if (i.val % 128) / 16 = i.val / 128 then 0x3F800000#32 else 0x00000000#32 := by
  decide +kernel

theorem markerH_apply (j : Fin 128) (h : Fin 8) :
    Ideal.ofBits .f32 (lit0 (S128x8.rowMajor (ix2 j h))) = if j.val / 16 = h.val then 1 else 0 := by
  have hj := j.isLt; have hh := h.isLt
  have hv : (S128x8.rowMajor (ix2 j h)).val = j.val * 8 + h.val := Shape.rowMajor_val_two (ix2 j h)
  have h8 : (j.val * 8 + h.val) / 8 = j.val := by omega
  have h9 : (j.val * 8 + h.val) % 8 = h.val := by omega
  refine (congrArg (Ideal.ofBits .f32) (markerH_word (S128x8.rowMajor (ix2 j h)))).trans ?_
  rw [hv, h8, h9]
  by_cases hc : j.val / 16 = h.val
  · rw [if_pos hc, if_pos hc]; exact word_one
  · rw [if_neg hc, if_neg hc]; exact word_zero

theorem markerT_apply (h : Fin 8) (j : Fin 128) :
    Ideal.ofBits .f32 (lit1 (S8x128.rowMajor (ix2 h j))) = if j.val / 16 = h.val then 1 else 0 := by
  have hj := j.isLt; have hh := h.isLt
  have hv : (S8x128.rowMajor (ix2 h j)).val = h.val * 128 + j.val := Shape.rowMajor_val_two (ix2 h j)
  have h8 : (h.val * 128 + j.val) / 128 = h.val := by omega
  have h9 : (h.val * 128 + j.val) % 128 = j.val := by omega
  refine (congrArg (Ideal.ofBits .f32) (markerT_word (S8x128.rowMajor (ix2 h j)))).trans ?_
  rw [hv, h8, h9]
  by_cases hc : j.val / 16 = h.val
  · rw [if_pos hc, if_pos hc]; exact word_one
  · rw [if_neg hc, if_neg hc]; exact word_zero

/-! ## The stacked weights -/

/-- The first 128 columns of the three matrices laid side by side are the first matrix. -/
theorem stack_first (w0 w1 w2 : S128x128.Idx → EReal) (k j : Fin 128) :
    concatenate S128x384 1 [⟨S128x128, w0⟩, ⟨S128x128, w1⟩, ⟨S128x128, w2⟩]
        concatenates_S128x128_S128x128_S128x128_S128x384_d1 (ix2 k ⟨j.val, by omega⟩) = w0 (ix2 k j) :=
  concatenate_apply_piece (t := S128x384) 1 [⟨S128x128, w0⟩, ⟨S128x128, w1⟩, ⟨S128x128, w2⟩]
    concatenates_S128x128_S128x128_S128x128_S128x384_d1 (ix2 k ⟨j.val, by omega⟩) 0 (show (0 : Nat) < 3 by omega) S128x128 w0 rfl rfl 0 rfl (ix2 k j)
    (fun b hb => by match b with | ⟨0, _⟩ => rfl | ⟨1, _⟩ => exact absurd rfl hb) (Nat.zero_add _)

/-- The middle 128 columns are the second matrix. -/
theorem stack_second (w0 w1 w2 : S128x128.Idx → EReal) (k j : Fin 128) :
    concatenate S128x384 1 [⟨S128x128, w0⟩, ⟨S128x128, w1⟩, ⟨S128x128, w2⟩]
        concatenates_S128x128_S128x128_S128x128_S128x384_d1 (ix2 k ⟨128 + j.val, by omega⟩) = w1 (ix2 k j) :=
  concatenate_apply_piece (t := S128x384) 1 [⟨S128x128, w0⟩, ⟨S128x128, w1⟩, ⟨S128x128, w2⟩]
    concatenates_S128x128_S128x128_S128x128_S128x384_d1 (ix2 k ⟨128 + j.val, by omega⟩) 1 (show (1 : Nat) < 3 by omega) S128x128 w1 rfl rfl 128 rfl (ix2 k j)
    (fun b hb => by match b with | ⟨0, _⟩ => rfl | ⟨1, _⟩ => exact absurd rfl hb) rfl

/-- The last 128 columns are the third matrix. -/
theorem stack_third (w0 w1 w2 : S128x128.Idx → EReal) (k j : Fin 128) :
    concatenate S128x384 1 [⟨S128x128, w0⟩, ⟨S128x128, w1⟩, ⟨S128x128, w2⟩]
        concatenates_S128x128_S128x128_S128x128_S128x384_d1 (ix2 k ⟨256 + j.val, by omega⟩) = w2 (ix2 k j) :=
  concatenate_apply_piece (t := S128x384) 1 [⟨S128x128, w0⟩, ⟨S128x128, w1⟩, ⟨S128x128, w2⟩]
    concatenates_S128x128_S128x128_S128x128_S128x384_d1 (ix2 k ⟨256 + j.val, by omega⟩) 2 (show (2 : Nat) < 3 by omega) S128x128 w2 rfl rfl 256 rfl (ix2 k j)
    (fun b hb => by match b with | ⟨0, _⟩ => rfl | ⟨1, _⟩ => exact absurd rfl hb) rfl

end Cert.KernelIdeal.HandValue

end
-- ==== Proof.IdealGathered.lean ====
/-
  The rows the edge launch is handed: the gathered keys, queries and values are the projections of the nodes the
  edges' indices name, because the product array holds the three projections side by side.
-/
import proofs.«172924_j14508399526689_2_alg».proof.Proof.IdealPieces

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand Cert.EdgeAttn
open scoped BigOperators

variable (m : (ℓ : Loc nD τ sig) → Buf (Elt Ideal) ℓ) (ρ : Dev nD → PrngReg)

/-- After the projection launch the product array is the node features times the stacked weights. -/
theorem W2_product (c : Dev nD) : (W2 m ρ c (Proc.devRef .tc main_v1) : S50000x384.Idx → EReal)
    = matProd (M := 50000) (K := 128) (N := 384) (m ((c : Thread nD τ).loc main_arg0))
        (concatenate S128x384 1 [⟨S128x128, m ((c : Thread nD τ).loc main_arg2)⟩, ⟨S128x128, m ((c : Thread nD τ).loc main_arg3)⟩,
          ⟨S128x128, m ((c : Thread nD τ).loc main_arg4)⟩] concatenates_S128x128_S128x128_S128x128_S128x384_d1) := by
  have h := (W2_arr m ρ c 2).trans (finalP (V1 m ρ) c)
  rw [show V1 m ρ c main_arg0 = m ((c : Thread nD τ).loc main_arg0) from W1_kept m ρ c main_arg0 (by decide),
    show V1 m ρ c main_v0 = _ from W1_stack m ρ c] at h
  exact h

/-- The row gather of the program reads the row of the clamped index. -/
theorem gather_apply (x : S50000x128.Idx → EReal) (I : IVec S400000x1 32) (e : Fin 400000) (j : Fin 128) :
    Host.gather gather_S50000x128_S400000x1_S400000x128_1_0_n_n_0_1_1128 x I (ix2 e j) = x (ix2 (rowOf I e) j) :=
  RowOps.rowGather_apply (by norm_num) gather_S50000x128_S400000x1_S400000x128_1_0_n_n_0_1_1128_wf x I e j

/-- No line before the edge launch and no launch writes the source indices. -/
theorem W2_src (c : Dev nD) : (W2 m ρ c (Proc.devRef .tc main_arg6) : IVec S400000 32) = m ((c : Thread nD τ).loc main_arg6) :=
  (W2_of_ne m ρ c main_arg6 (by decide)).trans (W1_kept m ρ c main_arg6 (by decide))
theorem W2_dst (c : Dev nD) : (W2 m ρ c (Proc.devRef .tc main_arg7) : IVec S400000 32) = m ((c : Thread nD τ).loc main_arg7) :=
  (W2_of_ne m ρ c main_arg7 (by decide)).trans (W1_kept m ρ c main_arg7 (by decide))

/-- The gathered keys are the key projections of the source nodes. -/
theorem keys_apply (c : Dev nD) (e : Fin 400000) (j : Fin 128) :
    @Eq EReal ((V3 m ρ c main_v11 : S400000x128.Idx → EReal) (ix2 e j))
      (nodeProj (m ((c : Thread nD τ).loc main_arg0)) (m ((c : Thread nD τ).loc main_arg3))
          (rowOf (readyIdx (m ((c : Thread nD τ).loc main_arg6))) e) j) := by
  show @Eq EReal ((W3 m ρ c (Proc.devRef .tc main_v11) : S400000x128.Idx → EReal) (ix2 e j)) _
  rw [W3_keys, gather_apply, W2_src,
    extractStridedSlice_apply ![0, 128] _ slices_S50000x384_S50000x128_0_128 (ix2 (rowOf (readyIdx (m ((c : Thread nD τ).loc main_arg6))) e) j)
      (ix2 (rowOf (readyIdx (m ((c : Thread nD τ).loc main_arg6))) e) ⟨128 + j.val, by omega⟩)
      (fun a => by match a with | ⟨0, _⟩ => exact (Nat.zero_add _).symm | ⟨1, _⟩ => rfl),
    W2_product]
  unfold matProd nodeProj
  exact Finset.sum_congr rfl fun k _ => by
    show _ * concatenate S128x384 1 _ _ (ix2 k ⟨128 + j.val, _⟩) = _
    rw [stack_second]

/-- The gathered queries are the query projections of the destination nodes. -/
theorem queries_apply (c : Dev nD) (e : Fin 400000) (j : Fin 128) :
    @Eq EReal ((V3 m ρ c main_v18 : S400000x128.Idx → EReal) (ix2 e j))
      (nodeProj (m ((c : Thread nD τ).loc main_arg0)) (m ((c : Thread nD τ).loc main_arg2))
          (rowOf (readyIdx (m ((c : Thread nD τ).loc main_arg7))) e) j) := by
  show @Eq EReal ((W3 m ρ c (Proc.devRef .tc main_v18) : S400000x128.Idx → EReal) (ix2 e j)) _
  rw [W3_queries, gather_apply, W2_dst,
    extractStridedSlice_apply ![0, 0] _ slices_S50000x384_S50000x128_0_0 (ix2 (rowOf (readyIdx (m ((c : Thread nD τ).loc main_arg7))) e) j)
      (ix2 (rowOf (readyIdx (m ((c : Thread nD τ).loc main_arg7))) e) ⟨j.val, by omega⟩)
      (fun a => by match a with | ⟨0, _⟩ => exact (Nat.zero_add _).symm | ⟨1, _⟩ => exact (Nat.zero_add _).symm),
    W2_product]
  unfold matProd nodeProj
  exact Finset.sum_congr rfl fun k _ => by
    show _ * concatenate S128x384 1 _ _ (ix2 k ⟨j.val, _⟩) = _
    rw [stack_first]

/-- The gathered values are the value projections of the source nodes. -/
theorem values_apply (c : Dev nD) (e : Fin 400000) (j : Fin 128) :
    @Eq EReal ((V3 m ρ c main_v25 : S400000x128.Idx → EReal) (ix2 e j))
      (nodeProj (m ((c : Thread nD τ).loc main_arg0)) (m ((c : Thread nD τ).loc main_arg4))
          (rowOf (readyIdx (m ((c : Thread nD τ).loc main_arg6))) e) j) := by
  show @Eq EReal ((W3 m ρ c (Proc.devRef .tc main_v25) : S400000x128.Idx → EReal) (ix2 e j)) _
  rw [W3_values, gather_apply, W2_src,
    extractStridedSlice_apply ![0, 256] _ slices_S50000x384_S50000x128_0_256 (ix2 (rowOf (readyIdx (m ((c : Thread nD τ).loc main_arg6))) e) j)
      (ix2 (rowOf (readyIdx (m ((c : Thread nD τ).loc main_arg6))) e) ⟨256 + j.val, by omega⟩)
      (fun a => by match a with | ⟨0, _⟩ => exact (Nat.zero_add _).symm | ⟨1, _⟩ => rfl),
    W2_product]
  unfold matProd nodeProj
  exact Finset.sum_congr rfl fun k _ => by
    show _ * concatenate S128x384 1 _ _ (ix2 k ⟨256 + j.val, _⟩) = _
    rw [stack_third]

/-! ## The other windows of the edge launch -/

theorem V3_edges (c : Dev nD) : V3 m ρ c main_arg1 = m ((c : Thread nD τ).loc main_arg1) :=
  (W3_kept m ρ c main_arg1 (by decide)).trans ((W2_of_ne m ρ c main_arg1 (by decide)).trans (W1_kept m ρ c main_arg1 (by decide)))
theorem V3_edgeProj (c : Dev nD) : V3 m ρ c main_arg5 = m ((c : Thread nD τ).loc main_arg5) :=
  (W3_kept m ρ c main_arg5 (by decide)).trans ((W2_of_ne m ρ c main_arg5 (by decide)).trans (W1_kept m ρ c main_arg5 (by decide)))

theorem V3_markerH (c : Dev nD) (j : Fin 128) (h : Fin 8) :
    @Eq EReal ((V3 m ρ c main_cst : S128x8.Idx → EReal) (ix2 j h)) (if j.val / 16 = h.val then 1 else 0) := by
  rw [show V3 m ρ c main_cst = _ from (W3_kept m ρ c main_cst (by decide)).trans
    ((W2_of_ne m ρ c main_cst (by decide)).trans (W1_markerH m ρ c))]
  exact markerH_apply j h

theorem V3_markerT (c : Dev nD) (h : Fin 8) (j : Fin 128) :
    @Eq EReal ((V3 m ρ c main_cst_0 : S8x128.Idx → EReal) (ix2 h j)) (if j.val / 16 = h.val then 1 else 0) := by
  rw [show V3 m ρ c main_cst_0 = _ from (W3_kept m ρ c main_cst_0 (by decide)).trans
    ((W2_of_ne m ρ c main_cst_0 (by decide)).trans (W1_markerT m ρ c))]
  exact markerT_apply h j

end Cert.KernelIdeal.HandValue

end
-- ==== Proof.IdealValueE.lean ====
/-
  What the edge launch leaves in its three output arrays, as functions of the whole arrays it finds.

  Each grid point takes 8000 edges. From the rows of the gathered keys, queries and values and of the edge features
  that belong to those edges, and from the whole edge projection and the two whole head markers, it computes: the gated
  score (the key-query product scaled by a quarter, clamped to [-5, 5], times the edge's projected feature), the
  per-head weight (the exponential of the clamped sum of the scores against the head marker), and the weighted value
  (the value times the weights spread back over the lanes by the transposed marker). Every one of these at edge `e`
  depends only on row `e` of the edge arrays, so the block a grid point writes back is the block of ONE function of the
  whole arrays, and the fifty blocks tile the 400000 edges.
-/
import proofs.«172924_j14508399526689_2_alg».proof.Proof.IdealFold
import proofs.«172924_j14508399526689_2_alg».proof.Proof.LibPlainDot
import proofs.«172924_j14508399526689_2_alg».proof.Proof.EdgeLaws
import Idealize.ShloMosaic.Lib.Pipeline.Value
import Idealize.ShloMosaic.Lib.ValueIdx
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Cert.EdgeAttn
open scoped BigOperators

theorem zero2E : (![0, 0] : Fin 2 → Nat) = fun _ => 0 := funext fun a => by fin_cases a <;> rfl

/-! ## The body's arithmetic, entry by entry -/

section Payloads

variable (k q v ef : Vec Ideal S8000x128 .f32) (we : Vec Ideal S128x128 .f32) (mh : Vec Ideal S128x8 .f32)
  (mt : Vec Ideal S8x128 .f32)

/-- The gated score at edge `r` of the block, feature `j`: the key-query product times a quarter, clamped, times the
    edge's projected feature. -/
theorem payScore_apply (r : Fin 8000) (j : Fin 128) :
    k1_pay1 ef we k q (ix2 r j)
      = clamp5 (k (ix2 r j) * q (ix2 r j) * Ideal.ofBits .f32 0x3E800000#32)
        * ∑ kk : Fin 128, ef (ix2 r kk) * we (ix2 kk j) := by
  unfold k1_pay1
  rw [shapeCast_self, shapeCast_self]
  exact congrArg (fun z => clamp5 (k (ix2 r j) * q (ix2 r j) * Ideal.ofBits .f32 0x3E800000#32) * z)
    (PlainDot.matmul_zero_apply dot_S8000x128_S128x128_S8000x128_1_0_0_1_n_n_wf (some .fp32) ef we r j)

/-- The weight of edge `r` of the block for head `h`: the exponential of the clamped sum of the scores against the
    head marker. -/
theorem payHead_apply (r : Fin 8000) (h : Fin 8) :
    k1_pay2 ef we k q mh (ix2 r h)
      = Ideal.exp (clamp5 (∑ j : Fin 128, k1_pay1 ef we k q (ix2 r j) * mh (ix2 j h))) := by
  unfold k1_pay2
  exact congrArg (fun z => Ideal.exp (clamp5 z))
    (PlainDot.matmul_zero_apply dot_S8000x128_S128x8_S8000x8_1_0_0_1_n_n_wf (some .fp32) (k1_pay1 ef we k q) mh r h)

/-- The weighted value at edge `r` of the block, feature `j`: the value times the weights against the transposed
    marker. -/
theorem payContrib_apply (r : Fin 8000) (j : Fin 128) :
    k1_pay3 ef we k q v mh mt (ix2 r j)
      = v (ix2 r j) * ∑ h : Fin 8, k1_pay2 ef we k q mh (ix2 r h) * mt (ix2 h j) := by
  unfold k1_pay3
  rw [shapeCast_self]
  exact congrArg (fun z => v (ix2 r j) * z)
    (PlainDot.matmul_zero_apply dot_S8000x8_S8x128_S8000x128_1_0_0_1_n_n_wf (some .fp32) (k1_pay2 ef we k q mh) mt r j)

end Payloads

/-! ## Agreement: a block's entry from the arrays' rows -/

section Agree

variable {k q v ef : Vec Ideal S8000x128 .f32} {we : Vec Ideal S128x128 .f32} {mh : Vec Ideal S128x8 .f32}
  {mt : Vec Ideal S8x128 .f32}
variable {Ks Qd Vs Ef : (⟨2, ![400000, 128]⟩ : Shape).Idx → EReal} {We : (⟨2, ![128, 128]⟩ : Shape).Idx → EReal}
  {Mh : (⟨2, ![128, 8]⟩ : Shape).Idx → EReal} {Mt : (⟨2, ![8, 128]⟩ : Shape).Idx → EReal}

/-- The score of edge `r` of the block is the score of edge `e` of the arrays, once the block's key, query and
    edge-feature rows at `r` are the arrays' rows at `e` and the block's edge projection is the array's. -/
theorem payScore_row (r : Fin 8000) (e : Fin 400000)
    (hk : ∀ j : Fin 128, k (ix2 r j) = Ks (ix2 e j)) (hq : ∀ j : Fin 128, q (ix2 r j) = Qd (ix2 e j))
    (hef : ∀ j : Fin 128, ef (ix2 r j) = Ef (ix2 e j)) (hwe : ∀ a b : Fin 128, we (ix2 a b) = We (ix2 a b))
    (j : Fin 128) : k1_pay1 ef we k q (ix2 r j) = launchScore Ks Qd Ef We (ix2 e j) := by
  rw [payScore_apply, hk j, hq j]
  show _ = clamp5 (Ks (ix2 e j) * Qd (ix2 e j) * Ideal.ofBits .f32 0x3E800000#32)
    * ∑ kk : Fin 128, Ef (ix2 e kk) * We (ix2 kk j)
  refine congrArg (fun z => clamp5 (Ks (ix2 e j) * Qd (ix2 e j) * Ideal.ofBits .f32 0x3E800000#32) * z)
    (Finset.sum_congr rfl fun kk _ => ?_)
  rw [hef kk, hwe kk j]

/-- The same for the per-head weight, the head marker of the block being the array's. -/
theorem payHead_row (r : Fin 8000) (e : Fin 400000)
    (hk : ∀ j : Fin 128, k (ix2 r j) = Ks (ix2 e j)) (hq : ∀ j : Fin 128, q (ix2 r j) = Qd (ix2 e j))
    (hef : ∀ j : Fin 128, ef (ix2 r j) = Ef (ix2 e j)) (hwe : ∀ a b : Fin 128, we (ix2 a b) = We (ix2 a b))
    (hmh : ∀ (a : Fin 128) (b : Fin 8), mh (ix2 a b) = Mh (ix2 a b)) (h : Fin 8) :
    k1_pay2 ef we k q mh (ix2 r h) = launchHead Ks Qd Ef We Mh (ix2 e h) := by
  rw [payHead_apply]
  show _ = Ideal.exp (clamp5 (∑ j : Fin 128, launchScore Ks Qd Ef We (ix2 e j) * Mh (ix2 j h)))
  refine congrArg (fun z => Ideal.exp (clamp5 z)) (Finset.sum_congr rfl fun j _ => ?_)
  rw [payScore_row r e hk hq hef hwe j, hmh j h]

/-- The same for the weighted value, the value row and the transposed marker agreeing too. -/
theorem payContrib_row (r : Fin 8000) (e : Fin 400000)
    (hk : ∀ j : Fin 128, k (ix2 r j) = Ks (ix2 e j)) (hq : ∀ j : Fin 128, q (ix2 r j) = Qd (ix2 e j))
    (hv : ∀ j : Fin 128, v (ix2 r j) = Vs (ix2 e j))
    (hef : ∀ j : Fin 128, ef (ix2 r j) = Ef (ix2 e j)) (hwe : ∀ a b : Fin 128, we (ix2 a b) = We (ix2 a b))
    (hmh : ∀ (a : Fin 128) (b : Fin 8), mh (ix2 a b) = Mh (ix2 a b))
    (hmt : ∀ (a : Fin 8) (b : Fin 128), mt (ix2 a b) = Mt (ix2 a b)) (j : Fin 128) :
    k1_pay3 ef we k q v mh mt (ix2 r j) = launchContrib Ks Qd Vs Ef We Mh Mt (ix2 e j) := by
  rw [payContrib_apply, hv j]
  show _ = Vs (ix2 e j) * ∑ h : Fin 8, launchHead Ks Qd Ef We Mh (ix2 e h) * Mt (ix2 h j)
  refine congrArg (fun z => Vs (ix2 e j) * z) (Finset.sum_congr rfl fun h _ => ?_)
  rw [payHead_row r e hk hq hef hwe hmh h, hmt h j]

/-- The three, at an index `j` of the block whose edge is edge `e` of the arrays. -/
theorem payScore_at (j : S8000x128.Idx) (e : Fin 400000)
    (hk : ∀ jj : Fin 128, k (ix2 (j 0) jj) = Ks (ix2 e jj)) (hq : ∀ jj : Fin 128, q (ix2 (j 0) jj) = Qd (ix2 e jj))
    (hef : ∀ jj : Fin 128, ef (ix2 (j 0) jj) = Ef (ix2 e jj)) (hwe : ∀ a b : Fin 128, we (ix2 a b) = We (ix2 a b)) :
    k1_pay1 ef we k q j = launchScore Ks Qd Ef We (ix2 e (j 1)) := by
  obtain ⟨p, c, rfl⟩ : ∃ (p : Fin 8000) (c : Fin 128), j = ix2 p c := ⟨j 0, j 1, eq_ix2 j⟩
  have hk' : ∀ jj : Fin 128, k (ix2 p jj) = Ks (ix2 e jj) := hk
  have hq' : ∀ jj : Fin 128, q (ix2 p jj) = Qd (ix2 e jj) := hq
  have hef' : ∀ jj : Fin 128, ef (ix2 p jj) = Ef (ix2 e jj) := hef
  exact payScore_row p e hk' hq' hef' hwe c

theorem payHead_at (j : S8000x8.Idx) (e : Fin 400000)
    (hk : ∀ jj : Fin 128, k (ix2 (j 0) jj) = Ks (ix2 e jj)) (hq : ∀ jj : Fin 128, q (ix2 (j 0) jj) = Qd (ix2 e jj))
    (hef : ∀ jj : Fin 128, ef (ix2 (j 0) jj) = Ef (ix2 e jj)) (hwe : ∀ a b : Fin 128, we (ix2 a b) = We (ix2 a b))
    (hmh : ∀ (a : Fin 128) (b : Fin 8), mh (ix2 a b) = Mh (ix2 a b)) :
    k1_pay2 ef we k q mh j = launchHead Ks Qd Ef We Mh (ix2 e (j 1)) := by
  obtain ⟨p, c, rfl⟩ : ∃ (p : Fin 8000) (c : Fin 8), j = ix2 p c := ⟨j 0, j 1, eq_ix2 j⟩
  have hk' : ∀ jj : Fin 128, k (ix2 p jj) = Ks (ix2 e jj) := hk
  have hq' : ∀ jj : Fin 128, q (ix2 p jj) = Qd (ix2 e jj) := hq
  have hef' : ∀ jj : Fin 128, ef (ix2 p jj) = Ef (ix2 e jj) := hef
  exact payHead_row p e hk' hq' hef' hwe hmh c

theorem payContrib_at (j : S8000x128.Idx) (e : Fin 400000)
    (hk : ∀ jj : Fin 128, k (ix2 (j 0) jj) = Ks (ix2 e jj)) (hq : ∀ jj : Fin 128, q (ix2 (j 0) jj) = Qd (ix2 e jj))
    (hv : ∀ jj : Fin 128, v (ix2 (j 0) jj) = Vs (ix2 e jj))
    (hef : ∀ jj : Fin 128, ef (ix2 (j 0) jj) = Ef (ix2 e jj)) (hwe : ∀ a b : Fin 128, we (ix2 a b) = We (ix2 a b))
    (hmh : ∀ (a : Fin 128) (b : Fin 8), mh (ix2 a b) = Mh (ix2 a b))
    (hmt : ∀ (a : Fin 8) (b : Fin 128), mt (ix2 a b) = Mt (ix2 a b)) :
    k1_pay3 ef we k q v mh mt j = launchContrib Ks Qd Vs Ef We Mh Mt (ix2 e (j 1)) := by
  obtain ⟨p, c, rfl⟩ : ∃ (p : Fin 8000) (c : Fin 128), j = ix2 p c := ⟨j 0, j 1, eq_ix2 j⟩
  have hk' : ∀ jj : Fin 128, k (ix2 p jj) = Ks (ix2 e jj) := hk
  have hq' : ∀ jj : Fin 128, q (ix2 p jj) = Qd (ix2 e jj) := hq
  have hv' : ∀ jj : Fin 128, v (ix2 p jj) = Vs (ix2 e jj) := hv
  have hef' : ∀ jj : Fin 128, ef (ix2 p jj) = Ef (ix2 e jj) := hef
  exact payContrib_row p e hk' hq' hv' hef' hwe hmh hmt c

end Agree

/-! ## The launch's grid -/

/-- The printed index maps of the edge launch over its grid: the four edge inputs and the three outputs move one block
    of 8000 edges per grid point, -/
theorem indexE_rows : ∀ t : Fin cfg1.N, win1_0.index t (0 : Fin 2) = t.val ∧ win1_1.index t (0 : Fin 2) = t.val
    ∧ win1_2.index t (0 : Fin 2) = t.val ∧ win1_3.index t (0 : Fin 2) = t.val ∧ win1_7.index t (0 : Fin 2) = t.val
    ∧ win1_8.index t (0 : Fin 2) = t.val ∧ win1_9.index t (0 : Fin 2) = t.val :=
  (by decide +kernel : ∀ t : Fin grid1.N, _)

/-- and nothing else moves: their columns, and the edge projection and the two markers whole. -/
theorem indexE_zero : ∀ t : Fin cfg1.N, win1_0.index t (1 : Fin 2) = 0 ∧ win1_1.index t (1 : Fin 2) = 0
    ∧ win1_2.index t (1 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_8.index t (1 : Fin 2) = 0 ∧ win1_9.index t (1 : Fin 2) = 0 :=
  (by decide +kernel : ∀ t : Fin grid1.N, _)

/-- Edge `r` of grid point `t`'s block is edge `8000 t + r` of the arrays. -/
def edgeAt (t : Fin cfg1.N) (r : Fin 8000) : Fin 400000 :=
  ⟨8000 * t.val + r.val, by
    have ht : t.val < 50 := lt_of_lt_of_eq t.isLt (show cfg1.N = 50 from N_1)
    have hr : r.val < 8000 := r.isLt
    omega⟩

variable (V : (c : Dev nD) → (b : Ref sig .tc) → Buf (Elt Ideal) ((c : Thread nD τ).loc b))

/-! ## The input blocks are rows of the arrays -/

/-- Row `r` of the key block at point `t` is row `8000 t + r` of the gathered keys. -/
theorem rowKeys (c : Dev nD) (t : Fin cfg1.N) (r : Fin 8000) (jj : Fin 128) :
    (blockE V c 0 t : Vec Ideal S8000x128 .f32) (ix2 r jj) = V c main_v11 (ix2 (edgeAt t r) jj) := by
  obtain ⟨e0, e1, e2, e3, e7, e8, e9⟩ := indexE_rows t
  obtain ⟨z0, z1, z2, z3, z40, z41, z50, z51, z60, z61, z7, z8, z9⟩ := indexE_zero t
  show V c main_v11 (((cfg1.win 0).blk t).view.emb (ix2 r jj)) = _
  refine congrArg _ (funext fun a => Fin.ext ?_)
  match a with
  | ⟨0, _⟩ => show win1_0.index t (0 : Fin 2) * 8000 + 1 * r.val = 8000 * t.val + r.val; omega
  | ⟨1, _⟩ => show win1_0.index t (1 : Fin 2) * 128 + 1 * jj.val = jj.val; omega

/-- Row `r` of the query block is row `8000 t + r` of the gathered queries. -/
theorem rowQueries (c : Dev nD) (t : Fin cfg1.N) (r : Fin 8000) (jj : Fin 128) :
    (blockE V c 1 t : Vec Ideal S8000x128 .f32) (ix2 r jj) = V c main_v18 (ix2 (edgeAt t r) jj) := by
  obtain ⟨e0, e1, e2, e3, e7, e8, e9⟩ := indexE_rows t
  obtain ⟨z0, z1, z2, z3, z40, z41, z50, z51, z60, z61, z7, z8, z9⟩ := indexE_zero t
  show V c main_v18 (((cfg1.win 1).blk t).view.emb (ix2 r jj)) = _
  refine congrArg _ (funext fun a => Fin.ext ?_)
  match a with
  | ⟨0, _⟩ => show win1_1.index t (0 : Fin 2) * 8000 + 1 * r.val = 8000 * t.val + r.val; omega
  | ⟨1, _⟩ => show win1_1.index t (1 : Fin 2) * 128 + 1 * jj.val = jj.val; omega

/-- Row `r` of the value block is row `8000 t + r` of the gathered values. -/
theorem rowValues (c : Dev nD) (t : Fin cfg1.N) (r : Fin 8000) (jj : Fin 128) :
    (blockE V c 2 t : Vec Ideal S8000x128 .f32) (ix2 r jj) = V c main_v25 (ix2 (edgeAt t r) jj) := by
  obtain ⟨e0, e1, e2, e3, e7, e8, e9⟩ := indexE_rows t
  obtain ⟨z0, z1, z2, z3, z40, z41, z50, z51, z60, z61, z7, z8, z9⟩ := indexE_zero t
  show V c main_v25 (((cfg1.win 2).blk t).view.emb (ix2 r jj)) = _
  refine congrArg _ (funext fun a => Fin.ext ?_)
  match a with
  | ⟨0, _⟩ => show win1_2.index t (0 : Fin 2) * 8000 + 1 * r.val = 8000 * t.val + r.val; omega
  | ⟨1, _⟩ => show win1_2.index t (1 : Fin 2) * 128 + 1 * jj.val = jj.val; omega

/-- Row `r` of the edge-feature block is row `8000 t + r` of the edge features. -/
theorem rowFeatures (c : Dev nD) (t : Fin cfg1.N) (r : Fin 8000) (jj : Fin 128) :
    (blockE V c 3 t : Vec Ideal S8000x128 .f32) (ix2 r jj) = V c main_arg1 (ix2 (edgeAt t r) jj) := by
  obtain ⟨e0, e1, e2, e3, e7, e8, e9⟩ := indexE_rows t
  obtain ⟨z0, z1, z2, z3, z40, z41, z50, z51, z60, z61, z7, z8, z9⟩ := indexE_zero t
  show V c main_arg1 (((cfg1.win 3).blk t).view.emb (ix2 r jj)) = _
  refine congrArg _ (funext fun a => Fin.ext ?_)
  match a with
  | ⟨0, _⟩ => show win1_3.index t (0 : Fin 2) * 8000 + 1 * r.val = 8000 * t.val + r.val; omega
  | ⟨1, _⟩ => show win1_3.index t (1 : Fin 2) * 128 + 1 * jj.val = jj.val; omega

/-- The edge-projection block is the whole edge projection at every point. -/
theorem wholeProj (c : Dev nD) (t : Fin cfg1.N) (a : Fin 128) (b : Fin 128) :
    (blockE V c 4 t : Vec Ideal S128x128 .f32) (ix2 a b) = V c main_arg5 (ix2 a b) := by
  obtain ⟨z0, z1, z2, z3, z40, z41, z50, z51, z60, z61, z7, z8, z9⟩ := indexE_zero t
  show V c main_arg5 (((cfg1.win 4).blk t).view.emb (ix2 a b)) = _
  refine congrArg _ (funext fun x => Fin.ext ?_)
  match x with
  | ⟨0, _⟩ => show win1_4.index t (0 : Fin 2) * 128 + 1 * a.val = a.val; omega
  | ⟨1, _⟩ => show win1_4.index t (1 : Fin 2) * 128 + 1 * b.val = b.val; omega

/-- The head-marker block is the whole marker at every point. -/
theorem wholeMarker (c : Dev nD) (t : Fin cfg1.N) (a : Fin 128) (b : Fin 8) :
    (blockE V c 5 t : Vec Ideal S128x8 .f32) (ix2 a b) = V c main_cst (ix2 a b) := by
  obtain ⟨z0, z1, z2, z3, z40, z41, z50, z51, z60, z61, z7, z8, z9⟩ := indexE_zero t
  show V c main_cst (((cfg1.win 5).blk t).view.emb (ix2 a b)) = _
  refine congrArg _ (funext fun x => Fin.ext ?_)
  match x with
  | ⟨0, _⟩ => show win1_5.index t (0 : Fin 2) * 128 + 1 * a.val = a.val; omega
  | ⟨1, _⟩ => show win1_5.index t (1 : Fin 2) * 8 + 1 * b.val = b.val; omega

/-- The transposed-marker block is the whole transposed marker at every point. -/
theorem wholeMarkerT (c : Dev nD) (t : Fin cfg1.N) (a : Fin 8) (b : Fin 128) :
    (blockE V c 6 t : Vec Ideal S8x128 .f32) (ix2 a b) = V c main_cst_0 (ix2 a b) := by
  obtain ⟨z0, z1, z2, z3, z40, z41, z50, z51, z60, z61, z7, z8, z9⟩ := indexE_zero t
  show V c main_cst_0 (((cfg1.win 6).blk t).view.emb (ix2 a b)) = _
  refine congrArg _ (funext fun x => Fin.ext ?_)
  match x with
  | ⟨0, _⟩ => show win1_6.index t (0 : Fin 2) * 8 + 1 * a.val = a.val; omega
  | ⟨1, _⟩ => show win1_6.index t (1 : Fin 2) * 128 + 1 * b.val = b.val; omega

/-! ## What a grid point writes back -/

/-- Grid point `t` writes back edges `8000 t …` of the scores of the arrays the launch finds. -/
theorem flushedScore_eq (c : Dev nD) (t : Fin cfg1.N) :
    (datE V c).flushed 7 t = ((cfg1.win 7).blk t).view.read (Elt Ideal)
      (launchScore (V c main_v11) (V c main_v18) (V c main_arg1) (V c main_arg5)) := by
  show (cfg1.win 7).cut (grid1.coords t) ((datE V c).after 7 t) = _
  rw [afterE_7]
  unfold outScore
  rw [View.canon_unit_zero zero2E]
  simp only [View.ld_unit_zero (S := S8000x128) zero2E, View.ld_unit_zero (S := S128x128) zero2E]
  funext j
  show k1_pay1 (blockE V c 3 t) (blockE V c 4 t) (blockE V c 0 t) (blockE V c 1 t) j
    = launchScore (V c main_v11) (V c main_v18) (V c main_arg1) (V c main_arg5) (((cfg1.win 7).blk t).view.emb j)
  refine (payScore_at (k := blockE V c 0 t) (q := blockE V c 1 t) (ef := blockE V c 3 t) (we := blockE V c 4 t)
    (Ks := V c main_v11) (Qd := V c main_v18) (Ef := V c main_arg1) (We := V c main_arg5) j (edgeAt t (j 0))
    (rowKeys V c t (j 0)) (rowQueries V c t (j 0)) (rowFeatures V c t (j 0)) (wholeProj V c t)).trans ?_
  refine congrArg _ (funext fun a => Fin.ext ?_)
  obtain ⟨e0, e1, e2, e3, e7, e8, e9⟩ := indexE_rows t
  obtain ⟨z0, z1, z2, z3, z40, z41, z50, z51, z60, z61, z7, z8, z9⟩ := indexE_zero t
  match a with
  | ⟨0, _⟩ => show 8000 * t.val + (j 0).val = win1_7.index t (0 : Fin 2) * 8000 + 1 * (j 0).val; omega
  | ⟨1, _⟩ => show (j 1).val = win1_7.index t (1 : Fin 2) * 128 + 1 * (j 1).val; omega

/-- Grid point `t` writes back edges `8000 t …` of the per-head weights. -/
theorem flushedHead_eq (c : Dev nD) (t : Fin cfg1.N) :
    (datE V c).flushed 9 t = ((cfg1.win 9).blk t).view.read (Elt Ideal)
      (launchHead (V c main_v11) (V c main_v18) (V c main_arg1) (V c main_arg5) (V c main_cst)) := by
  show (cfg1.win 9).cut (grid1.coords t) ((datE V c).after 9 t) = _
  rw [afterE_9]
  unfold outHead
  rw [View.canon_unit_zero zero2E]
  simp only [View.ld_unit_zero (S := S8000x128) zero2E, View.ld_unit_zero (S := S128x128) zero2E,
    View.ld_unit_zero (S := S128x8) zero2E]
  funext j
  show k1_pay2 (blockE V c 3 t) (blockE V c 4 t) (blockE V c 0 t) (blockE V c 1 t) (blockE V c 5 t) j
    = launchHead (V c main_v11) (V c main_v18) (V c main_arg1) (V c main_arg5) (V c main_cst)
        (((cfg1.win 9).blk t).view.emb j)
  refine (payHead_at (k := blockE V c 0 t) (q := blockE V c 1 t) (ef := blockE V c 3 t) (we := blockE V c 4 t)
    (mh := blockE V c 5 t) (Ks := V c main_v11) (Qd := V c main_v18) (Ef := V c main_arg1) (We := V c main_arg5)
    (Mh := V c main_cst) j (edgeAt t (j 0))
    (rowKeys V c t (j 0)) (rowQueries V c t (j 0)) (rowFeatures V c t (j 0)) (wholeProj V c t)
    (wholeMarker V c t)).trans ?_
  refine congrArg _ (funext fun a => Fin.ext ?_)
  obtain ⟨e0, e1, e2, e3, e7, e8, e9⟩ := indexE_rows t
  obtain ⟨z0, z1, z2, z3, z40, z41, z50, z51, z60, z61, z7, z8, z9⟩ := indexE_zero t
  match a with
  | ⟨0, _⟩ => show 8000 * t.val + (j 0).val = win1_9.index t (0 : Fin 2) * 8000 + 1 * (j 0).val; omega
  | ⟨1, _⟩ => show (j 1).val = win1_9.index t (1 : Fin 2) * 8 + 1 * (j 1).val; omega

/-- Grid point `t` writes back edges `8000 t …` of the weighted values. -/
theorem flushedContrib_eq (c : Dev nD) (t : Fin cfg1.N) :
    (datE V c).flushed 8 t = ((cfg1.win 8).blk t).view.read (Elt Ideal)
      (launchContrib (V c main_v11) (V c main_v18) (V c main_v25) (V c main_arg1) (V c main_arg5) (V c main_cst)
        (V c main_cst_0)) := by
  show (cfg1.win 8).cut (grid1.coords t) ((datE V c).after 8 t) = _
  rw [afterE_8]
  unfold outContrib
  rw [View.canon_unit_zero zero2E]
  simp only [View.ld_unit_zero (S := S8000x128) zero2E, View.ld_unit_zero (S := S128x128) zero2E,
    View.ld_unit_zero (S := S128x8) zero2E, View.ld_unit_zero (S := S8x128) zero2E]
  funext j
  show k1_pay3 (blockE V c 3 t) (blockE V c 4 t) (blockE V c 0 t) (blockE V c 1 t) (blockE V c 2 t) (blockE V c 5 t)
      (blockE V c 6 t) j
    = launchContrib (V c main_v11) (V c main_v18) (V c main_v25) (V c main_arg1) (V c main_arg5) (V c main_cst)
        (V c main_cst_0) (((cfg1.win 8).blk t).view.emb j)
  refine (payContrib_at (k := blockE V c 0 t) (q := blockE V c 1 t) (v := blockE V c 2 t) (ef := blockE V c 3 t)
    (we := blockE V c 4 t) (mh := blockE V c 5 t) (mt := blockE V c 6 t) (Ks := V c main_v11) (Qd := V c main_v18)
    (Vs := V c main_v25) (Ef := V c main_arg1) (We := V c main_arg5) (Mh := V c main_cst) (Mt := V c main_cst_0)
    j (edgeAt t (j 0))
    (rowKeys V c t (j 0)) (rowQueries V c t (j 0)) (rowValues V c t (j 0)) (rowFeatures V c t (j 0))
    (wholeProj V c t) (wholeMarker V c t) (wholeMarkerT V c t)).trans ?_
  refine congrArg _ (funext fun a => Fin.ext ?_)
  obtain ⟨e0, e1, e2, e3, e7, e8, e9⟩ := indexE_rows t
  obtain ⟨z0, z1, z2, z3, z40, z41, z50, z51, z60, z61, z7, z8, z9⟩ := indexE_zero t
  match a with
  | ⟨0, _⟩ => show 8000 * t.val + (j 0).val = win1_8.index t (0 : Fin 2) * 8000 + 1 * (j 0).val; omega
  | ⟨1, _⟩ => show (j 1).val = win1_8.index t (1 : Fin 2) * 128 + 1 * (j 1).val; omega

/-! ## The fifty blocks tile the edges -/

/-- An index of an output array lies in grid point `t`'s block when each coordinate lies in the block's range. -/
theorem mem_blockScore (t : Fin cfg1.N) (i : S400000x128.Idx) :
    i ∈ ((cfg1.win 7).blk t).view.set ↔ ∀ a : Fin 2, win1_7.index t a * S8000x128.size a ≤ (i a).val
      ∧ (i a).val < win1_7.index t a * S8000x128.size a + S8000x128.size a := by
  show i ∈ ((View.whole main_v26_0).slice (win1_7.rect t)).set ↔ _
  rw [View.set_slice_whole, Rect.mem_set_unit]
  exact Iff.rfl

theorem mem_blockContrib (t : Fin cfg1.N) (i : S400000x128.Idx) :
    i ∈ ((cfg1.win 8).blk t).view.set ↔ ∀ a : Fin 2, win1_8.index t a * S8000x128.size a ≤ (i a).val
      ∧ (i a).val < win1_8.index t a * S8000x128.size a + S8000x128.size a := by
  show i ∈ ((View.whole main_v26_1).slice (win1_8.rect t)).set ↔ _
  rw [View.set_slice_whole, Rect.mem_set_unit]
  exact Iff.rfl

theorem mem_blockHead (t : Fin cfg1.N) (i : S400000x8.Idx) :
    i ∈ ((cfg1.win 9).blk t).view.set ↔ ∀ a : Fin 2, win1_9.index t a * S8000x8.size a ≤ (i a).val
      ∧ (i a).val < win1_9.index t a * S8000x8.size a + S8000x8.size a := by
  show i ∈ ((View.whole main_v26_2).slice (win1_9.rect t)).set ↔ _
  rw [View.set_slice_whole, Rect.mem_set_unit]
  exact Iff.rfl

/-- Edge `e` of the scores is written by grid point `e / 8000`. -/
theorem coverScore (i : S400000x128.Idx) :
    ∃ t : Fin cfg1.N, (cfg1.win 7).flush t = true ∧ i ∈ ((cfg1.win 7).blk t).view.set := by
  have hi0 : (i 0).val < 400000 := (i 0).isLt
  have hi1 : (i 1).val < 128 := (i 1).isLt
  have hN : (i 0).val / 8000 < cfg1.N := by rw [show cfg1.N = 50 from N_1]; omega
  obtain ⟨e0, e1, e2, e3, e7, e8, e9⟩ := indexE_rows ⟨(i 0).val / 8000, hN⟩
  obtain ⟨z0, z1, z2, z3, z40, z41, z50, z51, z60, z61, z7, z8, z9⟩ := indexE_zero ⟨(i 0).val / 8000, hN⟩
  refine ⟨⟨(i 0).val / 8000, hN⟩, flush1_7 _, ?_⟩
  rw [mem_blockScore]
  intro a
  match a with
  | ⟨0, _⟩ =>
    show win1_7.index ⟨(i 0).val / 8000, hN⟩ (0 : Fin 2) * 8000 ≤ (i 0).val
      ∧ (i 0).val < win1_7.index ⟨(i 0).val / 8000, hN⟩ (0 : Fin 2) * 8000 + 8000
    rw [e7]; show (i 0).val / 8000 * 8000 ≤ (i 0).val ∧ (i 0).val < (i 0).val / 8000 * 8000 + 8000; omega
  | ⟨1, _⟩ =>
    show win1_7.index ⟨(i 0).val / 8000, hN⟩ (1 : Fin 2) * 128 ≤ (i 1).val
      ∧ (i 1).val < win1_7.index ⟨(i 0).val / 8000, hN⟩ (1 : Fin 2) * 128 + 128
    rw [z7]; omega

/-- Edge `e` of the weighted values is written by grid point `e / 8000`. -/
theorem coverContrib (i : S400000x128.Idx) :
    ∃ t : Fin cfg1.N, (cfg1.win 8).flush t = true ∧ i ∈ ((cfg1.win 8).blk t).view.set := by
  have hi0 : (i 0).val < 400000 := (i 0).isLt
  have hi1 : (i 1).val < 128 := (i 1).isLt
  have hN : (i 0).val / 8000 < cfg1.N := by rw [show cfg1.N = 50 from N_1]; omega
  obtain ⟨e0, e1, e2, e3, e7, e8, e9⟩ := indexE_rows ⟨(i 0).val / 8000, hN⟩
  obtain ⟨z0, z1, z2, z3, z40, z41, z50, z51, z60, z61, z7, z8, z9⟩ := indexE_zero ⟨(i 0).val / 8000, hN⟩
  refine ⟨⟨(i 0).val / 8000, hN⟩, flush1_8 _, ?_⟩
  rw [mem_blockContrib]
  intro a
  match a with
  | ⟨0, _⟩ =>
    show win1_8.index ⟨(i 0).val / 8000, hN⟩ (0 : Fin 2) * 8000 ≤ (i 0).val
      ∧ (i 0).val < win1_8.index ⟨(i 0).val / 8000, hN⟩ (0 : Fin 2) * 8000 + 8000
    rw [e8]; show (i 0).val / 8000 * 8000 ≤ (i 0).val ∧ (i 0).val < (i 0).val / 8000 * 8000 + 8000; omega
  | ⟨1, _⟩ =>
    show win1_8.index ⟨(i 0).val / 8000, hN⟩ (1 : Fin 2) * 128 ≤ (i 1).val
      ∧ (i 1).val < win1_8.index ⟨(i 0).val / 8000, hN⟩ (1 : Fin 2) * 128 + 128
    rw [z8]; omega

/-- Edge `e` of the per-head weights is written by grid point `e / 8000`. -/
theorem coverHead (i : S400000x8.Idx) :
    ∃ t : Fin cfg1.N, (cfg1.win 9).flush t = true ∧ i ∈ ((cfg1.win 9).blk t).view.set := by
  have hi0 : (i 0).val < 400000 := (i 0).isLt
  have hi1 : (i 1).val < 8 := (i 1).isLt
  have hN : (i 0).val / 8000 < cfg1.N := by rw [show cfg1.N = 50 from N_1]; omega
  obtain ⟨e0, e1, e2, e3, e7, e8, e9⟩ := indexE_rows ⟨(i 0).val / 8000, hN⟩
  obtain ⟨z0, z1, z2, z3, z40, z41, z50, z51, z60, z61, z7, z8, z9⟩ := indexE_zero ⟨(i 0).val / 8000, hN⟩
  refine ⟨⟨(i 0).val / 8000, hN⟩, flush1_9 _, ?_⟩
  rw [mem_blockHead]
  intro a
  match a with
  | ⟨0, _⟩ =>
    show win1_9.index ⟨(i 0).val / 8000, hN⟩ (0 : Fin 2) * 8000 ≤ (i 0).val
      ∧ (i 0).val < win1_9.index ⟨(i 0).val / 8000, hN⟩ (0 : Fin 2) * 8000 + 8000
    rw [e9]; show (i 0).val / 8000 * 8000 ≤ (i 0).val ∧ (i 0).val < (i 0).val / 8000 * 8000 + 8000; omega
  | ⟨1, _⟩ =>
    show win1_9.index ⟨(i 0).val / 8000, hN⟩ (1 : Fin 2) * 8 ≤ (i 1).val
      ∧ (i 1).val < win1_9.index ⟨(i 0).val / 8000, hN⟩ (1 : Fin 2) * 8 + 8
    rw [z9]; omega

/-! ## What the launch leaves -/

/-- After its fifty grid points the edge launch leaves the gated scores of the arrays it found in its first output. -/
theorem finalScore (c : Dev nD) :
    (datE V c).arrAt 7 cfg1.N = launchScore (V c main_v11) (V c main_v18) (V c main_arg1) (V c main_arg5) :=
  (datE V c).arrAt_eq_of_cover 7 _ (fun t _ => flushedScore_eq V c t) coverScore

/-- It leaves the per-head weights in its third output. -/
theorem finalHead (c : Dev nD) :
    (datE V c).arrAt 9 cfg1.N
      = launchHead (V c main_v11) (V c main_v18) (V c main_arg1) (V c main_arg5) (V c main_cst) :=
  (datE V c).arrAt_eq_of_cover 9 _ (fun t _ => flushedHead_eq V c t) coverHead

/-- It leaves the weighted values in its second output. -/
theorem finalContrib (c : Dev nD) :
    (datE V c).arrAt 8 cfg1.N
      = launchContrib (V c main_v11) (V c main_v18) (V c main_v25) (V c main_arg1) (V c main_arg5) (V c main_cst)
          (V c main_cst_0) :=
  (datE V c).arrAt_eq_of_cover 8 _ (fun t _ => flushedContrib_eq V c t) coverContrib

end Cert.KernelIdeal.HandValue

end
-- ==== Proof.EdgeBridge.lean ====
/-
  One launch over gathered rows computes the layer's scores, weights and weighted values, once the gathered rows are the
  projections of the edges' end nodes and the two marker matrices mark the lanes of each head.
-/
import proofs.«172924_j14508399526689_2_alg».proof.Proof.EdgeLaws

noncomputable section

open scoped BigOperators

namespace Cert.EdgeAttn

open Idealize.ShloMosaic Idealize.ShloMosaic.ValueIdx

section

variable (X : (⟨2, ![50000, 128]⟩ : Shape).Idx → EReal) (Ef : (⟨2, ![400000, 128]⟩ : Shape).Idx → EReal)
  (Wq Wk Wv We : (⟨2, ![128, 128]⟩ : Shape).Idx → EReal) (src dst : Fin 400000 → Fin 50000)
  (Ks Qd Vs : (⟨2, ![400000, 128]⟩ : Shape).Idx → EReal)
  (Mh : (⟨2, ![128, 8]⟩ : Shape).Idx → EReal) (Mt : (⟨2, ![8, 128]⟩ : Shape).Idx → EReal)
  (hK : ∀ (e : Fin 400000) (j : Fin 128), Ks (ix2 e j) = nodeProj X Wk (src e) j)
  (hQ : ∀ (e : Fin 400000) (j : Fin 128), Qd (ix2 e j) = nodeProj X Wq (dst e) j)
  (hV : ∀ (e : Fin 400000) (j : Fin 128), Vs (ix2 e j) = nodeProj X Wv (src e) j)
  (hMh : ∀ (j : Fin 128) (h : Fin 8), Mh (ix2 j h) = if j.val / 16 = h.val then 1 else 0)
  (hMt : ∀ (h : Fin 8) (j : Fin 128), Mt (ix2 h j) = if j.val / 16 = h.val then 1 else 0)

include hK hQ in
/-- The launch's score is the layer's. -/
theorem launchScore_eq (e : Fin 400000) (j : Fin 128) :
    launchScore Ks Qd Ef We (ix2 e j) = score X Ef Wq Wk We src dst e j := by
  unfold launchScore score edgeProj
  rw [hK, hQ]

include hK hQ hMh in
/-- The launch's weight is the layer's: the 128 scores against the head's marker are the head's 16 scores. -/
theorem launchHead_eq (e : Fin 400000) (h : Fin 8) :
    launchHead Ks Qd Ef We Mh (ix2 e h) = weight X Ef Wq Wk We src dst e h := by
  unfold launchHead weight
  have hs : ∀ j : Fin 128, launchScore Ks Qd Ef We (ix2 ((ix2 e h : (⟨2, ![400000, 8]⟩ : Shape).Idx) 0) j)
      = score X Ef Wq Wk We src dst e j := fun j => launchScore_eq X Ef Wq Wk We src dst Ks Qd hK hQ e j
  rw [Finset.sum_congr rfl fun j _ => by rw [hs j]]
  rw [sum_mul_marker (fun j => score X Ef Wq Wk We src dst e j) (fun j => Mh (ix2 j ((ix2 e h : (⟨2, ![400000, 8]⟩ : Shape).Idx) 1))) h
    (fun j => hMh j h)]

include hK hQ hV hMh hMt in
/-- The launch's weighted value at lane `l` of head `h` is the source's value times the head's weight. -/
theorem launchContrib_eq (e : Fin 400000) (h : Fin 8) (l : Fin 16) :
    launchContrib Ks Qd Vs Ef We Mh Mt (ix2 e (lane h l))
      = nodeProj X Wv (src e) (lane h l) * weight X Ef Wq Wk We src dst e h := by
  unfold launchContrib
  rw [hV]
  have hh : ∀ h' : Fin 8, launchHead Ks Qd Ef We Mh (ix2 ((ix2 e (lane h l) : (⟨2, ![400000, 128]⟩ : Shape).Idx) 0) h')
      = weight X Ef Wq Wk We src dst e h' :=
    fun h' => launchHead_eq X Ef Wq Wk We src dst Ks Qd Mh hK hQ hMh e h'
  rw [Finset.sum_congr rfl fun h' _ => by rw [hh h']]
  rw [sum_mul_marker_t (fun h' => weight X Ef Wq Wk We src dst e h')
    (fun h' => Mt (ix2 h' ((ix2 e (lane h l) : (⟨2, ![400000, 128]⟩ : Shape).Idx) 1))) (lane h l) (fun h' => hMt h' (lane h l)),
    headOf_lane]

end

end Cert.EdgeAttn

end
-- ==== Proof.IdealNodes.lean ====
/-
  The program's node output buffer, read at node `n`, head `h`, lane `l`, is the layer's node output.

  The last host lines sum the edge launch's weighted values into their destination nodes (a segment sum over the edges
  that arrive at `n`, feature by feature), lay the 128 features out as 8 heads of 16 lanes, sum the per-head weights
  into the same nodes, add a small constant, spread that denominator over the 16 lanes, and divide. The launch's
  weighted value at edge `e`, feature `16 h + l`, is the source node's value projection times the weight of `e` for
  head `h`, and its per-head weight is that weight; the destination indices are those the program was started with. So
  the quotient is the layer's: the weighted sum of the arriving edges' source values over the sum of their weights plus
  the constant.
-/
import proofs.«172924_j14508399526689_2_alg».proof.Proof.IdealGathered
import proofs.«172924_j14508399526689_2_alg».proof.Proof.IdealValueE
import proofs.«172924_j14508399526689_2_alg».proof.Proof.EdgeBridge
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.EdgeAttn
open scoped BigOperators

/-! ## The layouts, read at an index -/

/-- The 128 features seen as 8 heads of 16 lanes: head `h`, lane `l` of node `n` is feature `16 h + l`. -/
theorem byHead_apply (x : S50000x128.Idx → EReal) (n : Fin 50000) (h : Fin 8) (l : Fin 16) :
    shapeCast S50000x8x16 x shapeCasts_S50000x128_S50000x8x16 (ix3 n h l) = x (ix2 n (lane h l)) :=
  shapeCast_apply x shapeCasts_S50000x128_S50000x8x16 (ix3 n h l) (ix2 n (lane h l)) (by
    rewrite [Shape.rowMajor_val_two, Shape.rowMajor_val_three]
    have hn : n.val < 50000 := n.isLt
    have hh : h.val < 8 := h.isLt
    have hl : l.val < 16 := l.isLt
    show n.val * 128 + (16 * h.val + l.val) = (n.val * 8 + h.val) * 16 + l.val
    omega)

/-- The per-head sums with a unit lane axis added: nothing moves. -/
theorem headCol_apply (x : S50000x8.Idx → EReal) (n : Fin 50000) (h : Fin 8) :
    shapeCast S50000x8x1 x shapeCasts_S50000x8_S50000x8x1 (ix3 n h 0) = x (ix2 n h) :=
  shapeCast_apply x shapeCasts_S50000x8_S50000x8x1 (ix3 n h 0) (ix2 n h) (by
    rewrite [Shape.rowMajor_val_two, Shape.rowMajor_val_three]
    show n.val * 8 + h.val = (n.val * 8 + h.val) * 1 + 0
    omega)

/-- Spreading over the 16 lanes reads the unit lane. -/
theorem overLanes_apply (x : S50000x8x1.Idx → EReal) (n : Fin 50000) (h : Fin 8) (l : Fin 16) :
    broadcastInDim S50000x8x16 ![0, 1, 2] bcast_S50000x8x1_S50000x8x16_0_1_2 x (ix3 n h l) = x (ix3 n h 0) :=
  broadcastInDim_apply _ bcast_S50000x8x1_S50000x8x16_0_1_2 x (ix3 n h l) (ix3 n h 0) (fun a => match a with
    | ⟨0, _⟩ => by show n.val = if (50000 : Nat) = 1 then 0 else n.val; rw [if_neg (by decide)]
    | ⟨1, _⟩ => by show h.val = if (8 : Nat) = 1 then 0 else h.val; rw [if_neg (by decide)]
    | ⟨2, _⟩ => by show 0 = if (1 : Nat) = 1 then 0 else l.val; rw [if_pos rfl])

/-- An array filled with one word reads that word everywhere. -/
theorem fill128_apply (b : BitVec 32) (i : S50000x128.Idx) :
    broadcastInDim S50000x128 ![] bcast_S_S50000x128 (constant (F := Ideal) S_ .f32 b) i = Ideal.ofBits .f32 b :=
  broadcastInDim_apply _ bcast_S_S50000x128 (constant (F := Ideal) S_ .f32 b) i ix0 (fun a => a.elim0)
theorem fill8_apply (b : BitVec 32) (i : S50000x8.Idx) :
    broadcastInDim S50000x8 ![] bcast_S_S50000x8 (constant (F := Ideal) S_ .f32 b) i = Ideal.ofBits .f32 b :=
  broadcastInDim_apply _ bcast_S_S50000x8 (constant (F := Ideal) S_ .f32 b) i ix0 (fun a => a.elim0)
theorem fill8x1_apply (b : BitVec 32) (i : S50000x8x1.Idx) :
    broadcastInDim S50000x8x1 ![] bcast_S_S50000x8x1 (constant (F := Ideal) S_ .f32 b) i = Ideal.ofBits .f32 b :=
  broadcastInDim_apply _ bcast_S_S50000x8x1 (constant (F := Ideal) S_ .f32 b) i ix0 (fun a => a.elim0)

/-- The quotient of two arrays at an index is the quotient of their entries. -/
theorem quot_apply (x y : S50000x8x16.Idx → EReal) (i : S50000x8x16.Idx) :
    Host.divf (F := Ideal) (φ := .f32) x y i = Ideal.div (x i) (y i) := rfl

/-! ## The two segment sums -/

/-- The segment sum into the 128 features of the nodes: what was there plus the rows of the edges arriving at `n`. -/
theorem scatterRow_apply (x : S50000x128.Idx → EReal) (I : IVec S400000x1 32) (u : S400000x128.Idx → EReal)
    (n : Fin 50000) (k : Fin 128) :
    Host.scatterAdd (F := Ideal) (φ := .f32) scatter_S50000x128_S400000x1_S400000x128_1_0_0_1 x I u (ix2 n k)
      = x (ix2 n k) + ∑ e ∈ Finset.univ.filter (fun e => arrivesAt I e n), u (ix2 e k) :=
  RowOps.rowScatterAdd_apply scatter_S50000x128_S400000x1_S400000x128_1_0_0_1_wf x I u n k

/-- The segment sum into the 8 heads of the nodes. -/
theorem scatterHead_apply (x : S50000x8.Idx → EReal) (I : IVec S400000x1 32) (u : S400000x8.Idx → EReal)
    (n : Fin 50000) (h : Fin 8) :
    Host.scatterAdd (F := Ideal) (φ := .f32) scatter_S50000x8_S400000x1_S400000x8_1_0_0_1 x I u (ix2 n h)
      = x (ix2 n h) + ∑ e ∈ Finset.univ.filter (fun e => arrivesAt I e n), u (ix2 e h) :=
  RowOps.rowScatterAdd_apply scatter_S50000x8_S400000x1_S400000x8_1_0_0_1_wf x I u n h

variable (m : (ℓ : Loc nD τ sig) → Buf (Elt Ideal) ℓ) (ρ : Dev nD → PrngReg)

/-! ## The buffers the last host lines read -/

/-- No host line and no launch writes the destination indices. -/
theorem W4_dst (c : Dev nD) :
    (W4 m ρ c (Proc.devRef .tc main_arg7) : IVec S400000 32) = m ((c : Thread nD τ).loc main_arg7) :=
  (W4_of_ne m ρ c main_arg7 (by decide)).trans ((W3_kept m ρ c main_arg7 (by decide)).trans
    ((W2_of_ne m ρ c main_arg7 (by decide)).trans (W1_kept m ρ c main_arg7 (by decide))))

/-- The edge launch leaves the weighted values of the rows it was handed, over the edge features and the edge
    projection the program was started with. -/
theorem W4_contrib (c : Dev nD) : (W4 m ρ c (Proc.devRef .tc main_v26_1) : S400000x128.Idx → EReal)
    = launchContrib (V3 m ρ c main_v11) (V3 m ρ c main_v18) (V3 m ρ c main_v25) (m ((c : Thread nD τ).loc main_arg1)) (m ((c : Thread nD τ).loc main_arg5)) (V3 m ρ c main_cst) (V3 m ρ c main_cst_0) := by
  have h := (W4_arr m ρ c 8).trans (finalContrib (V3 m ρ) c)
  rw [V3_edges m ρ c, V3_edgeProj m ρ c] at h
  exact h

/-- It leaves the per-head weights. -/
theorem W4_head (c : Dev nD) : (W4 m ρ c (Proc.devRef .tc main_v26_2) : S400000x8.Idx → EReal)
    = launchHead (V3 m ρ c main_v11) (V3 m ρ c main_v18) (m ((c : Thread nD τ).loc main_arg1)) (m ((c : Thread nD τ).loc main_arg5)) (V3 m ρ c main_cst) := by
  have h := (W4_arr m ρ c 9).trans (finalHead (V3 m ρ) c)
  rw [V3_edges m ρ c, V3_edgeProj m ρ c] at h
  exact h

/-! ## The launch's outputs are the layer's -/

/-- The weighted value of edge `e` at lane `l` of head `h`: the source's value projection times the edge's weight. -/
theorem contrib_layer (c : Dev nD) (e : Fin 400000) (h : Fin 8) (l : Fin 16) :
    launchContrib (V3 m ρ c main_v11) (V3 m ρ c main_v18) (V3 m ρ c main_v25) (m ((c : Thread nD τ).loc main_arg1)) (m ((c : Thread nD τ).loc main_arg5)) (V3 m ρ c main_cst) (V3 m ρ c main_cst_0) (ix2 e (lane h l))
      = nodeProj (m ((c : Thread nD τ).loc main_arg0)) (m ((c : Thread nD τ).loc main_arg4)) ((rowOf (readyIdx (m ((c : Thread nD τ).loc main_arg6)))) e) (lane h l) * weight (m ((c : Thread nD τ).loc main_arg0)) (m ((c : Thread nD τ).loc main_arg1)) (m ((c : Thread nD τ).loc main_arg2)) (m ((c : Thread nD τ).loc main_arg3)) (m ((c : Thread nD τ).loc main_arg5)) (rowOf (readyIdx (m ((c : Thread nD τ).loc main_arg6)))) (rowOf (readyIdx (m ((c : Thread nD τ).loc main_arg7)))) e h :=
  launchContrib_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf (readyIdx (m ((c : Thread nD τ).loc main_arg6)))) (rowOf (readyIdx (m ((c : Thread nD τ).loc main_arg7))))
    (V3 m ρ c main_v11) (V3 m ρ c main_v18) (V3 m ρ c main_v25) (V3 m ρ c main_cst) (V3 m ρ c main_cst_0)
    (keys_apply m ρ c) (queries_apply m ρ c) (values_apply m ρ c) (V3_markerH m ρ c) (V3_markerT m ρ c) e h l

/-- The per-head weight of edge `e` is the layer's weight. -/
theorem head_layer (c : Dev nD) (e : Fin 400000) (h : Fin 8) :
    launchHead (V3 m ρ c main_v11) (V3 m ρ c main_v18) (m ((c : Thread nD τ).loc main_arg1)) (m ((c : Thread nD τ).loc main_arg5)) (V3 m ρ c main_cst) (ix2 e h) = weight (m ((c : Thread nD τ).loc main_arg0)) (m ((c : Thread nD τ).loc main_arg1)) (m ((c : Thread nD τ).loc main_arg2)) (m ((c : Thread nD τ).loc main_arg3)) (m ((c : Thread nD τ).loc main_arg5)) (rowOf (readyIdx (m ((c : Thread nD τ).loc main_arg6)))) (rowOf (readyIdx (m ((c : Thread nD τ).loc main_arg7)))) e h :=
  launchHead_eq (m ((c : Thread nD τ).loc main_arg0)) (m ((c : Thread nD τ).loc main_arg1)) (m ((c : Thread nD τ).loc main_arg2)) (m ((c : Thread nD τ).loc main_arg3)) (m ((c : Thread nD τ).loc main_arg5)) (rowOf (readyIdx (m ((c : Thread nD τ).loc main_arg6)))) (rowOf (readyIdx (m ((c : Thread nD τ).loc main_arg7))))
    (V3 m ρ c main_v11) (V3 m ρ c main_v18) (V3 m ρ c main_cst) (keys_apply m ρ c) (queries_apply m ρ c) (V3_markerH m ρ c) e h

/-! ## The numerator and the denominator -/

/-- The summed weighted values at node `n`, head `h`, lane `l`. -/
theorem numer_apply (c : Dev nD) (n : Fin 50000) (h : Fin 8) (l : Fin 16) :
    shapeCast S50000x8x16
        (Host.scatterAdd (F := Ideal) (φ := .f32) scatter_S50000x128_S400000x1_S400000x128_1_0_0_1
          (broadcastInDim S50000x128 ![] bcast_S_S50000x128 (constant (F := Ideal) S_ .f32 0x00000000#32))
          (colIdx (W4 m ρ c (Proc.devRef .tc main_arg7) : IVec S400000 32))
          (W4 m ρ c (Proc.devRef .tc main_v26_1) : S400000x128.Idx → EReal))
        shapeCasts_S50000x128_S50000x8x16 (ix3 n h l)
      = Ideal.ofBits .f32 0x00000000#32
        + ∑ e ∈ Finset.univ.filter (fun e => arrivesAt (colIdx (m ((c : Thread nD τ).loc main_arg7))) e n),
            nodeProj (m ((c : Thread nD τ).loc main_arg0)) (m ((c : Thread nD τ).loc main_arg4)) ((rowOf (readyIdx (m ((c : Thread nD τ).loc main_arg6)))) e) (lane h l) * weight (m ((c : Thread nD τ).loc main_arg0)) (m ((c : Thread nD τ).loc main_arg1)) (m ((c : Thread nD τ).loc main_arg2)) (m ((c : Thread nD τ).loc main_arg3)) (m ((c : Thread nD τ).loc main_arg5)) (rowOf (readyIdx (m ((c : Thread nD τ).loc main_arg6)))) (rowOf (readyIdx (m ((c : Thread nD τ).loc main_arg7)))) e h := by
  rw [byHead_apply, scatterRow_apply, fill128_apply, W4_dst, W4_contrib]
  exact congrArg (fun z => Ideal.ofBits .f32 0x00000000#32 + z)
    (Finset.sum_congr rfl fun e _ => contrib_layer m ρ c e h l)

/-- The summed weights plus the small constant at node `n`, head `h`, any lane. -/
theorem denom_apply (c : Dev nD) (n : Fin 50000) (h : Fin 8) (l : Fin 16) :
    broadcastInDim S50000x8x16 ![0, 1, 2] bcast_S50000x8x1_S50000x8x16_0_1_2
        (addf
          (shapeCast S50000x8x1
            (Host.scatterAdd (F := Ideal) (φ := .f32) scatter_S50000x8_S400000x1_S400000x8_1_0_0_1
              (broadcastInDim S50000x8 ![] bcast_S_S50000x8 (constant (F := Ideal) S_ .f32 0x00000000#32))
              (colIdx (W4 m ρ c (Proc.devRef .tc main_arg7) : IVec S400000 32))
              (W4 m ρ c (Proc.devRef .tc main_v26_2) : S400000x8.Idx → EReal))
            shapeCasts_S50000x8_S50000x8x1)
          (broadcastInDim S50000x8x1 ![] bcast_S_S50000x8x1 (constant (F := Ideal) S_ .f32 0x358637BD#32)))
        (ix3 n h l)
      = (Ideal.ofBits .f32 0x00000000#32
          + ∑ e ∈ Finset.univ.filter (fun e => arrivesAt (colIdx (m ((c : Thread nD τ).loc main_arg7))) e n), weight (m ((c : Thread nD τ).loc main_arg0)) (m ((c : Thread nD τ).loc main_arg1)) (m ((c : Thread nD τ).loc main_arg2)) (m ((c : Thread nD τ).loc main_arg3)) (m ((c : Thread nD τ).loc main_arg5)) (rowOf (readyIdx (m ((c : Thread nD τ).loc main_arg6)))) (rowOf (readyIdx (m ((c : Thread nD τ).loc main_arg7)))) e h)
        + Ideal.ofBits .f32 0x358637BD#32 := by
  rw [overLanes_apply, addf_apply, headCol_apply, scatterHead_apply, fill8_apply, fill8x1_apply, W4_dst, W4_head]
  exact congrArg (fun z => (Ideal.ofBits .f32 0x00000000#32 + z) + Ideal.ofBits .f32 0x358637BD#32)
    (Finset.sum_congr rfl fun e _ => head_layer m ρ c e h)

/-! ## The node outputs -/

/-- THE PROGRAM'S NODE OUTPUTS are the layer's, over the arrays the program was started with: the sources are the
    rows the source indices name, the destinations the rows the destination indices name, and an edge arrives at the
    node its destination index is. -/
theorem kernel_nodes (c : Dev nD) (n : Fin 50000) (h : Fin 8) (l : Fin 16) :
    (W5 m ρ c (Proc.devRef .tc main_v38) : S50000x8x16.Idx → EReal) (ix3 n h l)
      = nodeOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (rowOf (readyIdx (m ((c : Thread nD τ).loc main_arg6)))) (rowOf (readyIdx (m ((c : Thread nD τ).loc main_arg7))))
          (arrivesAt (colIdx (m ((c : Thread nD τ).loc main_arg7)))) n h l := by
  rw [W5_nodes, quot_apply, numer_apply, denom_apply]
  rfl

end Cert.KernelIdeal.HandValue

end
-- ==== Proof.IdealScores.lean ====
/-
  The kernel program's score buffer at the end is the layer's scores, laid out by head and lane; and the two result
  arrays of the layer as functions of the eight arguments.
-/
import proofs.«172924_j14508399526689_2_alg».proof.Proof.IdealGathered
import proofs.«172924_j14508399526689_2_alg».proof.Proof.IdealValueE
import proofs.«172924_j14508399526689_2_alg».proof.Proof.EdgeBridge

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand Cert.EdgeAttn
open scoped BigOperators

/-- The layer's node outputs as an array over `(node, head, lane)`. -/
def layerNodes (x0 : S50000x128.Idx → EReal) (x1 : S400000x128.Idx → EReal) (x2 x3 x4 x5 : S128x128.Idx → EReal)
    (x6 x7 : IVec S400000 32) : S50000x8x16.Idx → EReal :=
  fun i => nodeOut x0 x1 x2 x3 x4 x5 (rowOf (readyIdx x6)) (rowOf (readyIdx x7)) (arrivesAt (colIdx x7)) (i 0) (i 1) (i 2)

/-- The layer's scores as an array over `(edge, head, lane)`. -/
def layerScores (x0 : S50000x128.Idx → EReal) (x1 : S400000x128.Idx → EReal) (x2 x3 x5 : S128x128.Idx → EReal)
    (x6 x7 : IVec S400000 32) : S400000x8x16.Idx → EReal :=
  fun i => score x0 x1 x2 x3 x5 (rowOf (readyIdx x6)) (rowOf (readyIdx x7)) (i 0) (lane (i 1) (i 2))

variable (m : (ℓ : Loc nD τ sig) → Buf (Elt Ideal) ℓ) (ρ : Dev nD → PrngReg)

/-- The score buffer the program ends with, at `(e, h, l)`. -/
theorem kernel_scores (c : Dev nD) (e : Fin 400000) (h : Fin 8) (l : Fin 16) :
    (W5 m ρ c (Proc.devRef .tc main_v39) : S400000x8x16.Idx → EReal) (ix3 e h l)
      = score (m ((c : Thread nD τ).loc main_arg0)) (m ((c : Thread nD τ).loc main_arg1)) (m ((c : Thread nD τ).loc main_arg2))
          (m ((c : Thread nD τ).loc main_arg3)) (m ((c : Thread nD τ).loc main_arg5))
          (rowOf (readyIdx (m ((c : Thread nD τ).loc main_arg6)))) (rowOf (readyIdx (m ((c : Thread nD τ).loc main_arg7)))) e (lane h l) := by
  have he := e.isLt; have hh := h.isLt; have hl := l.isLt
  rw [W5_scores,
    shapeCast_apply _ shapeCasts_S400000x128_S400000x8x16 (ix3 e h l) (ix2 e (lane h l))
      (by rw [Shape.rowMajor_val_two, Shape.rowMajor_val_three]
          show e.val * 128 + (16 * h.val + l.val) = (e.val * 8 + h.val) * 16 + l.val; omega),
    show (W4 m ρ c (Proc.devRef .tc main_v26_0) : S400000x128.Idx → EReal) = _ from (W4_arr m ρ c 7).trans (finalScore (V3 m ρ) c),
    launchScore_eq (m ((c : Thread nD τ).loc main_arg0)) (V3 m ρ c main_arg1) (m ((c : Thread nD τ).loc main_arg2))
      (m ((c : Thread nD τ).loc main_arg3)) (V3 m ρ c main_arg5)
      (rowOf (readyIdx (m ((c : Thread nD τ).loc main_arg6)))) (rowOf (readyIdx (m ((c : Thread nD τ).loc main_arg7))))
      (V3 m ρ c main_v11) (V3 m ρ c main_v18) (keys_apply m ρ c) (queries_apply m ρ c) e (lane h l),
    V3_edges, V3_edgeProj]

end Cert.KernelIdeal.HandValue

end
-- ==== Proof.LibSlabGatherScatter.lean ====
/-
  Row gather and row scatter-add of a rank-3 array, read at an index.

  `x[idx]` of `x : [N, H, D]` at an integer vector `idx : [E]` (carried as `[E, 1]`) lowers to a `stablehlo.gather`
  of whole `[H, D]` slabs: result element `(e, h, d)` is `x` at slab `idx[e]` (read signed, clamped into
  `[0, N − 1]`) and position `(h, d)`. A segment sum of slabs `upd : [E, H, D]` into `[N, H, D]` lowers to a
  `stablehlo.scatter` with an `add` body: operand element `(n, h, d)` receives every `upd (e, h, d)` whose index
  `idx[e]`, read signed and not clamped, is exactly `n`.
-/
import Idealize.ShloMosaic.Lib.ValueIdx
import Idealize.ShloMosaic.PureOps.Ideal

noncomputable section

open scoped BigOperators

namespace Cert.SlabOps

open Idealize.ShloMosaic Idealize.ShloMosaic.ValueIdx

/-! ## The slab gather -/

/-- The dimension numbers of a slab gather: operand `[N, H, D]`, start indices `[E, 1]`, result `[E, H, D]`; offset
    axes `1, 2`, collapsed operand axis `0`, the start index naming operand axis `0`, slices of one whole slab. -/
abbrev slabGatherDims (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- The slab the gather reads for edge `e`: the start index read signed and clamped into `[0, N − 1]`. -/
def gatherSlab {N E w : Nat} (hN : 0 < N) (idx : IVec ⟨2, ![E, 1]⟩ w) (e : Fin E) : Fin N :=
  ⟨min (idx (ix2 e 0)).toInt.toNat (N - 1), by omega⟩

/-- The slab gather at `(e, h, d)` is the operand at slab `gatherSlab e` and position `(h, d)`. -/
theorem slabGather_apply {α : Type} {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (slabGatherDims N E H D wf) x idx (ix3 e h d) = x (ix3 (gatherSlab hN idx e) h d) := by
  unfold Host.gather
  congr 1
  funext a
  refine Fin.ext ?_
  match a with
  | ⟨0, _⟩ =>
    show (slabGatherDims N E H D wf).start (ix3 e h d) idx 0 + (slabGatherDims N E H D wf).batchCoord (ix3 e h d) 0
      + (slabGatherDims N E H D wf).offCoord (ix3 e h d) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ (slabGatherDims N E H D wf).startIndexMap from List.mem_singleton.mpr rfl)]
    have hsi : (slabGatherDims N E H D wf).siIdx (ix3 e h d) ⟨List.idxOf (0 : Fin 3) (slabGatherDims N E H D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (slabGatherDims N E H D wf).start (ix3 e h d) idx 1 + (slabGatherDims N E H D wf).batchCoord (ix3 e h d) 1
      + (slabGatherDims N E H D wf).offCoord (ix3 e h d) 1 = h.val
    rw [GatherDims.batchCoord_eq_zero _ _ _ List.not_mem_nil]
    have hst : (slabGatherDims N E H D wf).start (ix3 e h d) idx 1 = 0 := by
      unfold GatherDims.start
      rw [dif_neg (fun hh => absurd (List.mem_singleton.mp hh) (show (1 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (1 : Fin 3) ≠ 0 by decide), List.not_mem_nil⟩)]
    rfl
  | ⟨2, _⟩ =>
    show (slabGatherDims N E H D wf).start (ix3 e h d) idx 2 + (slabGatherDims N E H D wf).batchCoord (ix3 e h d) 2
      + (slabGatherDims N E H D wf).offCoord (ix3 e h d) 2 = d.val
    rw [GatherDims.batchCoord_eq_zero _ _ _ List.not_mem_nil]
    have hst : (slabGatherDims N E H D wf).start (ix3 e h d) idx 2 = 0 := by
      unfold GatherDims.start
      rw [dif_neg (fun hh => absurd (List.mem_singleton.mp hh) (show (2 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (2 : Fin 3) ≠ 0 by decide), List.not_mem_nil⟩)]
    rfl

/-! ## The slab scatter-add -/

/-- The dimension numbers of a slab scatter: operand `[N, H, D]`, scatter indices `[E, 1]`, updates `[E, H, D]`;
    update window axes `1, 2`, inserted operand axis `0`, the scatter index naming operand axis `0`. -/
abbrev slabScatterDims (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section Scatter
variable {N E H D w : Nat} (wf : ScatterDims.WF ⟨3, ![N, H, D]⟩ ⟨2, ![E, 1]⟩ ⟨3, ![E, H, D]⟩ [1, 2] [0] [0] 1)

theorem slabScatter_mem_sKept (a : Fin 3) :
    a ∈ (slabScatterDims N E H D wf).sKept ↔ a ∉ (slabScatterDims N E H D wf).insertedWindowDims := by
  simp [ScatterDims.sKept, Shape.kept, List.mem_filter, List.mem_finRange]

/-- On the slab axis the window of update `(e, h, d)` starts at the scatter index `idx[e]`, read signed. -/
theorem slabScatter_start0 (idx : IVec ⟨2, ![E, 1]⟩ w) (e : Fin E) (h : Fin H) (d : Fin D) :
    (slabScatterDims N E H D wf).start (ix3 e h d) idx 0 = (idx (ix2 e 0)).toInt := by
  unfold ScatterDims.start
  rw [dif_pos (show (0 : Fin 3) ∈ (slabScatterDims N E H D wf).scatterDimsToOperandDims from List.mem_singleton.mpr rfl)]
  have hsi : (slabScatterDims N E H D wf).siIdx (ix3 e h d)
      ⟨List.idxOf (0 : Fin 3) (slabScatterDims N E H D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem slabScatter_start1 (idx : IVec ⟨2, ![E, 1]⟩ w) (e : Fin E) (h : Fin H) (d : Fin D) :
    (slabScatterDims N E H D wf).start (ix3 e h d) idx 1 = 0 := by
  unfold ScatterDims.start
  rw [dif_neg (fun hh => absurd (List.mem_singleton.mp hh) (show (1 : Fin 3) ≠ 0 by decide))]

theorem slabScatter_start2 (idx : IVec ⟨2, ![E, 1]⟩ w) (e : Fin E) (h : Fin H) (d : Fin D) :
    (slabScatterDims N E H D wf).start (ix3 e h d) idx 2 = 0 := by
  unfold ScatterDims.start
  rw [dif_neg (fun hh => absurd (List.mem_singleton.mp hh) (show (2 : Fin 3) ≠ 0 by decide))]

theorem slabScatter_window0 (e : Fin E) (h : Fin H) (d : Fin D) :
    (slabScatterDims N E H D wf).window (ix3 e h d) 0 = 0 := by
  unfold ScatterDims.window
  rw [dif_neg (fun hh => ((slabScatter_mem_sKept wf 0).mp hh) (List.mem_singleton.mpr rfl))]

theorem slabScatter_window1 (e : Fin E) (h : Fin H) (d : Fin D) :
    (slabScatterDims N E H D wf).window (ix3 e h d) 1 = h.val := by
  unfold ScatterDims.window
  rw [dif_pos ((slabScatter_mem_sKept wf 1).mpr
    (fun hh => absurd (List.mem_singleton.mp hh) (show (1 : Fin 3) ≠ 0 by decide)))]
  rfl

theorem slabScatter_window2 (e : Fin E) (h : Fin H) (d : Fin D) :
    (slabScatterDims N E H D wf).window (ix3 e h d) 2 = d.val := by
  unfold ScatterDims.window
  rw [dif_pos ((slabScatter_mem_sKept wf 2).mpr
    (fun hh => absurd (List.mem_singleton.mp hh) (show (2 : Fin 3) ≠ 0 by decide)))]
  rfl

end Scatter

/-- Update `(e, h, d)` lands on operand element `(n, h', d')` exactly when the positions agree and the scatter index
    `idx[e]`, read signed, is the slab `n`. -/
theorem slabScatter_resultIdx_iff {N E H D w : Nat}
    (wf : ScatterDims.WF ⟨3, ![N, H, D]⟩ ⟨2, ![E, 1]⟩ ⟨3, ![E, H, D]⟩ [1, 2] [0] [0] 1)
    (idx : IVec ⟨2, ![E, 1]⟩ w) (e : Fin E) (h : Fin H) (d : Fin D) (n : Fin N) (h' : Fin H) (d' : Fin D) :
    (slabScatterDims N E H D wf).resultIdx? (ix3 e h d) idx = some (ix3 n h' d')
      ↔ (h = h' ∧ d = d' ∧ (idx (ix2 e 0)).toInt = (n.val : Int)) := by
  have hh := h.isLt
  have hd := d.isLt
  have hn := n.isLt
  unfold ScatterDims.resultIdx?
  constructor
  · intro hyp
    by_cases hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a
    · rw [dif_pos hall] at hyp
      have heq := Option.some.inj hyp
      have h0 : ((slabScatterDims N E H D wf).start (ix3 e h d) idx 0 + (slabScatterDims N E H D wf).window (ix3 e h d) 0).toNat
          = n.val := congrArg (fun f => (f 0).val) heq
      have h1 : ((slabScatterDims N E H D wf).start (ix3 e h d) idx 1 + (slabScatterDims N E H D wf).window (ix3 e h d) 1).toNat
          = h'.val := congrArg (fun f => (f 1).val) heq
      have h2 : ((slabScatterDims N E H D wf).start (ix3 e h d) idx 2 + (slabScatterDims N E H D wf).window (ix3 e h d) 2).toNat
          = d'.val := congrArg (fun f => (f 2).val) heq
      have b0 := (hall 0).1
      rw [slabScatter_start0, slabScatter_window0] at h0 b0
      rw [slabScatter_start1, slabScatter_window1] at h1
      rw [slabScatter_start2, slabScatter_window2] at h2
      refine ⟨Fin.ext ?_, Fin.ext ?_, ?_⟩
      · omega
      · omega
      · omega
    · rw [dif_neg hall] at hyp
      exact absurd hyp (by simp)
  · rintro ⟨rfl, rfl, hi⟩
    have hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a := by
      intro a
      match a with
      | ⟨0, _⟩ =>
        show 0 ≤ (slabScatterDims N E H D wf).start (ix3 e h d) idx 0 + (slabScatterDims N E H D wf).window (ix3 e h d) 0
          ∧ (slabScatterDims N E H D wf).start (ix3 e h d) idx 0 + (slabScatterDims N E H D wf).window (ix3 e h d) 0 < (N : Int)
        rw [slabScatter_start0, slabScatter_window0, hi]
        omega
      | ⟨1, _⟩ =>
        show 0 ≤ (slabScatterDims N E H D wf).start (ix3 e h d) idx 1 + (slabScatterDims N E H D wf).window (ix3 e h d) 1
          ∧ (slabScatterDims N E H D wf).start (ix3 e h d) idx 1 + (slabScatterDims N E H D wf).window (ix3 e h d) 1 < (H : Int)
        rw [slabScatter_start1, slabScatter_window1]
        omega
      | ⟨2, _⟩ =>
        show 0 ≤ (slabScatterDims N E H D wf).start (ix3 e h d) idx 2 + (slabScatterDims N E H D wf).window (ix3 e h d) 2
          ∧ (slabScatterDims N E H D wf).start (ix3 e h d) idx 2 + (slabScatterDims N E H D wf).window (ix3 e h d) 2 < (D : Int)
        rw [slabScatter_start2, slabScatter_window2]
        omega
    rw [dif_pos hall]
    congr 1
    funext a
    refine Fin.ext ?_
    match a with
    | ⟨0, _⟩ =>
      show ((slabScatterDims N E H D wf).start (ix3 e h d) idx 0 + (slabScatterDims N E H D wf).window (ix3 e h d) 0).toNat = n.val
      rw [slabScatter_start0, slabScatter_window0, hi]
      omega
    | ⟨1, _⟩ =>
      show ((slabScatterDims N E H D wf).start (ix3 e h d) idx 1 + (slabScatterDims N E H D wf).window (ix3 e h d) 1).toNat = h.val
      rw [slabScatter_start1, slabScatter_window1]
      omega
    | ⟨2, _⟩ =>
      show ((slabScatterDims N E H D wf).start (ix3 e h d) idx 2 + (slabScatterDims N E H D wf).window (ix3 e h d) 2).toNat = d.val
      rw [slabScatter_start2, slabScatter_window2]
      omega

/-- THE SLAB SCATTER-ADD AT `(n, h, d)`: the operand element plus the sum of the update elements `upd (e, h, d)` over
    the edges `e` whose scatter index `idx[e]`, read signed and not clamped, is the slab `n`. -/
theorem slabScatterAdd_apply {N E H D w : Nat}
    (wf : ScatterDims.WF ⟨3, ![N, H, D]⟩ ⟨2, ![E, 1]⟩ ⟨3, ![E, H, D]⟩ [1, 2] [0] [0] 1)
    (x : (⟨3, ![N, H, D]⟩ : Shape).Idx → EReal) (idx : IVec ⟨2, ![E, 1]⟩ w)
    (upd : (⟨3, ![E, H, D]⟩ : Shape).Idx → EReal) (n : Fin N) (h : Fin H) (d : Fin D) :
    Ideal.hostScatterAdd (slabScatterDims N E H D wf) x idx upd (ix3 n h d)
      = x (ix3 n h d)
        + ∑ e ∈ Finset.univ.filter (fun e : Fin E => (idx (ix2 e 0)).toInt = (n.val : Int)), upd (ix3 e h d) := by
  unfold Ideal.hostScatterAdd
  congr 1
  refine Finset.sum_nbij' (fun j => (j 0 : Fin E)) (fun e => ix3 e h d) ?_ ?_ ?_ ?_ ?_
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    exact Finset.mem_filter.mpr ⟨Finset.mem_univ _, hyp.2.2⟩
  · intro e he
    exact Finset.mem_filter.mpr ⟨Finset.mem_univ _,
      (slabScatter_resultIdx_iff wf idx e h d n h d).mpr ⟨rfl, rfl, (Finset.mem_filter.mp he).2⟩⟩
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show ix3 a h d = ix3 a b c
    rw [hyp.1, hyp.2.1]
  · intro e _
    rfl
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show upd (ix3 a b c) = upd (ix3 a h d)
    rw [hyp.1, hyp.2.1]

end Cert.SlabOps

end
-- ==== Proof.RefLayer.lean ====
/-
  The reference program computes the edge-attention layer: its gated scores and its node outputs, read index by index,
  are the layer's. The reference gathers and scatters 8 x 16 slabs of rank-3 arrays, sums a head's 16 scores with a
  reduction, and divides by the square root of 16 where the layer multiplies by a quarter.
-/
import proofs.«172924_j14508399526689_2_alg».proof.Proof.Gen.ReferenceIdeal.Read
import proofs.«172924_j14508399526689_2_alg».proof.Proof.EdgeLaws
import proofs.«172924_j14508399526689_2_alg».proof.Proof.LibSlabGatherScatter

set_option maxRecDepth 16384

noncomputable section

namespace Cert.ReferenceIdeal.Layer

open Cert.ReferenceIdeal Cert.ReferenceIdeal.Gen Cert.ReferenceIdeal.Read Cert.EdgeAttn
open Idealize.ShloMosaic Idealize.ShloMosaic.TcCoe Idealize.ShloMosaic.ValueIdx
open scoped BigOperators

/-- The slab gather of the reference reads the slab of the clamped index. -/
theorem gather_apply (x : S50000x8x16.Idx → EReal) (I : IVec S400000x1 32) (e : Fin 400000) (h : Fin 8) (l : Fin 16) :
    Host.gather gather_S50000x8x16_S400000x1_S400000x8x16_12_0_n_n_0_1_1816 x I (ix3 e h l) = x (ix3 (rowOf I e) h l) :=
  SlabOps.slabGather_apply (by norm_num) gather_S50000x8x16_S400000x1_S400000x8x16_12_0_n_n_0_1_1816_wf x I e h l

/-- Reading a `[n, 128]` array through its `[n, 8, 16]` reshape at `(n, h, l)` reads feature `16 h + l` of row `n`. -/
theorem idx_split (n : Fin 50000) (h : Fin 8) (l : Fin 16) : idx_main_v1 (ix3 n h l) = ix2 n (lane h l) := by
  have hn := n.isLt; have hh := h.isLt; have hl := l.isLt
  funext a; refine Fin.ext ?_
  match a with
  | ⟨0, _⟩ => show ((n.val * 8 + h.val) * 16 + l.val) / 128 = n.val; omega
  | ⟨1, _⟩ => show ((n.val * 8 + h.val) * 16 + l.val) % 128 = 16 * h.val + l.val; omega

theorem lidx_eq (n : Fin 50000) (j k : Fin 128) : lidx_main_v0 (ix2 n j) k = ix2 n k :=
  funext fun a => Fin.ext (by match a with | ⟨0, _⟩ => rfl | ⟨1, _⟩ => rfl)
theorem ridx_eq (n : Fin 50000) (j k : Fin 128) : ridx_main_v0 (ix2 n j) k = ix2 k j :=
  funext fun a => Fin.ext (by match a with | ⟨0, _⟩ => rfl | ⟨1, _⟩ => rfl)

/-- The reference's queries at `(n, h, l)`. -/
theorem query_apply (x0 : S50000x128.Idx → EReal) (x2 : S128x128.Idx → EReal) (n : Fin 50000) (h : Fin 8) (l : Fin 16) :
    val_main_v1 (F := Ideal) x0 x2 (ix3 n h l) = nodeProj x0 x2 n (lane h l) := by
  rw [val_main_v1_apply, idx_split, val_main_v0_apply]
  unfold nodeProj
  exact Finset.sum_congr rfl fun k _ => by rw [lidx_eq, ridx_eq]

/-- The reference's keys at `(n, h, l)`. -/
theorem key_apply (x0 : S50000x128.Idx → EReal) (x3 : S128x128.Idx → EReal) (n : Fin 50000) (h : Fin 8) (l : Fin 16) :
    val_main_v3 (F := Ideal) x0 x3 (ix3 n h l) = nodeProj x0 x3 n (lane h l) := by
  rw [val_main_v3_apply, show idx_main_v3 (ix3 n h l) = ix2 n (lane h l) from idx_split n h l, val_main_v2_apply]
  unfold nodeProj
  exact Finset.sum_congr rfl fun k _ => by
    rw [show lidx_main_v2 (ix2 n (lane h l)) k = ix2 n k from lidx_eq n _ k,
      show ridx_main_v2 (ix2 n (lane h l)) k = ix2 k (lane h l) from ridx_eq n _ k]

/-- The reference's values at `(n, h, l)`. -/
theorem value_apply (x0 : S50000x128.Idx → EReal) (x4 : S128x128.Idx → EReal) (n : Fin 50000) (h : Fin 8) (l : Fin 16) :
    val_main_v5 (F := Ideal) x0 x4 (ix3 n h l) = nodeProj x0 x4 n (lane h l) := by
  rw [val_main_v5_apply, show idx_main_v5 (ix3 n h l) = ix2 n (lane h l) from idx_split n h l, val_main_v4_apply]
  unfold nodeProj
  exact Finset.sum_congr rfl fun k _ => by
    rw [show lidx_main_v4 (ix2 n (lane h l)) k = ix2 n k from lidx_eq n _ k,
      show ridx_main_v4 (ix2 n (lane h l)) k = ix2 k (lane h l) from ridx_eq n _ k]

theorem idx_splitE (e : Fin 400000) (h : Fin 8) (l : Fin 16) : idx_main_v7 (ix3 e h l) = ix2 e (lane h l) := by
  have hn := e.isLt; have hh := h.isLt; have hl := l.isLt
  funext a; refine Fin.ext ?_
  match a with
  | ⟨0, _⟩ => show ((e.val * 8 + h.val) * 16 + l.val) / 128 = e.val; omega
  | ⟨1, _⟩ => show ((e.val * 8 + h.val) * 16 + l.val) % 128 = 16 * h.val + l.val; omega

/-- The reference's projected edge features at `(e, h, l)`. -/
theorem edge_apply (x1 : S400000x128.Idx → EReal) (x5 : S128x128.Idx → EReal) (e : Fin 400000) (h : Fin 8) (l : Fin 16) :
    val_main_v7 (F := Ideal) x1 x5 (ix3 e h l) = edgeProj x1 x5 e (lane h l) := by
  rw [val_main_v7_apply, idx_splitE, val_main_v6_apply]
  unfold edgeProj
  exact Finset.sum_congr rfl fun k _ => by
    rw [show lidx_main_v6 (ix2 e (lane h l)) k = ix2 e k from
        funext fun a => Fin.ext (by match a with | ⟨0, _⟩ => rfl | ⟨1, _⟩ => rfl),
      show ridx_main_v6 (ix2 e (lane h l)) k = ix2 k (lane h l) from
        funext fun a => Fin.ext (by match a with | ⟨0, _⟩ => rfl | ⟨1, _⟩ => rfl)]

/-- THE REFERENCE'S SCORES are the layer's. -/
theorem score_apply (x0 : S50000x128.Idx → EReal) (x1 : S400000x128.Idx → EReal) (x2 x3 x5 : S128x128.Idx → EReal)
    (x6 x7 : IVec S400000 32) (e : Fin 400000) (h : Fin 8) (l : Fin 16) :
    val_main_v27 (F := Ideal) x0 x1 x2 x3 x5 x6 x7 (ix3 e h l)
      = score x0 x1 x2 x3 x5 (rowOf (val_main_v13 (F := Ideal) x6)) (rowOf (val_main_v20 (F := Ideal) x7)) e (lane h l) := by
  rw [val_main_v27_apply, val_main_v26_apply, val_main_call0_v2_apply, val_main_v25_apply, val_main_v22_apply,
    edge_apply]
  unfold val_main_v14 val_main_v21
  rw [gather_apply, gather_apply, key_apply, query_apply]
  rw [val_main_call0_v4_apply, val_main_call0_v1_apply, val_main_v24_apply]
  unfold score clamp5
  rw [← div_sqrt_sixteen]
  rfl

/-- THE REFERENCE'S WEIGHTS are the layer's. -/
theorem weight_apply (x0 : S50000x128.Idx → EReal) (x1 : S400000x128.Idx → EReal) (x2 x3 x5 : S128x128.Idx → EReal)
    (x6 x7 : IVec S400000 32) (e : Fin 400000) (h : Fin 8) :
    val_main_v31 (F := Ideal) x0 x1 x2 x3 x5 x6 x7 (ix3 e h 0)
      = weight x0 x1 x2 x3 x5 (rowOf (val_main_v13 (F := Ideal) x6)) (rowOf (val_main_v20 (F := Ideal) x7)) e h := by
  rw [val_main_v31_apply, val_main_v30_apply, val_main_call1_v2_apply, val_main_v29_apply, val_main_v28_apply,
    val_main_call1_v4_apply, val_main_call1_v1_apply]
  have hs : ∀ k : Fin 16, val_main_v27 (F := Ideal) x0 x1 x2 x3 x5 x6 x7 (idx_main_v28 (idx_main_v29 (ix3 e h 0)) k)
      = score x0 x1 x2 x3 x5 (rowOf (val_main_v13 (F := Ideal) x6)) (rowOf (val_main_v20 (F := Ideal) x7)) e (lane h k) := by
    intro k
    rw [show idx_main_v28 (idx_main_v29 (ix3 e h (0 : Fin 1))) k = ix3 e h k from
      funext fun a => Fin.ext (by match a with | ⟨0, _⟩ => rfl | ⟨1, _⟩ => rfl | ⟨2, _⟩ => rfl)]
    exact score_apply x0 x1 x2 x3 x5 x6 x7 e h k
  rw [Finset.sum_congr rfl fun k _ => hs k]
  unfold weight clamp5
  rw [show (val_main_cst_5 (F := Ideal)) (Shape.Idx.first h_S_) = Ideal.ofBits .f32 0x00000000#32 from rfl, word_zero, zero_add]
  rfl

/-- The slab segment sum of the reference into `[50000, 8, 16]`. -/
theorem scatter_apply (x : S50000x8x16.Idx → EReal) (I : IVec S400000x1 32) (u : S400000x8x16.Idx → EReal)
    (n : Fin 50000) (h : Fin 8) (l : Fin 16) :
    Host.scatterAdd (F := Ideal) (φ := .f32) scatter_S50000x8x16_S400000x1_S400000x8x16_12_0_0_1 x I u (ix3 n h l)
      = x (ix3 n h l) + ∑ e ∈ Finset.univ.filter (fun e => arrivesAt I e n), u (ix3 e h l) :=
  SlabOps.slabScatterAdd_apply scatter_S50000x8x16_S400000x1_S400000x8x16_12_0_0_1_wf x I u n h l

/-- The slab segment sum of the reference into `[50000, 8, 1]`. -/
theorem scatter1_apply (x : S50000x8x1.Idx → EReal) (I : IVec S400000x1 32) (u : S400000x8x1.Idx → EReal)
    (n : Fin 50000) (h : Fin 8) :
    Host.scatterAdd (F := Ideal) (φ := .f32) scatter_S50000x8x1_S400000x1_S400000x8x1_12_0_0_1 x I u (ix3 n h 0)
      = x (ix3 n h 0) + ∑ e ∈ Finset.univ.filter (fun e => arrivesAt I e n), u (ix3 e h 0) :=
  SlabOps.slabScatterAdd_apply scatter_S50000x8x1_S400000x1_S400000x8x1_12_0_0_1_wf x I u n h 0

/-- THE REFERENCE'S NODE OUTPUTS are the layer's. -/
theorem nodeOut_apply (x0 : S50000x128.Idx → EReal) (x1 : S400000x128.Idx → EReal) (x2 x3 x4 x5 : S128x128.Idx → EReal)
    (x6 x7 : IVec S400000 32) (n : Fin 50000) (h : Fin 8) (l : Fin 16) :
    val_main_v50 (F := Ideal) x0 x1 x2 x3 x4 x5 x6 x7 (ix3 n h l)
      = nodeOut x0 x1 x2 x3 x4 x5 (rowOf (val_main_v13 (F := Ideal) x6)) (rowOf (val_main_v20 (F := Ideal) x7))
          (arrivesAt (val_main_v42 (F := Ideal) x7)) n h l := by
  rw [val_main_v50_apply, val_main_v49_apply, val_main_v48_apply, val_main_v47_apply,
    show idx_main_v49 (ix3 n h l) = ix3 n h (0 : Fin 1) from
      funext fun a => Fin.ext (by match a with | ⟨0, _⟩ => rfl | ⟨1, _⟩ => rfl | ⟨2, _⟩ => rfl)]
  unfold val_main_v43 val_main_v46
  rw [scatter_apply, scatter1_apply]
  have hnum : ∀ e : Fin 400000, val_main_v40 (F := Ideal) x0 x1 x2 x3 x4 x5 x6 x7 (ix3 e h l)
      = nodeProj x0 x4 (rowOf (val_main_v13 (F := Ideal) x6) e) (lane h l)
        * weight x0 x1 x2 x3 x5 (rowOf (val_main_v13 (F := Ideal) x6)) (rowOf (val_main_v20 (F := Ideal) x7)) e h := by
    intro e
    rw [val_main_v40_apply, val_main_v39_apply,
      show idx_main_v39 (ix3 e h l) = ix3 e h (0 : Fin 1) from
        funext fun a => Fin.ext (by match a with | ⟨0, _⟩ => rfl | ⟨1, _⟩ => rfl | ⟨2, _⟩ => rfl),
      weight_apply]
    unfold val_main_v38
    rw [gather_apply, value_apply]
    rfl
  rw [Finset.sum_congr rfl fun e _ => hnum e,
    Finset.sum_congr rfl fun e _ => weight_apply x0 x1 x2 x3 x5 x6 x7 e h]
  rw [val_main_v41_apply, val_main_v44_apply]
  unfold nodeOut
  rfl

end Cert.ReferenceIdeal.Layer

end
-- ==== Proof.lean ====
/-
  The certificate of an edge-attention layer computed two ways.

  The kernel program projects the node features by three matrices at once (one launch over ten row blocks, the three
  matrices laid side by side), slices the product into queries, keys and values, gathers their rows along the edges,
  computes in a second launch (fifty blocks of edges) the clamped, gated scores, the per-head weights — summing a head's
  sixteen scores by a product with a 0/1 marker matrix, and spreading the weights back over the lanes by a product with
  its transpose — and the weighted values, and finally sums weights and weighted values into the destination nodes and
  divides. The reference does the same on rank-3 arrays with three separate projections, a reduction over the lanes
  and a division by the square root of sixteen.

  Over the extended reals both are one function of the eight arguments (the layer of EdgeLaws.lean): a product with a
  quarter is a division by four, a sum against the marker is the head's sum, and nothing else differs but the grouping
  of the data. The three frames come from runs that name every buffer at the end; the idealization changed no
  operation of the kernel program.
-/
import proofs.«172924_j14508399526689_2_alg».proof.Defs
import proofs.«172924_j14508399526689_2_alg».proof.Proof.Gen.Kernel
import proofs.«172924_j14508399526689_2_alg».proof.Proof.Gen.KernelIdeal
import proofs.«172924_j14508399526689_2_alg».proof.Proof.Gen.ReferenceIdeal
import proofs.«172924_j14508399526689_2_alg».proof.Proof.Gen.ReferenceIdeal.Read
import proofs.«172924_j14508399526689_2_alg».proof.Proof.Gen.Pre_finite_inputs
import proofs.«172924_j14508399526689_2_alg».proof.Proof.WordRun
import proofs.«172924_j14508399526689_2_alg».proof.Proof.IdealRun
import proofs.«172924_j14508399526689_2_alg».proof.Proof.IdealNodes
import proofs.«172924_j14508399526689_2_alg».proof.Proof.IdealScores
import proofs.«172924_j14508399526689_2_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- A buffer of the word-level program that lives outside the launches' scopes is among those the run names. -/
theorem named_word (b : Ref Cert.Kernel.sig .tc)
    (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

/-- The same for the idealized program. -/
theorem named_ideal (b : Ref Cert.KernelIdeal.sig .tc)
    (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level program runs to the end and leaves its eight arguments as they were. -/
theorem frame_word : Cert.frame_Kernel := fun m ρ _ =>
  (θ_run Cert.Kernel.defs _ _).mono (fun r h c =>
    ⟨(h c _ (named_word Cert.Kernel.main_arg0 (by decide))).trans (Cert.Kernel.Hand.W5_main_arg0 m ρ c),
     (h c _ (named_word Cert.Kernel.main_arg1 (by decide))).trans (Cert.Kernel.Hand.W5_main_arg1 m ρ c),
     (h c _ (named_word Cert.Kernel.main_arg2 (by decide))).trans (Cert.Kernel.Hand.W5_main_arg2 m ρ c),
     (h c _ (named_word Cert.Kernel.main_arg3 (by decide))).trans (Cert.Kernel.Hand.W5_main_arg3 m ρ c),
     (h c _ (named_word Cert.Kernel.main_arg4 (by decide))).trans (Cert.Kernel.Hand.W5_main_arg4 m ρ c),
     (h c _ (named_word Cert.Kernel.main_arg5 (by decide))).trans (Cert.Kernel.Hand.W5_main_arg5 m ρ c),
     (h c _ (named_word Cert.Kernel.main_arg6 (by decide))).trans (Cert.Kernel.Hand.W5_main_arg6 m ρ c),
     (h c _ (named_word Cert.Kernel.main_arg7 (by decide))).trans (Cert.Kernel.Hand.W5_main_arg7 m ρ c)⟩)
    (Cert.Kernel.Hand.run_all (F := Bits) m ρ)

/-- What the idealized program's run gives for its arguments. -/
theorem kept_ideal {α : Type} (m : (ℓ : Loc Cert.KernelIdeal.nD Cert.KernelIdeal.τ Cert.KernelIdeal.sig) → Buf (Elt Ideal) ℓ)
    (ρ : Dev Cert.KernelIdeal.nD → PrngReg) (r : α × MemSt Cert.KernelIdeal.nD Cert.KernelIdeal.τ Cert.KernelIdeal.sig (Elt Ideal))
    (h : ∀ c : Dev Cert.KernelIdeal.nD, ∀ b ∈ Pipeline.ucRefs Cert.KernelIdeal.τ Cert.KernelIdeal.sig,
      r.2.mem (((c : Thread Cert.KernelIdeal.nD Cert.KernelIdeal.τ)).1, b) = Cert.KernelIdeal.Hand.W5 m ρ c b)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  ⟨(h c _ (named_ideal Cert.KernelIdeal.main_arg0 (by decide))).trans (Cert.KernelIdeal.Hand.W5_main_arg0 m ρ c),
   (h c _ (named_ideal Cert.KernelIdeal.main_arg1 (by decide))).trans (Cert.KernelIdeal.Hand.W5_main_arg1 m ρ c),
   (h c _ (named_ideal Cert.KernelIdeal.main_arg2 (by decide))).trans (Cert.KernelIdeal.Hand.W5_main_arg2 m ρ c),
   (h c _ (named_ideal Cert.KernelIdeal.main_arg3 (by decide))).trans (Cert.KernelIdeal.Hand.W5_main_arg3 m ρ c),
   (h c _ (named_ideal Cert.KernelIdeal.main_arg4 (by decide))).trans (Cert.KernelIdeal.Hand.W5_main_arg4 m ρ c),
   (h c _ (named_ideal Cert.KernelIdeal.main_arg5 (by decide))).trans (Cert.KernelIdeal.Hand.W5_main_arg5 m ρ c),
   (h c _ (named_ideal Cert.KernelIdeal.main_arg6 (by decide))).trans (Cert.KernelIdeal.Hand.W5_main_arg6 m ρ c),
   (h c _ (named_ideal Cert.KernelIdeal.main_arg7 (by decide))).trans (Cert.KernelIdeal.Hand.W5_main_arg7 m ρ c)⟩

/-- The idealized program runs to the end and leaves its arguments as they were. -/
theorem frame_ideal : Cert.frame_KernelIdeal := fun m ρ _ =>
  (θ_run Cert.KernelIdeal.defs _ _).mono (fun r h c => kept_ideal m ρ r h c) (Cert.KernelIdeal.Hand.run_all (F := Ideal) m ρ)

/-- The reference runs to the end and leaves its arguments as they were. -/
theorem frame_ref : Cert.frame_ReferenceIdeal := fun m ρ _ =>
  (θ_run Cert.ReferenceIdeal.defs _ _).mono (fun _ h c => (h c).2.2) (Cert.ReferenceIdeal.Value.run (F := Ideal) m ρ)

open Cert.KernelIdeal.HandValue Cert.EdgeAttn in
/-- Both idealized programs end with the layer's node outputs and scores of their (agreeing) arguments. -/
theorem algebraic : Cert.algebraic_KernelIdeal_ReferenceIdeal := by
  intro m ρ m' ρ' _ hagree
  refine ⟨fun c => layerNodes (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => layerScores (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_, ?_, kept_ideal m ρ r h c⟩)
      (Cert.KernelIdeal.Hand.run_all (F := Ideal) m ρ)
    · refine (h c _ (named_ideal Cert.KernelIdeal.main_v38 (by decide))).trans (funext fun i => ?_)
      obtain ⟨n, hd, l, rfl⟩ : ∃ (n : Fin 50000) (hd : Fin 8) (l : Fin 16), i = ix3 n hd l := ⟨i 0, i 1, i 2, eq_ix3 i⟩
      exact kernel_nodes m ρ c n hd l
    · refine (h c _ (named_ideal Cert.KernelIdeal.main_v39 (by decide))).trans (funext fun i => ?_)
      obtain ⟨e, hd, l, rfl⟩ : ∃ (e : Fin 400000) (hd : Fin 8) (l : Fin 16), i = ix3 e hd l := ⟨i 0, i 1, i 2, eq_ix3 i⟩
      exact kernel_scores m ρ c e hd l
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v50_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      funext i
      obtain ⟨n, hd, l, rfl⟩ : ∃ (n : Fin 50000) (hd : Fin 8) (l : Fin 16), i = ix3 n hd l := ⟨i 0, i 1, i 2, eq_ix3 i⟩
      exact Cert.ReferenceIdeal.Layer.nodeOut_apply _ _ _ _ _ _ _ _ n hd l
    · rw [Cert.ReferenceIdeal.Read.val_main_v27_eq, (hagree c).1, (hagree c).2.1, (hagree c).2.2.1, (hagree c).2.2.2.1,
        (hagree c).2.2.2.2.2.1, (hagree c).2.2.2.2.2.2.1, (hagree c).2.2.2.2.2.2.2]
      funext i
      obtain ⟨e, hd, l, rfl⟩ : ∃ (e : Fin 400000) (hd : Fin 8) (l : Fin 16), i = ix3 e hd l := ⟨i 0, i 1, i 2, eq_ix3 i⟩
      exact Cert.ReferenceIdeal.Layer.score_apply _ _ _ _ _ _ _ e hd l

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
